-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1024x512 : Shape := ⟨2, ![1024, 512]⟩
abbrev S512x512 : Shape := ⟨2, ![512, 512]⟩
abbrev S1024x1 : Shape := ⟨2, ![1024, 1]⟩
abbrev S512x1 : Shape := ⟨2, ![512, 1]⟩
abbrev S1x512 : Shape := ⟨2, ![1, 512]⟩
abbrev S1024 : Shape := ⟨1, ![1024]⟩

abbrev nBuf : Space → Nat
  | .hbm => 18
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S8192x512, .bf16⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .i1⟩
  | .hbm, ⟨16, _⟩ => ⟨S_, .f32⟩
  | .hbm, ⟨17, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x1, .f32⟩
  | .local _ .vmem, ⟨5, _⟩ => ⟨S1024x1, .f32⟩
  | .local _ .vmem, ⟨6, _⟩ => ⟨S512x1, .f32⟩
  | .local _ .vmem, ⟨7, _⟩ => ⟨S512x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_cond3 (i : grid0.Coords) : BitVec 1 :=
  let arg1 : BitVec 32 := BitVec.ofNat 32 (i 1).val
  let c15_i32 : BitVec 32 := 15#32
  let v9 : BitVec 1 := Scalar.cmpi .eq arg1 c15_i32
  let v10 : BitVec 32 := Scalar.extui v9
  let c0_i32_2 : BitVec 32 := 0#32
  let v11 : BitVec 1 := Scalar.cmpi .ne v10 c0_i32_2
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  transposes_S512x512_p1_0_S512x512 : S512x512.Transposes [1, 0] S512x512
  transposes_S512x1_p1_0_S1x512 : S512x1.Transposes [1, 0] S1x512
  broadcasts_S1024x1_S1024x512 : S1024x1.Broadcasts S1024x512
  broadcasts_S1x512_S1024x512 : S1x512.Broadcasts S1024x512
  iota_S1024x512_d0_w32 : S1024x512.Iotas .tc 32 [0]
  iota_S1024x512_d1_w32 : S1024x512.Iotas .tc 32 [1]
  natLt_1_32 : 1 < 32
  reduces_S1024x512_S1024 : S1024x512.Reduces [1] S1024
  shapeCasts_S1024_S1024x1 : S1024.ShapeCasts S1024x1
  reducesTo_S8192x1_S_d0_1 : S8192x1.ReducesTo [0, 1] S_
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .bf16 = 32 ∨ (Rect.block (s := S8192x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v1) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond3 i == 1#1) | 5 => fun i => !(k0_cond3 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S512x8192 : Shape := ⟨2, ![512, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 73
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S8192, .f32⟩
  | .hbm, ⟨5, _⟩ => ⟨S512x8192, .f32⟩
  | .hbm, ⟨6, _⟩ => ⟨S8192x8192, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S8192, .i32⟩
  | .hbm, ⟨17, _⟩ => ⟨S_, .i32⟩
  | .hbm, ⟨18, _⟩ => ⟨S_, .i32⟩
  | .hbm, ⟨19, _⟩ => ⟨S8192, .i32⟩
  | .hbm, ⟨20, _⟩ => ⟨S8192, .i32⟩
  | .hbm, ⟨21, _⟩ => ⟨S8192, .i32⟩
  | .hbm, ⟨22, _⟩ => ⟨S_, .i32⟩
  | .hbm, ⟨23, _⟩ => ⟨S8192, .i32⟩
  | .hbm, ⟨24, _⟩ => ⟨S8192, .i1⟩
  | .hbm, ⟨25, _⟩ => ⟨S8192, .i32⟩
  | .hbm, ⟨26, _⟩ => ⟨S8192, .i32⟩
  | .hbm, ⟨27, _⟩ => ⟨S_, .i32⟩
  | .hbm, ⟨28, _⟩ => ⟨S8192, .i32⟩
  | .hbm, ⟨29, _⟩ => ⟨S8192, .i1⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S8192x1, .i32⟩
  | .hbm, ⟨36, _⟩ => ⟨S1x8192, .i32⟩
  | .hbm, ⟨37, _⟩ => ⟨S8192x8192, .i32⟩
  | .hbm, ⟨38, _⟩ => ⟨S8192x8192, .i32⟩
  | .hbm, ⟨39, _⟩ => ⟨S8192x8192, .i1⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S8192x8192, .i32⟩
  | .hbm, ⟨51, _⟩ => ⟨S_, .i32⟩
  | .hbm, ⟨52, _⟩ => ⟨S8192x8192, .i32⟩
  | .hbm, ⟨53, _⟩ => ⟨S8192x8192, .i32⟩
  | .hbm, ⟨54, _⟩ => ⟨S8192x8192, .i32⟩
  | .hbm, ⟨55, _⟩ => ⟨S8192x8192, .i1⟩
  | .hbm, ⟨56, _⟩ => ⟨S_, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S8192x8192, .f32⟩
  | .hbm, ⟨61, _⟩ => ⟨S8192x8192, .i1⟩
  | .hbm, ⟨62, _⟩ => ⟨S8192x8192, .i32⟩
  | .hbm, ⟨63, _⟩ => ⟨S_, .i32⟩
  | .hbm, ⟨64, _⟩ => ⟨S_, .i32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .i1⟩
  | .hbm, ⟨71, _⟩ => ⟨S_, .f32⟩
  | .hbm, ⟨72, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_0 : Ref sig .tc := ⟨.hbm, 31, rfl⟩
abbrev main_call1_v12 : Ref sig .tc := ⟨.hbm, 32, rfl⟩
abbrev main_call1_v13 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_0 : Ref sig .tc := ⟨.hbm, 40, rfl⟩
abbrev main_v18 : Ref sig .tc := ⟨.hbm, 41, rfl⟩
abbrev main_v19 : Ref sig .tc := ⟨.hbm, 42, rfl⟩
abbrev main_cst_1 : Ref sig .tc := ⟨.hbm, 43, rfl⟩
abbrev main_v20 : Ref sig .tc := ⟨.hbm, 44, rfl⟩
abbrev main_v21 : Ref sig .tc := ⟨.hbm, 45, rfl⟩
abbrev main_cst_2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_call3_v0 : Ref sig .tc := ⟨.hbm, 50, rfl⟩
abbrev main_call3_c : Ref sig .tc := ⟨.hbm, 51, rfl⟩
abbrev main_call3_v1 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_cst : Ref sig .tc := ⟨.hbm, 56, rfl⟩
abbrev main_call3_v5 : Ref sig .tc := ⟨.hbm, 57, rfl⟩
abbrev main_v25 : Ref sig .tc := ⟨.hbm, 58, rfl⟩
abbrev main_call4_cst : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_call4_c : Ref sig .tc := ⟨.hbm, 63, rfl⟩
abbrev main_v26 : Ref sig .tc := ⟨.hbm, 64, rfl⟩
abbrev main_v27 : Ref sig .tc := ⟨.hbm, 65, rfl⟩
abbrev main_cst_3 : Ref sig .tc := ⟨.hbm, 66, rfl⟩
abbrev main_v28 : Ref sig .tc := ⟨.hbm, 67, rfl⟩
abbrev main_v29 : Ref sig .tc := ⟨.hbm, 68, rfl⟩
abbrev main_cst_4 : Ref sig .tc := ⟨.hbm, 69, rfl⟩
abbrev main_v30 : Ref sig .tc := ⟨.hbm, 70, rfl⟩
abbrev main_cst_5 : Ref sig .tc := ⟨.hbm, 71, rfl⟩
abbrev main_v31 : Ref sig .tc := ⟨.hbm, 72, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  bcast_S_S8192 : S_.BroadcastsInDim S8192 (![] : Fin 0 → Fin S8192.rank)
  natLt_1_32 : 1 < 32
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.KBodyDefs.lean ====
/-
  The loss kernel's body at one grid point, as mathematics.

  The grid is 8 row blocks (1024 rows each) by 16 column blocks (512 columns each) of the 8192 x 8192 matrix of
  pairwise losses; point t is row block t / 16, column block t % 16. At a point the body does up to three things,
  each under a condition on the point alone:
    * at column block 0 it clears the two accumulators (row sums of the loss, row counts of its non-zeros);
    * where the tile meets the upper triangle, (j + 1) * 512 > i * 1024, it adds the tile's row sums and row counts;
    * at column block 15 it copies the accumulators to the two outputs.
  This module names the three conditions, gives them in closed form over the 128 points, names the tile's row sums
  (rowSum) and its non-zero mask (nzMask) as functions of the four input blocks, and records where the output
  windows are idle (everywhere but column block 15) and written back (exactly there).
-/
import proofs.«173804_j30554397344482_2_alg».proof.Proof.Gen.Kernel.Launch
import proofs.«173804_j30554397344482_2_alg».proof.Proof.Gen.Kernel.Skeleton
import proofs.«173804_j30554397344482_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three branch conditions of the body, as the printed scalar chains over the grid coordinates. -/
abbrev cond1 (i : grid0.Coords) : Prop := (Scalar.cmpi .ne (Scalar.extui (Scalar.cmpi .eq (BitVec.ofNat 32 (i 1).val) 0#32)) 0#32) = 1#1
abbrev cond2 (i : grid0.Coords) : Prop := (Scalar.cmpi .ne (Scalar.extui (Scalar.cmpi .sgt (Scalar.muli (Scalar.addi (BitVec.ofNat 32 (i 1).val) 1#32) 512#32) (Scalar.muli (BitVec.ofNat 32 (i 0).val) 1024#32))) 0#32) = 1#1
abbrev cond3 (i : grid0.Coords) : Prop := k0_cond3 i = 1#1

/-- The zero offsets of a whole-buffer rectangle, however spelt. -/
theorem hz2 : (![0, 0] : Fin 2 → Nat) = fun _ => 0 := by funext a; fin_cases a <;> rfl

/-- Row sums of the masked loss tile of grid point `i`, from the four input blocks. -/
def rowSum (i : grid0.Coords) (x0 : Vec F S1024x512 .bf16) (x1 : Vec F S512x512 .bf16) (x2 : Vec F S1024x1 .f32) (x3 : Vec F S512x1 .f32) : FVec F S1024x1 .f32 :=
  k0_pay12 (k0_pay5 x0 x1 x2 x3) (k0_pay6 (BitVec.ofNat 32 (i 0).val)) (k0_pay7 (BitVec.ofNat 32 (i 1).val)) (k0_pay8 (BitVec.ofNat 32 (i 0).val)) (k0_pay9 (BitVec.ofNat 32 (i 0).val)) (k0_pay10 (BitVec.ofNat 32 (i 0).val))
/-- Where that tile is non-zero. -/
def nzMask (i : grid0.Coords) (x0 : Vec F S1024x512 .bf16) (x1 : Vec F S512x512 .bf16) (x2 : Vec F S1024x1 .f32) (x3 : Vec F S512x1 .f32) : IVec S1024x512 1 :=
  k0_pay13 (k0_pay5 x0 x1 x2 x3) (k0_pay6 (BitVec.ofNat 32 (i 0).val)) (k0_pay7 (BitVec.ofNat 32 (i 1).val)) (k0_pay8 (BitVec.ofNat 32 (i 0).val)) (k0_pay9 (BitVec.ofNat 32 (i 0).val)) (k0_pay10 (BitVec.ofNat 32 (i 0).val))

/-- The conditions in closed form over the 128 grid points (point `t` is row block `t / 16`, column block `t % 16`). -/
theorem hcond1 : ∀ t : Fin cfg0.N, cond1 (grid0.coords t) ↔ t.val % 16 = 0 :=
  (by decide +kernel : ∀ t : Fin grid0.N, cond1 (grid0.coords t) ↔ t.val % 16 = 0)
theorem hcond2 : ∀ t : Fin cfg0.N, cond2 (grid0.coords t) ↔ 2 * (t.val / 16) < t.val % 16 + 1 :=
  (by decide +kernel : ∀ t : Fin grid0.N, cond2 (grid0.coords t) ↔ 2 * (t.val / 16) < t.val % 16 + 1)
theorem hcond3 : ∀ t : Fin cfg0.N, cond3 (grid0.coords t) ↔ t.val % 16 = 15 :=
  (by decide +kernel : ∀ t : Fin grid0.N, cond3 (grid0.coords t) ↔ t.val % 16 = 15)

/-- The output windows are idle exactly off the last column block, and written back exactly there. -/
theorem idle4 : ∀ t : Fin cfg0.N, ¬cond3 (grid0.coords t) → cfg0.idle 4 (grid0.coords t) = true := by decide +kernel
theorem idle5 : ∀ t : Fin cfg0.N, ¬cond3 (grid0.coords t) → cfg0.idle 5 (grid0.coords t) = true := by decide +kernel
theorem noFlush4 : ∀ t : Fin cfg0.N, ¬cond3 (grid0.coords t) → (cfg0.win 4).flush t = false := by decide +kernel
theorem noFlush5 : ∀ t : Fin cfg0.N, ¬cond3 (grid0.coords t) → (cfg0.win 5).flush t = false := by decide +kernel
theorem live4 : ∀ t : Fin cfg0.N, cond3 (grid0.coords t) → cfg0.idle 4 (grid0.coords t) = false := by decide +kernel
theorem live5 : ∀ t : Fin cfg0.N, cond3 (grid0.coords t) → cfg0.idle 5 (grid0.coords t) = false := by decide +kernel
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl

end Cert.Kernel.Body

end
-- ==== Proof.KRunA.lean ====
/-
  The body at a grid point of case A: the accumulators are cleared, then the tile's row sums and row counts are added to the cleared values; the outputs are not touched.
  Stated on any whole staging memrefs holding the four input blocks, the two output buffers and the two accumulators
  at given contents: the body runs to the end without fault, the inputs as they were, and each other buffer at the
  contents named in the statement. Every store of the body overwrites a whole buffer, so what a buffer holds afterwards
  is the last value stored into it.
-/
import proofs.«173804_j30554397344482_2_alg».proof.Proof.KBodyDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runA (c : Dev nD) (i : grid0.Coords)
    (arg2 : Memref sig .tc .vmem S1024x512 .bf16) (harg2 : arg2.IsWhole) (arg3 : Memref sig .tc .vmem S512x512 .bf16) (harg3 : arg3.IsWhole)
    (arg4 : Memref sig .tc .vmem S1024x1 .f32) (harg4 : arg4.IsWhole) (arg5 : Memref sig .tc .vmem S512x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : cond1 i) (hc2 : cond2 i) (hc3 : ¬cond3 i)
    (x0 : Vec F S1024x512 .bf16) (x1 : Vec F S512x512 .bf16) (x2 : Vec F S1024x1 .f32) (x3 : Vec F S512x1 .f32)
    (xi4 xi5 xs0 xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare (k0_pay3 (rowSum i x0 x1 x2 x3) k0_pay1) ∗ owns (c : Thread nD τ) arg9 fullShare (k0_pay4 (nzMask i x0 x1 x2 x3) k0_pay2)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hfs0; obtain rfl := harg9.eq_unread hfs1
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact harg7.read_unread _
  isplitl [HS0]
  · iexists _; isplitr; swap; · iexact HS0
    ipureintro
    try sl_unfold_words
    rw [View.read_writes_eq_canon _ _ _ (fun y => ⟨_, List.mem_cons_self, View.mem_set_unit_zero hz2 inb_S1024x1_S1024x1_0_0 y⟩), View.canon_cons_unit_zero hz2]
    try rw [View.readCov_unit_zero _ hz2]
    try simp only [View.readAt_eq_ld, harg2.read_unread, harg3.read_unread, harg4.read_unread, harg5.read_unread, harg8.read_unread, harg9.read_unread, View.ld_unit_zero (S := S1024x1) hz2, View.ld_unit_zero (S := S1024x512) hz2, View.ld_unit_zero (S := S512x512) hz2, View.ld_unit_zero (S := S512x1) hz2]
    try rfl
  · iexists _; isplitr; swap; · iexact HS1
    ipureintro
    try sl_unfold_words
    rw [View.read_writes_eq_canon _ _ _ (fun y => ⟨_, List.mem_cons_self, View.mem_set_unit_zero hz2 inb_S1024x1_S1024x1_0_0 y⟩), View.canon_cons_unit_zero hz2]
    try rw [View.readCov_unit_zero _ hz2]
    try simp only [View.readAt_eq_ld, harg2.read_unread, harg3.read_unread, harg4.read_unread, harg5.read_unread, harg8.read_unread, harg9.read_unread, View.ld_unit_zero (S := S1024x1) hz2, View.ld_unit_zero (S := S1024x512) hz2, View.ld_unit_zero (S := S512x512) hz2, View.ld_unit_zero (S := S512x1) hz2]
    try rfl

end Cert.Kernel.Body

end
-- ==== Proof.KRunB.lean ====
/-
  The body at a grid point of case B: the accumulators are cleared and nothing is added (the tile lies wholly below the diagonal); the outputs are not touched.
  Stated on any whole staging memrefs holding the four input blocks, the two output buffers and the two accumulators
  at given contents: the body runs to the end without fault, the inputs as they were, and each other buffer at the
  contents named in the statement. Every store of the body overwrites a whole buffer, so what a buffer holds afterwards
  is the last value stored into it.
-/
import proofs.«173804_j30554397344482_2_alg».proof.Proof.KBodyDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runB (c : Dev nD) (i : grid0.Coords)
    (arg2 : Memref sig .tc .vmem S1024x512 .bf16) (harg2 : arg2.IsWhole) (arg3 : Memref sig .tc .vmem S512x512 .bf16) (harg3 : arg3.IsWhole)
    (arg4 : Memref sig .tc .vmem S1024x1 .f32) (harg4 : arg4.IsWhole) (arg5 : Memref sig .tc .vmem S512x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : cond1 i) (hc2 : ¬cond2 i) (hc3 : ¬cond3 i)
    (x0 : Vec F S1024x512 .bf16) (x1 : Vec F S512x512 .bf16) (x2 : Vec F S1024x1 .f32) (x3 : Vec F S512x1 .f32)
    (xi4 xi5 xs0 xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare k0_pay1 ∗ owns (c : Thread nD τ) arg9 fullShare k0_pay2) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hfs0; obtain rfl := harg9.eq_unread hfs1
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact harg7.read_unread _
  isplitl [HS0]
  · iexists _; isplitr; swap; · iexact HS0
    ipureintro
    try sl_unfold_words
    rw [View.read_writes_eq_canon _ _ _ (fun y => ⟨_, List.mem_cons_self, View.mem_set_unit_zero hz2 inb_S1024x1_S1024x1_0_0 y⟩), View.canon_cons_unit_zero hz2]
    try rw [View.readCov_unit_zero _ hz2]
    try simp only [View.readAt_eq_ld, harg2.read_unread, harg3.read_unread, harg4.read_unread, harg5.read_unread, harg8.read_unread, harg9.read_unread, View.ld_unit_zero (S := S1024x1) hz2, View.ld_unit_zero (S := S1024x512) hz2, View.ld_unit_zero (S := S512x512) hz2, View.ld_unit_zero (S := S512x1) hz2]
    try rfl
  · iexists _; isplitr; swap; · iexact HS1
    ipureintro
    try sl_unfold_words
    rw [View.read_writes_eq_canon _ _ _ (fun y => ⟨_, List.mem_cons_self, View.mem_set_unit_zero hz2 inb_S1024x1_S1024x1_0_0 y⟩), View.canon_cons_unit_zero hz2]
    try rw [View.readCov_unit_zero _ hz2]
    try simp only [View.readAt_eq_ld, harg2.read_unread, harg3.read_unread, harg4.read_unread, harg5.read_unread, harg8.read_unread, harg9.read_unread, View.ld_unit_zero (S := S1024x1) hz2, View.ld_unit_zero (S := S1024x512) hz2, View.ld_unit_zero (S := S512x512) hz2, View.ld_unit_zero (S := S512x1) hz2]
    try rfl

end Cert.Kernel.Body

end
-- ==== Proof.KRunC.lean ====
/-
  The body at a grid point of case C: the tile's row sums and row counts are added to the accumulators; the outputs are not touched.
  Stated on any whole staging memrefs holding the four input blocks, the two output buffers and the two accumulators
  at given contents: the body runs to the end without fault, the inputs as they were, and each other buffer at the
  contents named in the statement. Every store of the body overwrites a whole buffer, so what a buffer holds afterwards
  is the last value stored into it.
-/
import proofs.«173804_j30554397344482_2_alg».proof.Proof.KBodyDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runC (c : Dev nD) (i : grid0.Coords)
    (arg2 : Memref sig .tc .vmem S1024x512 .bf16) (harg2 : arg2.IsWhole) (arg3 : Memref sig .tc .vmem S512x512 .bf16) (harg3 : arg3.IsWhole)
    (arg4 : Memref sig .tc .vmem S1024x1 .f32) (harg4 : arg4.IsWhole) (arg5 : Memref sig .tc .vmem S512x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : ¬cond1 i) (hc2 : cond2 i) (hc3 : ¬cond3 i)
    (x0 : Vec F S1024x512 .bf16) (x1 : Vec F S512x512 .bf16) (x2 : Vec F S1024x1 .f32) (x3 : Vec F S512x1 .f32)
    (xi4 xi5 xs0 xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare (k0_pay3 (rowSum i x0 x1 x2 x3) xs0) ∗ owns (c : Thread nD τ) arg9 fullShare (k0_pay4 (nzMask i x0 x1 x2 x3) xs1)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hfs0; obtain rfl := harg9.eq_unread hfs1
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact harg7.read_unread _
  isplitl [HS0]
  · iexists _; isplitr; swap; · iexact HS0
    ipureintro
    try sl_unfold_words
    rw [View.read_writes_eq_canon _ _ _ (fun y => ⟨_, List.mem_cons_self, View.mem_set_unit_zero hz2 inb_S1024x1_S1024x1_0_0 y⟩), View.canon_cons_unit_zero hz2]
    try rw [View.readCov_unit_zero _ hz2]
    try simp only [View.readAt_eq_ld, harg2.read_unread, harg3.read_unread, harg4.read_unread, harg5.read_unread, harg8.read_unread, harg9.read_unread, View.ld_unit_zero (S := S1024x1) hz2, View.ld_unit_zero (S := S1024x512) hz2, View.ld_unit_zero (S := S512x512) hz2, View.ld_unit_zero (S := S512x1) hz2]
    try rfl
  · iexists _; isplitr; swap; · iexact HS1
    ipureintro
    try sl_unfold_words
    rw [View.read_writes_eq_canon _ _ _ (fun y => ⟨_, List.mem_cons_self, View.mem_set_unit_zero hz2 inb_S1024x1_S1024x1_0_0 y⟩), View.canon_cons_unit_zero hz2]
    try rw [View.readCov_unit_zero _ hz2]
    try simp only [View.readAt_eq_ld, harg2.read_unread, harg3.read_unread, harg4.read_unread, harg5.read_unread, harg8.read_unread, harg9.read_unread, View.ld_unit_zero (S := S1024x1) hz2, View.ld_unit_zero (S := S1024x512) hz2, View.ld_unit_zero (S := S512x512) hz2, View.ld_unit_zero (S := S512x1) hz2]
    try rfl

end Cert.Kernel.Body

end
-- ==== Proof.KRunD.lean ====
/-
  The body at a grid point of case D: nothing happens (the tile lies wholly below the diagonal): every buffer is handed back as it was found.
  Stated on any whole staging memrefs holding the four input blocks, the two output buffers and the two accumulators
  at given contents: the body runs to the end without fault, the inputs as they were, and each other buffer at the
  contents named in the statement. Every store of the body overwrites a whole buffer, so what a buffer holds afterwards
  is the last value stored into it.
-/
import proofs.«173804_j30554397344482_2_alg».proof.Proof.KBodyDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runD (c : Dev nD) (i : grid0.Coords)
    (arg2 : Memref sig .tc .vmem S1024x512 .bf16) (harg2 : arg2.IsWhole) (arg3 : Memref sig .tc .vmem S512x512 .bf16) (harg3 : arg3.IsWhole)
    (arg4 : Memref sig .tc .vmem S1024x1 .f32) (harg4 : arg4.IsWhole) (arg5 : Memref sig .tc .vmem S512x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : ¬cond1 i) (hc2 : ¬cond2 i) (hc3 : ¬cond3 i)
    (x0 : Vec F S1024x512 .bf16) (x1 : Vec F S512x512 .bf16) (x2 : Vec F S1024x1 .f32) (x3 : Vec F S512x1 .f32)
    (xi4 xi5 xs0 xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare xs0 ∗ owns (c : Thread nD τ) arg9 fullShare xs1) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hfs0; obtain rfl := harg9.eq_unread hfs1
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact harg7.read_unread _
  isplitl [HS0]
  · iexists _; isplitr; swap; · iexact HS0
    ipureintro
    exact harg8.read_unread _
  · iexists _; isplitr; swap; · iexact HS1
    ipureintro
    exact harg9.read_unread _

end Cert.Kernel.Body

end
-- ==== Proof.KRunE.lean ====
/-
  The body at a grid point of case E: the tile's row sums and row counts are added to the accumulators, and the accumulators are then copied to the two outputs.
  Stated on any whole staging memrefs holding the four input blocks, the two output buffers and the two accumulators
  at given contents: the body runs to the end without fault, the inputs as they were, and each other buffer at the
  contents named in the statement. Every store of the body overwrites a whole buffer, so what a buffer holds afterwards
  is the last value stored into it.
-/
import proofs.«173804_j30554397344482_2_alg».proof.Proof.KBodyDefs

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runE (c : Dev nD) (i : grid0.Coords)
    (arg2 : Memref sig .tc .vmem S1024x512 .bf16) (harg2 : arg2.IsWhole) (arg3 : Memref sig .tc .vmem S512x512 .bf16) (harg3 : arg3.IsWhole)
    (arg4 : Memref sig .tc .vmem S1024x1 .f32) (harg4 : arg4.IsWhole) (arg5 : Memref sig .tc .vmem S512x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : ¬cond1 i) (hc2 : cond2 i) (hc3 : cond3 i)
    (x0 : Vec F S1024x512 .bf16) (x1 : Vec F S512x512 .bf16) (x2 : Vec F S1024x1 .f32) (x3 : Vec F S512x1 .f32)
    (xi4 xi5 xs0 xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay3 (rowSum i x0 x1 x2 x3) xs0) ∗ owns (c : Thread nD τ) arg7 fullShare (k0_pay4 (nzMask i x0 x1 x2 x3) xs1)
            ∗ owns (c : Thread nD τ) arg8 fullShare (k0_pay3 (rowSum i x0 x1 x2 x3) xs0) ∗ owns (c : Thread nD τ) arg9 fullShare (k0_pay4 (nzMask i x0 x1 x2 x3) xs1)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hfs0; obtain rfl := harg9.eq_unread hfs1
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    try sl_unfold_words
    rw [View.read_writes_eq_canon _ _ _ (fun y => ⟨_, List.mem_cons_self, View.mem_set_unit_zero hz2 inb_S1024x1_S1024x1_0_0 y⟩), View.canon_cons_unit_zero hz2]
    try rw [View.readCov_unit_zero _ hz2]
    try simp only [View.readAt_eq_ld, harg2.read_unread, harg3.read_unread, harg4.read_unread, harg5.read_unread, harg8.read_unread, harg9.read_unread, View.ld_unit_zero (S := S1024x1) hz2, View.ld_unit_zero (S := S1024x512) hz2, View.ld_unit_zero (S := S512x512) hz2, View.ld_unit_zero (S := S512x1) hz2]
    try rfl
  isplitl [H5]
  · iexists _; isplitr; swap; · iexact H5
    ipureintro
    try sl_unfold_words
    rw [View.read_writes_eq_canon _ _ _ (fun y => ⟨_, List.mem_cons_self, View.mem_set_unit_zero hz2 inb_S1024x1_S1024x1_0_0 y⟩), View.canon_cons_unit_zero hz2]
    try rw [View.readCov_unit_zero _ hz2]
    try simp only [View.readAt_eq_ld, harg2.read_unread, harg3.read_unread, harg4.read_unread, harg5.read_unread, harg8.read_unread, harg9.read_unread, View.ld_unit_zero (S := S1024x1) hz2, View.ld_unit_zero (S := S1024x512) hz2, View.ld_unit_zero (S := S512x512) hz2, View.ld_unit_zero (S := S512x1) hz2]
    try rfl
  isplitl [HS0]
  · iexists _; isplitr; swap; · iexact HS0
    ipureintro
    try sl_unfold_words
    rw [View.read_writes_eq_canon _ _ _ (fun y => ⟨_, List.mem_cons_self, View.mem_set_unit_zero hz2 inb_S1024x1_S1024x1_0_0 y⟩), View.canon_cons_unit_zero hz2]
    try rw [View.readCov_unit_zero _ hz2]
    try simp only [View.readAt_eq_ld, harg2.read_unread, harg3.read_unread, harg4.read_unread, harg5.read_unread, harg8.read_unread, harg9.read_unread, View.ld_unit_zero (S := S1024x1) hz2, View.ld_unit_zero (S := S1024x512) hz2, View.ld_unit_zero (S := S512x512) hz2, View.ld_unit_zero (S := S512x1) hz2]
    try rfl
  · iexists _; isplitr; swap; · iexact HS1
    ipureintro
    try sl_unfold_words
    rw [View.read_writes_eq_canon _ _ _ (fun y => ⟨_, List.mem_cons_self, View.mem_set_unit_zero hz2 inb_S1024x1_S1024x1_0_0 y⟩), View.canon_cons_unit_zero hz2]
    try rw [View.readCov_unit_zero _ hz2]
    try simp only [View.readAt_eq_ld, harg2.read_unread, harg3.read_unread, harg4.read_unread, harg5.read_unread, harg8.read_unread, harg9.read_unread, View.ld_unit_zero (S := S1024x1) hz2, View.ld_unit_zero (S := S1024x512) hz2, View.ld_unit_zero (S := S512x512) hz2, View.ld_unit_zero (S := S512x1) hz2]
    try rfl

end Cert.Kernel.Body

end
-- ==== Proof.KAccum.lean ====
/-
  The accumulators point by point, and the pipeline's proof data.

  After grid point t the two scratch accumulators hold scrAt t: at a point of column block 0 they restart from zero,
  at a point whose tile meets the upper triangle the tile's row sums / row counts are added, otherwise they keep what
  the point before left (step). The region's invariant carries exactly these contents from point to point; the four
  input windows hold the blocks of the arrays the region is entered with (each of the two arrays feeds two windows, so
  each window holds half of the array's share); the two outputs' staging buffers take the accumulators at column
  block 15 and are idle elsewhere.
-/
import proofs.«173804_j30554397344482_2_alg».proof.Proof.KRunA
import proofs.«173804_j30554397344482_2_alg».proof.Proof.KRunB
import proofs.«173804_j30554397344482_2_alg».proof.Proof.KRunC
import proofs.«173804_j30554397344482_2_alg».proof.Proof.KRunD
import proofs.«173804_j30554397344482_2_alg».proof.Proof.KRunE

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers when the region is entered: the host operations before it (the row norms, the cast of the
    argument) have run on the launch contents. -/
abbrev V0 (c : Dev nD) : Valuation τ sig (Elt F) := StableHlo.after hostOps0_1 (StableHlo.after hostOps0 (fun b => m (c, b)))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The tile's row sums and non-zero mask at point `t`, of the point's four input blocks. -/
def rsAt (c : Dev nD) (t : Fin cfg0.N) : FVec F S1024x1 .f32 := rowSum (grid0.coords t) (iblk m c 0 t) (iblk m c 1 t) (iblk m c 2 t) (iblk m c 3 t)
def nzAt (c : Dev nD) (t : Fin cfg0.N) : IVec S1024x512 1 := nzMask (grid0.coords t) (iblk m c 0 t) (iblk m c 1 t) (iblk m c 2 t) (iblk m c 3 t)

/-! ## One point's effect on the accumulators -/

/-- The sum accumulator after point `t`, from what the point before left (`prev`, unused at column block 0). -/
def stepS (t : Fin cfg0.N) (rs : FVec F S1024x1 .f32) (prev : Vec F S1024x1 .f32) : Vec F S1024x1 .f32 :=
  if 2 * (t.val / 16) < t.val % 16 + 1 then k0_pay3 rs (if t.val % 16 = 0 then k0_pay1 else prev)
  else (if t.val % 16 = 0 then k0_pay1 else prev)
/-- The count accumulator likewise. -/
def stepC (t : Fin cfg0.N) (nz : IVec S1024x512 1) (prev : Vec F S1024x1 .f32) : Vec F S1024x1 .f32 :=
  if 2 * (t.val / 16) < t.val % 16 + 1 then k0_pay4 nz (if t.val % 16 = 0 then k0_pay2 else prev)
  else (if t.val % 16 = 0 then k0_pay2 else prev)

/-- THE ACCUMULATION: the two accumulators after point `n`. -/
def scrAt (c : Dev nD) : (n : ℕ) → n < cfg0.N → Vec F S1024x1 .f32 × Vec F S1024x1 .f32
  | 0, hn => (stepS ⟨0, hn⟩ (rsAt m c ⟨0, hn⟩) k0_pay1, stepC ⟨0, hn⟩ (nzAt m c ⟨0, hn⟩) k0_pay2)
  | n + 1, hn => (stepS ⟨n + 1, hn⟩ (rsAt m c ⟨n + 1, hn⟩) (scrAt c n (Nat.lt_of_succ_lt hn)).1,
      stepC ⟨n + 1, hn⟩ (nzAt m c ⟨n + 1, hn⟩) (scrAt c n (Nat.lt_of_succ_lt hn)).2)

/-- After point `t`: one step from any pair that is the point before's accumulators (any pair at all at point 0). -/
theorem scrAt_step (c : Dev nD) (t : Fin cfg0.N) (p : Vec F S1024x1 .f32 × Vec F S1024x1 .f32)
    (hp : ∀ h : t.val ≠ 0, p = scrAt m c (t.val - 1) (Nat.lt_of_le_of_lt (Nat.sub_le _ _) t.isLt)) :
    scrAt m c t.val t.isLt = (stepS t (rsAt m c t) p.1, stepC t (nzAt m c t) p.2) := by
  obtain ⟨n, hn⟩ := t
  cases n with
  | zero =>
    show (stepS ⟨0, hn⟩ (rsAt m c ⟨0, hn⟩) k0_pay1, stepC ⟨0, hn⟩ (nzAt m c ⟨0, hn⟩) k0_pay2) = _
    unfold stepS stepC; simp only [Nat.zero_mod, if_true]
  | succ n =>
    rw [hp (Nat.succ_ne_zero n)]; rfl

/-! ## The region's invariant -/

/-- The two scratch operands: whole scoped buffers of the kernel's own. -/
abbrev scM0 : Memref sig .tc .vmem S1024x1 .f32 := Memref.whole cc0_scratch0
abbrev scM1 : Memref sig .tc .vmem S1024x1 .f32 := Memref.whole cc0_scratch1

/-- Before position `n`: at the start both accumulators at anything; afterwards at what the point before left. -/
def PhiS (c : Dev nD) : (n : ℕ) → n ≤ cfg0.N → sProp 𝕄
  | 0, _ => iprop((∃ d, owns (c : Thread nD τ) scM0 fullShare d) ∗ (∃ d, owns (c : Thread nD τ) scM1 fullShare d))
  | n + 1, hn => iprop(owns (c : Thread nD τ) scM0 fullShare (scrAt m c n hn).1 ∗ owns (c : Thread nD τ) scM1 fullShare (scrAt m c n hn).2)

theorem PhiS_succ (c : Dev nD) (n : ℕ) (hn : n < cfg0.N) :
    PhiS m c (n + 1) hn = iprop(owns (c : Thread nD τ) scM0 fullShare (scrAt m c n hn).1 ∗ owns (c : Thread nD τ) scM1 fullShare (scrAt m c n hn).2) := rfl

/-- The scoped buffers the pipeline does not stage are the two accumulators, at anything: the invariant at the start. -/
theorem scopedRest_eq_PhiS (c : Dev nD) :
    (Pipeline.scopedRest (Ix := Unit) (Name := ℕ) (U := UR sig nD τ) (Lvl := ℕ) (Val := Elt F) spec0 c : sProp 𝕄) = PhiS m c 0 (Nat.zero_le _) := by
  rw [scopedRest0_eq]; show _ = iprop((∃ d, owns (c : Thread nD τ) scM0 fullShare d) ∗ (∃ d, owns (c : Thread nD τ) scM1 fullShare d))
  simp only [scM0, scM1, owns_whole] <;> rfl

/-- At any position the invariant holds both accumulators at some pair, which past the first point is the point before's. -/
theorem PhiS_elim (c : Dev nD) (n : ℕ) (h : n ≤ cfg0.N) :
    PhiS m c n h ⊢ iprop(∃ xs0 xs1, ⌜∀ hz : n ≠ 0, (xs0, xs1) = scrAt m c (n - 1) (by omega)⌝
      ∗ owns (c : Thread nD τ) scM0 fullShare xs0 ∗ owns (c : Thread nD τ) scM1 fullShare xs1) := by
  cases n with
  | zero =>
    show iprop((∃ d, owns (c : Thread nD τ) scM0 fullShare d) ∗ (∃ d, owns (c : Thread nD τ) scM1 fullShare d)) ⊢ _
    iintro ⟨⟨%d0, H0⟩, ⟨%d1, H1⟩⟩
    iexists d0; iexists d1
    isplitr; · ipureintro; intro hz; exact absurd rfl hz
    isplitl [H0] <;> iassumption
  | succ n =>
    rw [PhiS_succ]
    iintro ⟨H0, H1⟩
    iexists (scrAt m c n h).1; iexists (scrAt m c n h).2
    isplitr; · ipureintro; intro _; rfl
    isplitl [H0] <;> iassumption

/-! ## The pipeline's proof data -/

/-- The proof data on core `c`: the arrays as the region finds them; after the body each input's buffer at its block and
    each output's at the accumulators; the invariant; each input array's share halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (scrAt m c t.val t.isLt).1
    | ⟨5, _⟩ => (scrAt m c t.val t.isLt).2
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by dsimp only [dats]

theorem PhiS_castSucc (c : Dev nD) (t : Fin cfg0.N) : (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (scrAt m c t.val t.isLt).1 := by dsimp only [dats]
theorem after_5 (c : Dev nD) (t : Fin cfg0.N) : (dats m 0 c).after 5 t = (scrAt m c t.val t.isLt).2 := by dsimp only [dats]

/-- Each input's current staging buffer holds its block at every point, fetched there or not (unfetched, the block index
    has not moved; the body only reads it). -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation, at a generic point -/

/-- Each window's current staging memref at point `t`, as the pipeline passes it, and its wholeness. -/
abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
/-- The body at any point. The inputs' memrefs hold their blocks; the closed forms say which of the five cases the point is
    in; the invariant hands over the accumulators at what the point before left (at anything at the first point) and takes
    them back at this point's contents; an output's buffer is handed back untouched off column block 15 and holds the
    accumulators' contents there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ, PhiS_castSucc]
  rw [show (dats m 0 c).leavesExact 0 t = owns (c : Thread nD τ) (ms0 t) fullShare (iblk m c 0 t) from by
      unfold Dat.leavesExact; rw [live0 t, after_0],
    show (dats m 0 c).leavesExact 1 t = owns (c : Thread nD τ) (ms1 t) fullShare (iblk m c 1 t) from by
      unfold Dat.leavesExact; rw [live1 t, after_1],
    show (dats m 0 c).leavesExact 2 t = owns (c : Thread nD τ) (ms2 t) fullShare (iblk m c 2 t) from by
      unfold Dat.leavesExact; rw [live2 t, after_2],
    show (dats m 0 c).leavesExact 3 t = owns (c : Thread nD τ) (ms3 t) fullShare (iblk m c 3 t) from by
      unfold Dat.leavesExact; rw [live3 t, after_3]]
  have hN : t.val < 128 := lt_of_lt_of_eq t.isLt (show cfg0.N = 128 from N_0)
  by_cases h1 : t.val % 16 = 0
  · by_cases h2 : 2 * (t.val / 16) < t.val % 16 + 1
    · have h3 : ¬ t.val % 16 = 15 := by omega
      rw [Dat.leavesExact_idle (dats m 0 c) 4 t (idle4 t (fun h => h3 ((hcond3 t).mp h))) (noFlush4 t (fun h => h3 ((hcond3 t).mp h))),
        Dat.leavesExact_idle (dats m 0 c) 5 t (idle5 t (fun h => h3 ((hcond3 t).mp h))) (noFlush5 t (fun h => h3 ((hcond3 t).mp h)))]
      iintro ⟨HΦ, Ho, ⟨%d0, H0⟩, ⟨%d1, H1⟩, ⟨%d2, H2⟩, ⟨%d3, H3⟩, ⟨%d4, H4⟩, ⟨%d5, H5⟩⟩
      ihave HΦ' := (PhiS_elim m c t.val (Nat.le_of_lt t.isLt)) $$ HΦ
      icases HΦ' with ⟨%xs0, %xs1, %hxs, HS0, HS1⟩
      rw [scrAt_step m c t (xs0, xs1) hxs]; unfold stepS stepC rsAt nzAt
      simp only [if_pos h1, if_pos h2]
      iapply (runA c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _)
        ((hcond1 t).mpr h1) ((hcond2 t).mpr h2) (fun h => h3 ((hcond3 t).mp h))
        (iblk m c 0 t) (iblk m c 1 t) (iblk m c 2 t) (iblk m c 3 t) _ _ xs0 xs1 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1]
      · isplitl [HS0] <;> iassumption
      isplitl [Ho]; · iexact Ho
      isplitl [H0]; · iexact H0
      isplitl [H1]; · iexact H1
      isplitl [H2]; · iexact H2
      isplitl [H3]; · iexact H3
      isplitl [H4]; · iexists _; iexact H4
      iexists _; iexact H5
    · have h3 : ¬ t.val % 16 = 15 := by omega
      rw [Dat.leavesExact_idle (dats m 0 c) 4 t (idle4 t (fun h => h3 ((hcond3 t).mp h))) (noFlush4 t (fun h => h3 ((hcond3 t).mp h))),
        Dat.leavesExact_idle (dats m 0 c) 5 t (idle5 t (fun h => h3 ((hcond3 t).mp h))) (noFlush5 t (fun h => h3 ((hcond3 t).mp h)))]
      iintro ⟨HΦ, Ho, ⟨%d0, H0⟩, ⟨%d1, H1⟩, ⟨%d2, H2⟩, ⟨%d3, H3⟩, ⟨%d4, H4⟩, ⟨%d5, H5⟩⟩
      ihave HΦ' := (PhiS_elim m c t.val (Nat.le_of_lt t.isLt)) $$ HΦ
      icases HΦ' with ⟨%xs0, %xs1, %hxs, HS0, HS1⟩
      rw [scrAt_step m c t (xs0, xs1) hxs]; unfold stepS stepC rsAt nzAt
      simp only [if_pos h1, if_neg h2]
      iapply (runB c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _)
        ((hcond1 t).mpr h1) (fun h => h2 ((hcond2 t).mp h)) (fun h => h3 ((hcond3 t).mp h))
        (iblk m c 0 t) (iblk m c 1 t) (iblk m c 2 t) (iblk m c 3 t) _ _ xs0 xs1 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1]
      · isplitl [HS0] <;> iassumption
      isplitl [Ho]; · iexact Ho
      isplitl [H0]; · iexact H0
      isplitl [H1]; · iexact H1
      isplitl [H2]; · iexact H2
      isplitl [H3]; · iexact H3
      isplitl [H4]; · iexists _; iexact H4
      iexists _; iexact H5
  · by_cases h2 : 2 * (t.val / 16) < t.val % 16 + 1
    · by_cases h3 : t.val % 16 = 15
      ·
        rw [show (dats m 0 c).leavesExact 4 t = owns (c : Thread nD τ) (ms4 t) fullShare ((dats m 0 c).after 4 t) from by
            unfold Dat.leavesExact; rw [live4 t ((hcond3 t).mpr h3)], after_4,
          show (dats m 0 c).leavesExact 5 t = owns (c : Thread nD τ) (ms5 t) fullShare ((dats m 0 c).after 5 t) from by
            unfold Dat.leavesExact; rw [live5 t ((hcond3 t).mpr h3)], after_5]
        iintro ⟨HΦ, Ho, ⟨%d0, H0⟩, ⟨%d1, H1⟩, ⟨%d2, H2⟩, ⟨%d3, H3⟩, ⟨%d4, H4⟩, ⟨%d5, H5⟩⟩
        ihave HΦ' := (PhiS_elim m c t.val (Nat.le_of_lt t.isLt)) $$ HΦ
        icases HΦ' with ⟨%xs0, %xs1, %hxs, HS0, HS1⟩
        rw [scrAt_step m c t (xs0, xs1) hxs]; unfold stepS stepC rsAt nzAt
        simp only [if_neg h1, if_pos h2]
        iapply (runE c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _)
          (fun h => h1 ((hcond1 t).mp h)) ((hcond2 t).mpr h2) ((hcond3 t).mpr h3)
          (iblk m c 0 t) (iblk m c 1 t) (iblk m c 2 t) (iblk m c 3 t) _ _ xs0 xs1 Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, HS0, HS1⟩
        isplitl [HS0 HS1]
        · isplitl [HS0] <;> iassumption
        isplitl [Ho]; · iexact Ho
        isplitl [H0]; · iexact H0
        isplitl [H1]; · iexact H1
        isplitl [H2]; · iexact H2
        isplitl [H3]; · iexact H3
        isplitl [H4]; · iexact H4
        iexact H5
      ·
        rw [Dat.leavesExact_idle (dats m 0 c) 4 t (idle4 t (fun h => h3 ((hcond3 t).mp h))) (noFlush4 t (fun h => h3 ((hcond3 t).mp h))),
          Dat.leavesExact_idle (dats m 0 c) 5 t (idle5 t (fun h => h3 ((hcond3 t).mp h))) (noFlush5 t (fun h => h3 ((hcond3 t).mp h)))]
        iintro ⟨HΦ, Ho, ⟨%d0, H0⟩, ⟨%d1, H1⟩, ⟨%d2, H2⟩, ⟨%d3, H3⟩, ⟨%d4, H4⟩, ⟨%d5, H5⟩⟩
        ihave HΦ' := (PhiS_elim m c t.val (Nat.le_of_lt t.isLt)) $$ HΦ
        icases HΦ' with ⟨%xs0, %xs1, %hxs, HS0, HS1⟩
        rw [scrAt_step m c t (xs0, xs1) hxs]; unfold stepS stepC rsAt nzAt
        simp only [if_neg h1, if_pos h2]
        iapply (runC c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _)
          (fun h => h1 ((hcond1 t).mp h)) ((hcond2 t).mpr h2) (fun h => h3 ((hcond3 t).mp h))
          (iblk m c 0 t) (iblk m c 1 t) (iblk m c 2 t) (iblk m c 3 t) _ _ xs0 xs1 Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, HS0, HS1⟩
        isplitl [HS0 HS1]
        · isplitl [HS0] <;> iassumption
        isplitl [Ho]; · iexact Ho
        isplitl [H0]; · iexact H0
        isplitl [H1]; · iexact H1
        isplitl [H2]; · iexact H2
        isplitl [H3]; · iexact H3
        isplitl [H4]; · iexists _; iexact H4
        iexists _; iexact H5
    · have h3 : ¬ t.val % 16 = 15 := by omega
      rw [Dat.leavesExact_idle (dats m 0 c) 4 t (idle4 t (fun h => h3 ((hcond3 t).mp h))) (noFlush4 t (fun h => h3 ((hcond3 t).mp h))),
        Dat.leavesExact_idle (dats m 0 c) 5 t (idle5 t (fun h => h3 ((hcond3 t).mp h))) (noFlush5 t (fun h => h3 ((hcond3 t).mp h)))]
      iintro ⟨HΦ, Ho, ⟨%d0, H0⟩, ⟨%d1, H1⟩, ⟨%d2, H2⟩, ⟨%d3, H3⟩, ⟨%d4, H4⟩, ⟨%d5, H5⟩⟩
      ihave HΦ' := (PhiS_elim m c t.val (Nat.le_of_lt t.isLt)) $$ HΦ
      icases HΦ' with ⟨%xs0, %xs1, %hxs, HS0, HS1⟩
      rw [scrAt_step m c t (xs0, xs1) hxs]; unfold stepS stepC rsAt nzAt
      simp only [if_neg h1, if_neg h2]
      iapply (runD c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _)
        (fun h => h1 ((hcond1 t).mp h)) (fun h => h2 ((hcond2 t).mp h)) (fun h => h3 ((hcond3 t).mp h))
        (iblk m c 0 t) (iblk m c 1 t) (iblk m c 2 t) (iblk m c 3 t) _ _ xs0 xs1 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1]
      · isplitl [HS0] <;> iassumption
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Body

end
-- ==== Proof.KLaunch.lean ====
/-
  @main as five segments, and its run.

  @main is: the row norms (five host operations), the cast of the argument (one), the kernel region, eight host
  operations that sum the two outputs and divide, and the final select. The region takes two arrays, each through two
  windows (a row block and a column block of the cast argument; likewise of the norms): at the region's entry each
  array's points-to is dealt in halves to its two windows, and at the exit the halves — both at the unchanged contents —
  are put together again, so that before and after the region the thread holds every unscoped buffer whole.
  After the region the two outputs hold what the write-backs of the 128 points left (the library's arrAt), every other
  buffer what the region found; the host operations then run on that.
-/
import proofs.«173804_j30554397344482_2_alg».proof.Proof.KAccum
import Idealize.ShloMosaic.Lib.Pipeline.Regions

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the certificate's. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers: the core owing nothing. -/
abbrev R (c : Dev nD) : sProp 𝕄 := iprop(∃ W, owes (c : Thread nD τ) (0 : CellTallies nD τ sig Unit) W)
/-- Core `c`'s buffers at launch. -/
abbrev Vl (c : Dev nD) : Valuation τ sig (Elt F) := fun b => m (c, b)

/-! ## The host segments before the region -/

def segA : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (Vl m) R

def segB : Pipeline.HostSeg (Name := ℕ) (U := UR sig nD τ) (pcfgs (F := F)) defs₀ 𝒱₀ L lv :=
  Pipeline.HostSeg.ofOps _ _ _ _ _ (Pipeline.ucRefs τ sig) hostOps0_1
    (fun op h => Pipeline.sub_ucRefs op ((List.forall_iff_forall_mem.mp hostOps0_1_sub) op h))
    (by intro _ h; (repeat (cases h with | head => rfl | tail _ h => ?_)); exact nomatch h) (fun c => StableHlo.after hostOps0 (Vl m c)) R

/-! ## The buffers after the region -/

/-- Core `c`'s buffers when the region is left: the two outputs at what the write-backs left, every other buffer as the
    region found it. -/
def Vx (c : Dev nD) : Valuation τ sig (Elt F) := fun b =>
  if h : Proc.devRef .tc main_v2_0 = b then cast (congrArg (fun b' : DevRef τ sig => b'.ty.Contents (Elt F)) h) ((dats m 0 c).arrAt 4 cfg0.N)
  else if h : Proc.devRef .tc main_v2_1 = b then cast (congrArg (fun b' : DevRef τ sig => b'.ty.Contents (Elt F)) h) ((dats m 0 c).arrAt 5 cfg0.N)
  else V0 m c b

theorem Vx_out0 (c : Dev nD) : Vx m c (Proc.devRef .tc main_v2_0) = (dats m 0 c).arrAt 4 cfg0.N := by
  unfold Vx; rw [dif_pos rfl]; rfl
theorem Vx_out1 (c : Dev nD) : Vx m c (Proc.devRef .tc main_v2_1) = (dats m 0 c).arrAt 5 cfg0.N := by
  unfold Vx; rw [dif_neg (StableHlo.devRef_ne_of_ne (by decide)), dif_pos rfl]; rfl
theorem Vx_other (c : Dev nD) (b : Ref sig .tc) (h0 : main_v2_0 ≠ b) (h1 : main_v2_1 ≠ b) :
    Vx m c (Proc.devRef .tc b) = V0 m c (Proc.devRef .tc b) := by
  unfold Vx; rw [dif_neg (StableHlo.devRef_ne_of_ne h0), dif_neg (StableHlo.devRef_ne_of_ne h1)]

/-! ## The arrays, window by window -/

/-- The distinct buffers behind the six windows, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v1) ↦{fullShare} W main_v1) ∗ (((c : Thread nD τ).loc main_v0) ↦{fullShare} W main_v0)
          ∗ (((c : Thread nD τ).loc main_v2_0) ↦{fullShare} W main_v2_0) ∗ (((c : Thread nD τ).loc main_v2_1) ↦{fullShare} W main_v2_1)) := by
  unfold Pipeline.arrBufs
  rw [BI.bigSep_eq_bigSepL_of_eq [main_v1, main_v0, main_v2_0, main_v2_1] (by decide) (by decide)]
  rfl

/-- The pipeline's arrays: each input array at half shares for its two windows, each output whole. -/
theorem arrays_eq6 (c : Dev nD) (G : (w : Fin cfg0.W) → Buf (Elt F) ((cfg0.win w).arr.view.loc (c : Thread nD τ))) :
    ((dats m 0 c).arrays G : sProp 𝕄)
      = iprop((((c : Thread nD τ).loc main_v1) ↦{fullShare.left} G 0) ∗ (((c : Thread nD τ).loc main_v1) ↦{fullShare.right} G 1)
          ∗ (((c : Thread nD τ).loc main_v0) ↦{fullShare.left} G 2) ∗ (((c : Thread nD τ).loc main_v0) ↦{fullShare.right} G 3)
          ∗ (((c : Thread nD τ).loc main_v2_0) ↦{fullShare} G 4) ∗ (((c : Thread nD τ).loc main_v2_1) ↦{fullShare} G 5)) := by
  unfold Dat.arrays
  rw [show (bigSep Finset.univ fun w : Fin cfg0.W => ((cfg0.win w).arr.view.loc (c : Thread nD τ) ↦[(cfg0.win w).arr.view.set]{(dats m 0 c).share w} G w : sProp 𝕄))
      = bigSep Finset.univ fun w : Fin 6 => (((c : Thread nD τ).loc (Pipeline.arrRef spec0 w)) ↦{(dats m 0 c).share w} G w : sProp 𝕄) from
    bigSep_congr fun w _ => by rw [(arr_whole0 w).set_eq_univ]]
  rw [bigSep_W0]
  rfl

/-! ## The region's entry and exit -/

/-- The bypassing buffers read the same under the exit valuation: it differs from the entry one on the two outputs only. -/
theorem rest_Vx (c : Dev nD) :
    (Pipeline.unscopedRest (Ix := Unit) (Name := ℕ) (U := UR sig nD τ) (Lvl := ℕ) spec0 c (fun b => Vx m c (Proc.devRef .tc b)) : sProp 𝕄)
      = Pipeline.unscopedRest spec0 c (V m c) := by
  unfold Pipeline.unscopedRest
  exact bigSep_congr fun b hb => by
    beta_reduce
    rw [Vx_other m c b (fun e => (Finset.mem_sdiff.mp hb).2 (Finset.mem_image.mpr ⟨4, Finset.mem_univ _, e⟩))
      (fun e => (Finset.mem_sdiff.mp hb).2 (Finset.mem_image.mpr ⟨5, Finset.mem_univ _, e⟩))]

/-- ENTRY: every unscoped buffer whole at the entry contents gives the pipeline's arrays (each input array's points-to dealt
    in halves to its two windows), the core owing nothing, and the bypassing buffers. -/
theorem entry (c : Dev nD) :
    iprop(StableHlo.held (c : Thread nD τ) (Pipeline.ucRefs τ sig) (V0 m c) ∗ R (F := F) c)
      ⊢ (iprop((dats m 0 c).arrays ((dats m 0 c).arrAt · 0) ∗ (dats m 0 c).owesAt () 0 ∗ Pipeline.unscopedRest spec0 c (V m c)) : sProp 𝕄) := by
  rw [show StableHlo.held (c : Thread nD τ) (Pipeline.ucRefs τ sig) (V0 m c) = unscopedBufs c (V m c) from (Pipeline.unscopedBufs_held c _).symm,
    Pipeline.unscopedBufs_split₀ cfgs 0 winFacts₀0.arr_unscoped c (V m c), arrBufs_eq, arrays_eq6]
  iintro ⟨⟨⟨H1, H0, Ho0, Ho1⟩, Hrest⟩, HO⟩
  ihave H1' := (pointsTo_share (PosShare.mem_left_op_right fullShare)).1 $$ H1
  icases H1' with ⟨H1l, H1r⟩
  ihave H0' := (pointsTo_share (PosShare.mem_left_op_right fullShare)).1 $$ H0
  icases H0' with ⟨H0l, H0r⟩
  isplitl [H1l H1r H0l H0r Ho0 Ho1]
  · isplitl [H1l]; · iexact H1l
    isplitl [H1r]; · iexact H1r
    isplitl [H0l]; · iexact H0l
    isplitl [H0r]; · iexact H0r
    isplitl [Ho0]; · iexact Ho0
    iexact Ho1
  isplitl [HO]
  · unfold Pipeline.Dat.owesAt Pipeline.owesWithin
    icases HO with ⟨%W, HO⟩; iexists W; isplitr; · ipureintro; exact fun _ _ => Or.inl trivial
    iexact HO
  iexact Hrest

/-- EXIT: the arrays at their final contents (the inputs unchanged, so their halves join again) and the bypassing buffers
    are every unscoped buffer whole at the exit contents. -/
theorem exit (c : Dev nD) :
    iprop((dats m 0 c).arrays ((dats m 0 c).arrAt · cfg0.N) ∗ (dats m 0 c).owesAt () (Fin.last cfg0.N) ∗ Pipeline.unscopedRest spec0 c (V m c))
      ⊢ (iprop(StableHlo.held (c : Thread nD τ) (Pipeline.ucRefs τ sig) (Vx m c) ∗ R (F := F) c) : sProp 𝕄) := by
  rw [show StableHlo.held (c : Thread nD τ) (Pipeline.ucRefs τ sig) (Vx m c) = unscopedBufs c (fun b => Vx m c (Proc.devRef .tc b)) from (Pipeline.unscopedBufs_held c _).symm,
    Pipeline.unscopedBufs_split₀ cfgs 0 winFacts₀0.arr_unscoped c _, arrBufs_eq, arrays_eq6, rest_Vx]
  rw [Vx_out0, Vx_out1, Vx_other m c main_v1 (by decide) (by decide), Vx_other m c main_v0 (by decide) (by decide)]
  rw [(dats m 0 c).arrAt_in 0 rfl, (dats m 0 c).arrAt_in 1 rfl, (dats m 0 c).arrAt_in 2 rfl, (dats m 0 c).arrAt_in 3 rfl]
  iintro ⟨⟨H1l, H1r, H0l, H0r, Ho0, Ho1⟩, HO, Hrest⟩
  ihave H1 := (pointsTo_share (PosShare.mem_left_op_right fullShare)).2 $$ [H1l H1r]
  · isplitl [H1l]; · iexact H1l
    iexact H1r
  ihave H0 := (pointsTo_share (PosShare.mem_left_op_right fullShare)).2 $$ [H0l H0r]
  · isplitl [H0l]; · iexact H0l
    iexact H0r
  isplitr [HO]
  · isplitr [Hrest]
    · isplitl [H1]; · iexact H1
      isplitl [H0]; · iexact H0
      isplitl [Ho0]; · iexact Ho0
      iexact Ho1
    iexact Hrest
  unfold Pipeline.Dat.owesAt Pipeline.owesWithin
  icases HO with ⟨%W, -, HO⟩; iexists W; iexact HO

/-! ## The region and the segments after it -/

set_option backward.isDefEq.respectTransparency.types false in
/-- THE REGION: the decided layout (the windows may share arrays), no semaphore of the kernel's own, the body obligation;
    entered from every unscoped buffer whole at the entry contents, left with them whole at the exit contents. -/
def reg : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (Vx m c) ∗ R c)
  X c := iprop(emp)
  Y c := iprop(emp)
  Z c := Pipeline.unscopedRest spec0 c (V m c)
  hentry c := by
    iintro ⟨Hpre, -, -⟩
    ihave H := (entry m c) $$ Hpre
    icases H with ⟨Ha, HO, Hrest⟩
    imodintro
    isplitl [Ha]; · iexact Ha
    isplitr; · unfold Pipeline.prefHeld; rw [show (Finset.univ : Finset (Fin 0)) = ∅ from rfl, BI.bigSep_empty]; iempintro
    isplitl [HO]; · iexact HO
    isplitr; · iempintro
    iexact Hrest
  hin c := by
    rw [show (dats m 0 c).Φ 0 = PhiS m c 0 (Nat.zero_le _) from rfl, ← scopedRest_eq_PhiS]
    iintro ⟨-, -, Hr⟩; iexact Hr
  hout c := by
    rw [Pipeline.ownSems0_none, scopedRest_eq_PhiS m c,
      show PhiS m c 0 (Nat.zero_le _) = iprop((∃ d, owns (c : Thread nD τ) scM0 fullShare d) ∗ (∃ d, owns (c : Thread nD τ) scM1 fullShare d)) from rfl]
    show PhiS m c (Fin.last cfg0.N).val (Nat.le_of_lt_succ (Fin.last cfg0.N).isLt) ⊢ _
    refine (PhiS_elim m c _ _).trans ?_
    iintro ⟨%xs0, %xs1, %_hx, H0, H1⟩
    isplitr; · iempintro
    isplitr; · iempintro
    isplitl [H0]; · iexists _; iexact H0
    iexists _; iexact H1
  hexit c := by
    iintro ⟨Ha, HO, -, Hrest⟩
    imodintro
    iapply (exit m c)
    isplitl [Ha]; · iexact Ha
    isplitl [HO]; · iexact HO
    iexact Hrest

def segC : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (Vx m) R

def segD : Pipeline.HostSeg (Name := ℕ) (U := UR sig nD τ) (pcfgs (F := F)) defs₀ 𝒱₀ L lv :=
  Pipeline.HostSeg.ofOps _ _ _ _ _ (Pipeline.ucRefs τ sig) hostOps1_1
    (fun op h => Pipeline.sub_ucRefs op ((List.forall_iff_forall_mem.mp hostOps1_1_sub) op h))
    (by intro _ h; (repeat (cases h with | head => rfl | tail _ h => ?_)); exact nomatch h) (fun c => StableHlo.after hostOps1 (Vx m c)) R

/-- Core `c`'s buffers at the end of @main. -/
abbrev Vend (c : Dev nD) : Valuation τ sig (Elt F) := StableHlo.after hostOps1_1 (StableHlo.after hostOps1 (Vx m c))

/-- @main as the list of the five. -/
abbrev segs : List (Pipeline.Seg (pcfgs (F := F)) adm (dats m) () defs₀ 𝒱₀ L lv) :=
  [.host (segA m), .host (segB m), .region (reg m), .host (segC m), .host (segD m)]

/-! ## The argument is never written -/

theorem nw0 : ∀ op ∈ (hostOps0 (F := F)), Proc.devRef .tc main_arg0 ∉ op.writes := by
  intro op hop
  simp only [List.mem_cons, List.mem_nil_iff, or_false] at hop
  rcases hop with rfl | rfl | rfl | rfl | rfl <;>
    simp only [StableHlo.TRef.unary, StableHlo.TRef.binary, StableHlo.TRef.nullary, StableHlo.unary_writes, StableHlo.binary_writes, StableHlo.nullary_writes, Finset.mem_singleton] <;>
    exact StableHlo.devRef_ne_of_ne (by decide)
theorem nw0_1 : ∀ op ∈ (hostOps0_1 (F := F)), Proc.devRef .tc main_arg0 ∉ op.writes := by
  intro op hop
  simp only [List.mem_cons, List.mem_nil_iff, or_false] at hop
  rcases hop with rfl <;>
    simp only [StableHlo.unary_writes, Finset.mem_singleton] <;>
    exact StableHlo.devRef_ne_of_ne (by decide)
theorem nw1 : ∀ op ∈ (hostOps1 (F := F)), Proc.devRef .tc main_arg0 ∉ op.writes := by
  intro op hop
  simp only [List.mem_cons, List.mem_nil_iff, or_false] at hop
  rcases hop with rfl | rfl | rfl | rfl | rfl | rfl | rfl | rfl <;>
    simp only [StableHlo.unary_writes, StableHlo.binary_writes, StableHlo.nullary_writes, Finset.mem_singleton] <;>
    exact StableHlo.devRef_ne_of_ne (by decide)
theorem nw1_1 : ∀ op ∈ (hostOps1_1 (F := F)), Proc.devRef .tc main_arg0 ∉ op.writes := by
  intro op hop
  simp only [List.mem_cons, List.mem_nil_iff, or_false] at hop
  rcases hop with rfl <;>
    simp only [StableHlo.TRef.ternary, StableHlo.ternary_writes, Finset.mem_singleton] <;>
    exact StableHlo.devRef_ne_of_ne (by decide)

/-- The argument array reaches the end as launched. -/
theorem Vend_arg0 (c : Dev nD) : Vend m c (Proc.devRef .tc main_arg0) = m ((c : Thread nD τ).loc main_arg0) := by
  unfold Vend
  rw [StableHlo.after_of_forall_not_mem hostOps1_1 _ nw1_1, StableHlo.after_of_forall_not_mem hostOps1 _ nw1,
    Vx_other m c main_arg0 (by decide) (by decide)]
  show StableHlo.after hostOps0_1 (StableHlo.after hostOps0 (Vl m c)) (Proc.devRef .tc main_arg0) = _
  rw [StableHlo.after_of_forall_not_mem hostOps0_1 _ nw0_1, StableHlo.after_of_forall_not_mem hostOps0 _ nw0]

/-! ## The run -/

/-- The launch element: the pipeline library's at the staging cells. -/
def u₀ : UR sig nD τ := initOf (Pipeline.cells cfgs cellOf_inj) (Pipeline.launchToks cfgs cellOf_inj)

/-- The physical post: the result and the argument array at the end's contents. -/
def QC : PUnit × MemSt nD τ sig (Elt F) → Prop := fun r =>
  ∀ c : Dev nD, r.2.mem ((c : Thread nD τ).loc main_v7) = Vend m c (Proc.devRef .tc main_v7)
    ∧ r.2.mem ((c : Thread nD τ).loc main_arg0) = m ((c : Thread nD τ).loc main_arg0)

set_option backward.isDefEq.respectTransparency.types false in
/-- At the compiled mesh, from any memory with zero counters: every weakly fair execution of @main on the TensorCores
    terminates without fault, with the result at the host operations' value of the region's outputs and the argument
    array unchanged. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro H
      imodintro
      isplitl [H]; · iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c))
    (Tₙ := fun c => StableHlo.held (c : Thread nD τ) (Pipeline.ucRefs τ sig) (Vend m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, -, -⟩, -⟩
      imodintro
      isplitl [Hh]; · iexact Hh
      iexists ∅; iexact HO)
    (QY := fun c s => s.mem ((c : Thread nD τ).loc main_v7) = Vend m c (Proc.devRef .tc main_v7)
      ∧ s.mem ((c : Thread nD τ).loc main_arg0) = m ((c : Thread nD τ).loc main_arg0))
    (hfin := fun c s' => by
      rw [← Vend_arg0 m c]
      have hT7 : ({Proc.devRef .tc main_v7} : Finset (DevRef τ sig)) ⊆ Pipeline.ucRefs τ sig := by
        intro b hb; rw [Finset.mem_singleton.mp hb]; exact Finset.mem_filter.mpr ⟨StableHlo.devRef_mem_tcRefs _, by decide⟩
      have hT0 : ({Proc.devRef .tc main_arg0} : Finset (DevRef τ sig)) ⊆ Pipeline.ucRefs τ sig \ {Proc.devRef .tc main_v7} := by
        intro b hb; rw [Finset.mem_singleton.mp hb]
        exact Finset.mem_sdiff.mpr ⟨Finset.mem_filter.mpr ⟨StableHlo.devRef_mem_tcRefs _, by decide⟩,
          by rw [Finset.mem_singleton]; exact StableHlo.devRef_ne_of_ne (by decide)⟩
      rw [StableHlo.held_sub_split _ hT7, StableHlo.held_sub_split _ hT0]
      unfold StableHlo.held
      rw [BI.bigSep_singleton, BI.bigSep_singleton]
      iintro ⟨⟨H7, H0, -⟩, HSI⟩
      icombine HSI H7 gives %h7
      icombine HSI H0 gives %h0
      imodintro
      isplitr; · ipureintro; exact ⟨Buf.eq_of_forall_mem_univ h7, Buf.eq_of_forall_mem_univ h0⟩
      iexact HSI)
    (hQ := fun _ h => h)

/-- THE FRAME: @main runs to the end, faults nowhere, and leaves its argument array as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.Body

end
-- ==== Proof.KIBodyDefs.lean ====
/-
  The loss kernel's body at one grid point, as mathematics.

  The grid is 8 row blocks (1024 rows each) by 16 column blocks (512 columns each) of the 8192 x 8192 matrix of
  pairwise losses; point t is row block t / 16, column block t % 16. At a point the body does up to three things,
  each under a condition on the point alone:
    * at column block 0 it clears the two accumulators (row sums of the loss, row counts of its non-zeros);
    * where the tile meets the upper triangle, (j + 1) * 512 > i * 1024, it adds the tile's row sums and row counts;
    * at column block 15 it copies the accumulators to the two outputs.
  This module names the three conditions, gives them in closed form over the 128 points, names the tile's row sums
  (rowSum) and its non-zero mask (nzMask) as functions of the four input blocks, and records where the output
  windows are idle (everywhere but column block 15) and written back (exactly there).
-/
import proofs.«173804_j30554397344482_2_alg».proof.Proof.Gen.KernelIdeal.Launch
import proofs.«173804_j30554397344482_2_alg».proof.Proof.Gen.KernelIdeal.Skeleton
import proofs.«173804_j30554397344482_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three branch conditions of the body, as the printed scalar chains over the grid coordinates. -/
abbrev cond1 (i : grid0.Coords) : Prop := (Scalar.cmpi .ne (Scalar.extui (Scalar.cmpi .eq (BitVec.ofNat 32 (i 1).val) 0#32)) 0#32) = 1#1
abbrev cond2 (i : grid0.Coords) : Prop := (Scalar.cmpi .ne (Scalar.extui (Scalar.cmpi .sgt (Scalar.muli (Scalar.addi (BitVec.ofNat 32 (i 1).val) 1#32) 512#32) (Scalar.muli (BitVec.ofNat 32 (i 0).val) 1024#32))) 0#32) = 1#1
abbrev cond3 (i : grid0.Coords) : Prop := k0_cond3 i = 1#1

/-- The zero offsets of a whole-buffer rectangle, however spelt. -/
theorem hz2 : (![0, 0] : Fin 2 → Nat) = fun _ => 0 := by funext a; fin_cases a <;> rfl

/-- Row sums of the masked loss tile of grid point `i`, from the four input blocks. -/
def rowSum (i : grid0.Coords) (x0 : Vec F S1024x512 .bf16) (x1 : Vec F S512x512 .bf16) (x2 : Vec F S1024x1 .f32) (x3 : Vec F S512x1 .f32) : FVec F S1024x1 .f32 :=
  k0_pay12 (k0_pay5 x0 x1 x2 x3) (k0_pay6 (BitVec.ofNat 32 (i 0).val)) (k0_pay7 (BitVec.ofNat 32 (i 1).val)) (k0_pay8 (BitVec.ofNat 32 (i 0).val)) (k0_pay9 (BitVec.ofNat 32 (i 0).val)) (k0_pay10 (BitVec.ofNat 32 (i 0).val))
/-- Where that tile is non-zero. -/
def nzMask (i : grid0.Coords) (x0 : Vec F S1024x512 .bf16) (x1 : Vec F S512x512 .bf16) (x2 : Vec F S1024x1 .f32) (x3 : Vec F S512x1 .f32) : IVec S1024x512 1 :=
  k0_pay13 (k0_pay5 x0 x1 x2 x3) (k0_pay6 (BitVec.ofNat 32 (i 0).val)) (k0_pay7 (BitVec.ofNat 32 (i 1).val)) (k0_pay8 (BitVec.ofNat 32 (i 0).val)) (k0_pay9 (BitVec.ofNat 32 (i 0).val)) (k0_pay10 (BitVec.ofNat 32 (i 0).val))

/-- The conditions in closed form over the 128 grid points (point `t` is row block `t / 16`, column block `t % 16`). -/
theorem hcond1 : ∀ t : Fin cfg0.N, cond1 (grid0.coords t) ↔ t.val % 16 = 0 :=
  (by decide +kernel : ∀ t : Fin grid0.N, cond1 (grid0.coords t) ↔ t.val % 16 = 0)
theorem hcond2 : ∀ t : Fin cfg0.N, cond2 (grid0.coords t) ↔ 2 * (t.val / 16) < t.val % 16 + 1 :=
  (by decide +kernel : ∀ t : Fin grid0.N, cond2 (grid0.coords t) ↔ 2 * (t.val / 16) < t.val % 16 + 1)
theorem hcond3 : ∀ t : Fin cfg0.N, cond3 (grid0.coords t) ↔ t.val % 16 = 15 :=
  (by decide +kernel : ∀ t : Fin grid0.N, cond3 (grid0.coords t) ↔ t.val % 16 = 15)

/-- The output windows are idle exactly off the last column block, and written back exactly there. -/
theorem idle4 : ∀ t : Fin cfg0.N, ¬cond3 (grid0.coords t) → cfg0.idle 4 (grid0.coords t) = true := by decide +kernel
theorem idle5 : ∀ t : Fin cfg0.N, ¬cond3 (grid0.coords t) → cfg0.idle 5 (grid0.coords t) = true := by decide +kernel
theorem noFlush4 : ∀ t : Fin cfg0.N, ¬cond3 (grid0.coords t) → (cfg0.win 4).flush t = false := by decide +kernel
theorem noFlush5 : ∀ t : Fin cfg0.N, ¬cond3 (grid0.coords t) → (cfg0.win 5).flush t = false := by decide +kernel
theorem live4 : ∀ t : Fin cfg0.N, cond3 (grid0.coords t) → cfg0.idle 4 (grid0.coords t) = false := by decide +kernel
theorem live5 : ∀ t : Fin cfg0.N, cond3 (grid0.coords t) → cfg0.idle 5 (grid0.coords t) = false := by decide +kernel
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl

end Cert.KernelIdeal.Body

end
-- ==== Proof.KIRunA.lean ====
/-
  The body at a grid point of case A: the accumulators are cleared, then the tile's row sums and row counts are added to the cleared values; the outputs are not touched.
  Stated on any whole staging memrefs holding the four input blocks, the two output buffers and the two accumulators
  at given contents: the body runs to the end without fault, the inputs as they were, and each other buffer at the
  contents named in the statement. Every store of the body overwrites a whole buffer, so what a buffer holds afterwards
  is the last value stored into it.
-/
import proofs.«173804_j30554397344482_2_alg».proof.Proof.KIBodyDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runA (c : Dev nD) (i : grid0.Coords)
    (arg2 : Memref sig .tc .vmem S1024x512 .bf16) (harg2 : arg2.IsWhole) (arg3 : Memref sig .tc .vmem S512x512 .bf16) (harg3 : arg3.IsWhole)
    (arg4 : Memref sig .tc .vmem S1024x1 .f32) (harg4 : arg4.IsWhole) (arg5 : Memref sig .tc .vmem S512x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : cond1 i) (hc2 : cond2 i) (hc3 : ¬cond3 i)
    (x0 : Vec F S1024x512 .bf16) (x1 : Vec F S512x512 .bf16) (x2 : Vec F S1024x1 .f32) (x3 : Vec F S512x1 .f32)
    (xi4 xi5 xs0 xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare (k0_pay3 (rowSum i x0 x1 x2 x3) k0_pay1) ∗ owns (c : Thread nD τ) arg9 fullShare (k0_pay4 (nzMask i x0 x1 x2 x3) k0_pay2)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hfs0; obtain rfl := harg9.eq_unread hfs1
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact harg7.read_unread _
  isplitl [HS0]
  · iexists _; isplitr; swap; · iexact HS0
    ipureintro
    try sl_unfold_words
    rw [View.read_writes_eq_canon _ _ _ (fun y => ⟨_, List.mem_cons_self, View.mem_set_unit_zero hz2 inb_S1024x1_S1024x1_0_0 y⟩), View.canon_cons_unit_zero hz2]
    try rw [View.readCov_unit_zero _ hz2]
    try simp only [View.readAt_eq_ld, harg2.read_unread, harg3.read_unread, harg4.read_unread, harg5.read_unread, harg8.read_unread, harg9.read_unread, View.ld_unit_zero (S := S1024x1) hz2, View.ld_unit_zero (S := S1024x512) hz2, View.ld_unit_zero (S := S512x512) hz2, View.ld_unit_zero (S := S512x1) hz2]
    try rfl
  · iexists _; isplitr; swap; · iexact HS1
    ipureintro
    try sl_unfold_words
    rw [View.read_writes_eq_canon _ _ _ (fun y => ⟨_, List.mem_cons_self, View.mem_set_unit_zero hz2 inb_S1024x1_S1024x1_0_0 y⟩), View.canon_cons_unit_zero hz2]
    try rw [View.readCov_unit_zero _ hz2]
    try simp only [View.readAt_eq_ld, harg2.read_unread, harg3.read_unread, harg4.read_unread, harg5.read_unread, harg8.read_unread, harg9.read_unread, View.ld_unit_zero (S := S1024x1) hz2, View.ld_unit_zero (S := S1024x512) hz2, View.ld_unit_zero (S := S512x512) hz2, View.ld_unit_zero (S := S512x1) hz2]
    try rfl

end Cert.KernelIdeal.Body

end
-- ==== Proof.KIRunB.lean ====
/-
  The body at a grid point of case B: the accumulators are cleared and nothing is added (the tile lies wholly below the diagonal); the outputs are not touched.
  Stated on any whole staging memrefs holding the four input blocks, the two output buffers and the two accumulators
  at given contents: the body runs to the end without fault, the inputs as they were, and each other buffer at the
  contents named in the statement. Every store of the body overwrites a whole buffer, so what a buffer holds afterwards
  is the last value stored into it.
-/
import proofs.«173804_j30554397344482_2_alg».proof.Proof.KIBodyDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runB (c : Dev nD) (i : grid0.Coords)
    (arg2 : Memref sig .tc .vmem S1024x512 .bf16) (harg2 : arg2.IsWhole) (arg3 : Memref sig .tc .vmem S512x512 .bf16) (harg3 : arg3.IsWhole)
    (arg4 : Memref sig .tc .vmem S1024x1 .f32) (harg4 : arg4.IsWhole) (arg5 : Memref sig .tc .vmem S512x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : cond1 i) (hc2 : ¬cond2 i) (hc3 : ¬cond3 i)
    (x0 : Vec F S1024x512 .bf16) (x1 : Vec F S512x512 .bf16) (x2 : Vec F S1024x1 .f32) (x3 : Vec F S512x1 .f32)
    (xi4 xi5 xs0 xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare k0_pay1 ∗ owns (c : Thread nD τ) arg9 fullShare k0_pay2) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hfs0; obtain rfl := harg9.eq_unread hfs1
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact harg7.read_unread _
  isplitl [HS0]
  · iexists _; isplitr; swap; · iexact HS0
    ipureintro
    try sl_unfold_words
    rw [View.read_writes_eq_canon _ _ _ (fun y => ⟨_, List.mem_cons_self, View.mem_set_unit_zero hz2 inb_S1024x1_S1024x1_0_0 y⟩), View.canon_cons_unit_zero hz2]
    try rw [View.readCov_unit_zero _ hz2]
    try simp only [View.readAt_eq_ld, harg2.read_unread, harg3.read_unread, harg4.read_unread, harg5.read_unread, harg8.read_unread, harg9.read_unread, View.ld_unit_zero (S := S1024x1) hz2, View.ld_unit_zero (S := S1024x512) hz2, View.ld_unit_zero (S := S512x512) hz2, View.ld_unit_zero (S := S512x1) hz2]
    try rfl
  · iexists _; isplitr; swap; · iexact HS1
    ipureintro
    try sl_unfold_words
    rw [View.read_writes_eq_canon _ _ _ (fun y => ⟨_, List.mem_cons_self, View.mem_set_unit_zero hz2 inb_S1024x1_S1024x1_0_0 y⟩), View.canon_cons_unit_zero hz2]
    try rw [View.readCov_unit_zero _ hz2]
    try simp only [View.readAt_eq_ld, harg2.read_unread, harg3.read_unread, harg4.read_unread, harg5.read_unread, harg8.read_unread, harg9.read_unread, View.ld_unit_zero (S := S1024x1) hz2, View.ld_unit_zero (S := S1024x512) hz2, View.ld_unit_zero (S := S512x512) hz2, View.ld_unit_zero (S := S512x1) hz2]
    try rfl

end Cert.KernelIdeal.Body

end
-- ==== Proof.KIRunC.lean ====
/-
  The body at a grid point of case C: the tile's row sums and row counts are added to the accumulators; the outputs are not touched.
  Stated on any whole staging memrefs holding the four input blocks, the two output buffers and the two accumulators
  at given contents: the body runs to the end without fault, the inputs as they were, and each other buffer at the
  contents named in the statement. Every store of the body overwrites a whole buffer, so what a buffer holds afterwards
  is the last value stored into it.
-/
import proofs.«173804_j30554397344482_2_alg».proof.Proof.KIBodyDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runC (c : Dev nD) (i : grid0.Coords)
    (arg2 : Memref sig .tc .vmem S1024x512 .bf16) (harg2 : arg2.IsWhole) (arg3 : Memref sig .tc .vmem S512x512 .bf16) (harg3 : arg3.IsWhole)
    (arg4 : Memref sig .tc .vmem S1024x1 .f32) (harg4 : arg4.IsWhole) (arg5 : Memref sig .tc .vmem S512x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : ¬cond1 i) (hc2 : cond2 i) (hc3 : ¬cond3 i)
    (x0 : Vec F S1024x512 .bf16) (x1 : Vec F S512x512 .bf16) (x2 : Vec F S1024x1 .f32) (x3 : Vec F S512x1 .f32)
    (xi4 xi5 xs0 xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare (k0_pay3 (rowSum i x0 x1 x2 x3) xs0) ∗ owns (c : Thread nD τ) arg9 fullShare (k0_pay4 (nzMask i x0 x1 x2 x3) xs1)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hfs0; obtain rfl := harg9.eq_unread hfs1
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact harg7.read_unread _
  isplitl [HS0]
  · iexists _; isplitr; swap; · iexact HS0
    ipureintro
    try sl_unfold_words
    rw [View.read_writes_eq_canon _ _ _ (fun y => ⟨_, List.mem_cons_self, View.mem_set_unit_zero hz2 inb_S1024x1_S1024x1_0_0 y⟩), View.canon_cons_unit_zero hz2]
    try rw [View.readCov_unit_zero _ hz2]
    try simp only [View.readAt_eq_ld, harg2.read_unread, harg3.read_unread, harg4.read_unread, harg5.read_unread, harg8.read_unread, harg9.read_unread, View.ld_unit_zero (S := S1024x1) hz2, View.ld_unit_zero (S := S1024x512) hz2, View.ld_unit_zero (S := S512x512) hz2, View.ld_unit_zero (S := S512x1) hz2]
    try rfl
  · iexists _; isplitr; swap; · iexact HS1
    ipureintro
    try sl_unfold_words
    rw [View.read_writes_eq_canon _ _ _ (fun y => ⟨_, List.mem_cons_self, View.mem_set_unit_zero hz2 inb_S1024x1_S1024x1_0_0 y⟩), View.canon_cons_unit_zero hz2]
    try rw [View.readCov_unit_zero _ hz2]
    try simp only [View.readAt_eq_ld, harg2.read_unread, harg3.read_unread, harg4.read_unread, harg5.read_unread, harg8.read_unread, harg9.read_unread, View.ld_unit_zero (S := S1024x1) hz2, View.ld_unit_zero (S := S1024x512) hz2, View.ld_unit_zero (S := S512x512) hz2, View.ld_unit_zero (S := S512x1) hz2]
    try rfl

end Cert.KernelIdeal.Body

end
-- ==== Proof.KIRunD.lean ====
/-
  The body at a grid point of case D: nothing happens (the tile lies wholly below the diagonal): every buffer is handed back as it was found.
  Stated on any whole staging memrefs holding the four input blocks, the two output buffers and the two accumulators
  at given contents: the body runs to the end without fault, the inputs as they were, and each other buffer at the
  contents named in the statement. Every store of the body overwrites a whole buffer, so what a buffer holds afterwards
  is the last value stored into it.
-/
import proofs.«173804_j30554397344482_2_alg».proof.Proof.KIBodyDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runD (c : Dev nD) (i : grid0.Coords)
    (arg2 : Memref sig .tc .vmem S1024x512 .bf16) (harg2 : arg2.IsWhole) (arg3 : Memref sig .tc .vmem S512x512 .bf16) (harg3 : arg3.IsWhole)
    (arg4 : Memref sig .tc .vmem S1024x1 .f32) (harg4 : arg4.IsWhole) (arg5 : Memref sig .tc .vmem S512x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : ¬cond1 i) (hc2 : ¬cond2 i) (hc3 : ¬cond3 i)
    (x0 : Vec F S1024x512 .bf16) (x1 : Vec F S512x512 .bf16) (x2 : Vec F S1024x1 .f32) (x3 : Vec F S512x1 .f32)
    (xi4 xi5 xs0 xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare xs0 ∗ owns (c : Thread nD τ) arg9 fullShare xs1) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hfs0; obtain rfl := harg9.eq_unread hfs1
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    exact harg6.read_unread _
  isplitl [H5]
  · iexists _; isplitr; swap; · iexact H5
    ipureintro
    exact harg7.read_unread _
  isplitl [HS0]
  · iexists _; isplitr; swap; · iexact HS0
    ipureintro
    exact harg8.read_unread _
  · iexists _; isplitr; swap; · iexact HS1
    ipureintro
    exact harg9.read_unread _

end Cert.KernelIdeal.Body

end
-- ==== Proof.KIRunE.lean ====
/-
  The body at a grid point of case E: the tile's row sums and row counts are added to the accumulators, and the accumulators are then copied to the two outputs.
  Stated on any whole staging memrefs holding the four input blocks, the two output buffers and the two accumulators
  at given contents: the body runs to the end without fault, the inputs as they were, and each other buffer at the
  contents named in the statement. Every store of the body overwrites a whole buffer, so what a buffer holds afterwards
  is the last value stored into it.
-/
import proofs.«173804_j30554397344482_2_alg».proof.Proof.KIBodyDefs

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem runE (c : Dev nD) (i : grid0.Coords)
    (arg2 : Memref sig .tc .vmem S1024x512 .bf16) (harg2 : arg2.IsWhole) (arg3 : Memref sig .tc .vmem S512x512 .bf16) (harg3 : arg3.IsWhole)
    (arg4 : Memref sig .tc .vmem S1024x1 .f32) (harg4 : arg4.IsWhole) (arg5 : Memref sig .tc .vmem S512x1 .f32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc1 : ¬cond1 i) (hc2 : cond2 i) (hc3 : cond3 i)
    (x0 : Vec F S1024x512 .bf16) (x1 : Vec F S512x512 .bf16) (x2 : Vec F S1024x1 .f32) (x3 : Vec F S512x1 .f32)
    (xi4 xi5 xs0 xs1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay3 (rowSum i x0 x1 x2 x3) xs0) ∗ owns (c : Thread nD τ) arg7 fullShare (k0_pay4 (nzMask i x0 x1 x2 x3) xs1)
            ∗ owns (c : Thread nD τ) arg8 fullShare (k0_pay3 (rowSum i x0 x1 x2 x3) xs0) ∗ owns (c : Thread nD τ) arg9 fullShare (k0_pay4 (nzMask i x0 x1 x2 x3) xs1)) -∗ K ⟨⟩))
      ⊢ wp frame (wpE (defs₀ (F := F)) Variants.none c none) E (cc0__triplet_kernel i arg2 harg2 arg3 harg3 arg4 harg4 arg5 harg5 arg6 harg6 arg7 harg7 arg8 harg8 arg9 harg9) K := by
  simp only [cc0__triplet_kernel_eq_skeleton]; unfold cc0__triplet_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hfs0; obtain rfl := harg9.eq_unread hfs1
  sl_exec (disch := first | exact hc1 | exact hc2 | exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    try sl_unfold_words
    rw [View.read_writes_eq_canon _ _ _ (fun y => ⟨_, List.mem_cons_self, View.mem_set_unit_zero hz2 inb_S1024x1_S1024x1_0_0 y⟩), View.canon_cons_unit_zero hz2]
    try rw [View.readCov_unit_zero _ hz2]
    try simp only [View.readAt_eq_ld, harg2.read_unread, harg3.read_unread, harg4.read_unread, harg5.read_unread, harg8.read_unread, harg9.read_unread, View.ld_unit_zero (S := S1024x1) hz2, View.ld_unit_zero (S := S1024x512) hz2, View.ld_unit_zero (S := S512x512) hz2, View.ld_unit_zero (S := S512x1) hz2]
    try rfl
  isplitl [H5]
  · iexists _; isplitr; swap; · iexact H5
    ipureintro
    try sl_unfold_words
    rw [View.read_writes_eq_canon _ _ _ (fun y => ⟨_, List.mem_cons_self, View.mem_set_unit_zero hz2 inb_S1024x1_S1024x1_0_0 y⟩), View.canon_cons_unit_zero hz2]
    try rw [View.readCov_unit_zero _ hz2]
    try simp only [View.readAt_eq_ld, harg2.read_unread, harg3.read_unread, harg4.read_unread, harg5.read_unread, harg8.read_unread, harg9.read_unread, View.ld_unit_zero (S := S1024x1) hz2, View.ld_unit_zero (S := S1024x512) hz2, View.ld_unit_zero (S := S512x512) hz2, View.ld_unit_zero (S := S512x1) hz2]
    try rfl
  isplitl [HS0]
  · iexists _; isplitr; swap; · iexact HS0
    ipureintro
    try sl_unfold_words
    rw [View.read_writes_eq_canon _ _ _ (fun y => ⟨_, List.mem_cons_self, View.mem_set_unit_zero hz2 inb_S1024x1_S1024x1_0_0 y⟩), View.canon_cons_unit_zero hz2]
    try rw [View.readCov_unit_zero _ hz2]
    try simp only [View.readAt_eq_ld, harg2.read_unread, harg3.read_unread, harg4.read_unread, harg5.read_unread, harg8.read_unread, harg9.read_unread, View.ld_unit_zero (S := S1024x1) hz2, View.ld_unit_zero (S := S1024x512) hz2, View.ld_unit_zero (S := S512x512) hz2, View.ld_unit_zero (S := S512x1) hz2]
    try rfl
  · iexists _; isplitr; swap; · iexact HS1
    ipureintro
    try sl_unfold_words
    rw [View.read_writes_eq_canon _ _ _ (fun y => ⟨_, List.mem_cons_self, View.mem_set_unit_zero hz2 inb_S1024x1_S1024x1_0_0 y⟩), View.canon_cons_unit_zero hz2]
    try rw [View.readCov_unit_zero _ hz2]
    try simp only [View.readAt_eq_ld, harg2.read_unread, harg3.read_unread, harg4.read_unread, harg5.read_unread, harg8.read_unread, harg9.read_unread, View.ld_unit_zero (S := S1024x1) hz2, View.ld_unit_zero (S := S1024x512) hz2, View.ld_unit_zero (S := S512x512) hz2, View.ld_unit_zero (S := S512x1) hz2]
    try rfl

end Cert.KernelIdeal.Body

end
-- ==== Proof.KIAccum.lean ====
/-
  The accumulators point by point, and the pipeline's proof data.

  After grid point t the two scratch accumulators hold scrAt t: at a point of column block 0 they restart from zero,
  at a point whose tile meets the upper triangle the tile's row sums / row counts are added, otherwise they keep what
  the point before left (step). The region's invariant carries exactly these contents from point to point; the four
  input windows hold the blocks of the arrays the region is entered with (each of the two arrays feeds two windows, so
  each window holds half of the array's share); the two outputs' staging buffers take the accumulators at column
  block 15 and are idle elsewhere.
-/
import proofs.«173804_j30554397344482_2_alg».proof.Proof.KIRunA
import proofs.«173804_j30554397344482_2_alg».proof.Proof.KIRunB
import proofs.«173804_j30554397344482_2_alg».proof.Proof.KIRunC
import proofs.«173804_j30554397344482_2_alg».proof.Proof.KIRunD
import proofs.«173804_j30554397344482_2_alg».proof.Proof.KIRunE

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them -/

/-- Core `c`'s buffers when the region is entered: the host operations before it (the row norms, the cast of the
    argument) have run on the launch contents. -/
abbrev V0 (c : Dev nD) : Valuation τ sig (Elt F) := StableHlo.after hostOps0_1 (StableHlo.after hostOps0 (fun b => m (c, b)))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The tile's row sums and non-zero mask at point `t`, of the point's four input blocks. -/
def rsAt (c : Dev nD) (t : Fin cfg0.N) : FVec F S1024x1 .f32 := rowSum (grid0.coords t) (iblk m c 0 t) (iblk m c 1 t) (iblk m c 2 t) (iblk m c 3 t)
def nzAt (c : Dev nD) (t : Fin cfg0.N) : IVec S1024x512 1 := nzMask (grid0.coords t) (iblk m c 0 t) (iblk m c 1 t) (iblk m c 2 t) (iblk m c 3 t)

/-! ## One point's effect on the accumulators -/

/-- The sum accumulator after point `t`, from what the point before left (`prev`, unused at column block 0). -/
def stepS (t : Fin cfg0.N) (rs : FVec F S1024x1 .f32) (prev : Vec F S1024x1 .f32) : Vec F S1024x1 .f32 :=
  if 2 * (t.val / 16) < t.val % 16 + 1 then k0_pay3 rs (if t.val % 16 = 0 then k0_pay1 else prev)
  else (if t.val % 16 = 0 then k0_pay1 else prev)
/-- The count accumulator likewise. -/
def stepC (t : Fin cfg0.N) (nz : IVec S1024x512 1) (prev : Vec F S1024x1 .f32) : Vec F S1024x1 .f32 :=
  if 2 * (t.val / 16) < t.val % 16 + 1 then k0_pay4 nz (if t.val % 16 = 0 then k0_pay2 else prev)
  else (if t.val % 16 = 0 then k0_pay2 else prev)

/-- THE ACCUMULATION: the two accumulators after point `n`. -/
def scrAt (c : Dev nD) : (n : ℕ) → n < cfg0.N → Vec F S1024x1 .f32 × Vec F S1024x1 .f32
  | 0, hn => (stepS ⟨0, hn⟩ (rsAt m c ⟨0, hn⟩) k0_pay1, stepC ⟨0, hn⟩ (nzAt m c ⟨0, hn⟩) k0_pay2)
  | n + 1, hn => (stepS ⟨n + 1, hn⟩ (rsAt m c ⟨n + 1, hn⟩) (scrAt c n (Nat.lt_of_succ_lt hn)).1,
      stepC ⟨n + 1, hn⟩ (nzAt m c ⟨n + 1, hn⟩) (scrAt c n (Nat.lt_of_succ_lt hn)).2)

/-- After point `t`: one step from any pair that is the point before's accumulators (any pair at all at point 0). -/
theorem scrAt_step (c : Dev nD) (t : Fin cfg0.N) (p : Vec F S1024x1 .f32 × Vec F S1024x1 .f32)
    (hp : ∀ h : t.val ≠ 0, p = scrAt m c (t.val - 1) (Nat.lt_of_le_of_lt (Nat.sub_le _ _) t.isLt)) :
    scrAt m c t.val t.isLt = (stepS t (rsAt m c t) p.1, stepC t (nzAt m c t) p.2) := by
  obtain ⟨n, hn⟩ := t
  cases n with
  | zero =>
    show (stepS ⟨0, hn⟩ (rsAt m c ⟨0, hn⟩) k0_pay1, stepC ⟨0, hn⟩ (nzAt m c ⟨0, hn⟩) k0_pay2) = _
    unfold stepS stepC; simp only [Nat.zero_mod, if_true]
  | succ n =>
    rw [hp (Nat.succ_ne_zero n)]; rfl

/-! ## The region's invariant -/

/-- The two scratch operands: whole scoped buffers of the kernel's own. -/
abbrev scM0 : Memref sig .tc .vmem S1024x1 .f32 := Memref.whole cc0_scratch0
abbrev scM1 : Memref sig .tc .vmem S1024x1 .f32 := Memref.whole cc0_scratch1

/-- Before position `n`: at the start both accumulators at anything; afterwards at what the point before left. -/
def PhiS (c : Dev nD) : (n : ℕ) → n ≤ cfg0.N → sProp 𝕄
  | 0, _ => iprop((∃ d, owns (c : Thread nD τ) scM0 fullShare d) ∗ (∃ d, owns (c : Thread nD τ) scM1 fullShare d))
  | n + 1, hn => iprop(owns (c : Thread nD τ) scM0 fullShare (scrAt m c n hn).1 ∗ owns (c : Thread nD τ) scM1 fullShare (scrAt m c n hn).2)

theorem PhiS_succ (c : Dev nD) (n : ℕ) (hn : n < cfg0.N) :
    PhiS m c (n + 1) hn = iprop(owns (c : Thread nD τ) scM0 fullShare (scrAt m c n hn).1 ∗ owns (c : Thread nD τ) scM1 fullShare (scrAt m c n hn).2) := rfl

/-- The scoped buffers the pipeline does not stage are the two accumulators, at anything: the invariant at the start. -/
theorem scopedRest_eq_PhiS (c : Dev nD) :
    (Pipeline.scopedRest (Ix := Unit) (Name := ℕ) (U := UR sig nD τ) (Lvl := ℕ) (Val := Elt F) spec0 c : sProp 𝕄) = PhiS m c 0 (Nat.zero_le _) := by
  rw [scopedRest0_eq]; show _ = iprop((∃ d, owns (c : Thread nD τ) scM0 fullShare d) ∗ (∃ d, owns (c : Thread nD τ) scM1 fullShare d))
  simp only [scM0, scM1, owns_whole] <;> rfl

/-- At any position the invariant holds both accumulators at some pair, which past the first point is the point before's. -/
theorem PhiS_elim (c : Dev nD) (n : ℕ) (h : n ≤ cfg0.N) :
    PhiS m c n h ⊢ iprop(∃ xs0 xs1, ⌜∀ hz : n ≠ 0, (xs0, xs1) = scrAt m c (n - 1) (by omega)⌝
      ∗ owns (c : Thread nD τ) scM0 fullShare xs0 ∗ owns (c : Thread nD τ) scM1 fullShare xs1) := by
  cases n with
  | zero =>
    show iprop((∃ d, owns (c : Thread nD τ) scM0 fullShare d) ∗ (∃ d, owns (c : Thread nD τ) scM1 fullShare d)) ⊢ _
    iintro ⟨⟨%d0, H0⟩, ⟨%d1, H1⟩⟩
    iexists d0; iexists d1
    isplitr; · ipureintro; intro hz; exact absurd rfl hz
    isplitl [H0] <;> iassumption
  | succ n =>
    rw [PhiS_succ]
    iintro ⟨H0, H1⟩
    iexists (scrAt m c n h).1; iexists (scrAt m c n h).2
    isplitr; · ipureintro; intro _; rfl
    isplitl [H0] <;> iassumption

/-! ## The pipeline's proof data -/

/-- The proof data on core `c`: the arrays as the region finds them; after the body each input's buffer at its block and
    each output's at the accumulators; the invariant; each input array's share halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (scrAt m c t.val t.isLt).1
    | ⟨5, _⟩ => (scrAt m c t.val t.isLt).2
  Φ t := PhiS m c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq (c : Dev nD) (w : Fin cfg0.W) : (dats m 0 c).A w = V m c (Pipeline.arrRef spec0 w) := by dsimp only [dats]

theorem PhiS_castSucc (c : Dev nD) (t : Fin cfg0.N) : (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (scrAt m c t.val t.isLt).1 := by dsimp only [dats]
theorem after_5 (c : Dev nD) (t : Fin cfg0.N) : (dats m 0 c).after 5 t = (scrAt m c t.val t.isLt).2 := by dsimp only [dats]

/-- Each input's current staging buffer holds its block at every point, fetched there or not (unfetched, the block index
    has not moved; the body only reads it). -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation, at a generic point -/

/-- Each window's current staging memref at point `t`, as the pipeline passes it, and its wholeness. -/
abbrev ms0 (t : Fin cfg0.N) : Memref sig .tc .vmem S1024x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
/-- The body at any point. The inputs' memrefs hold their blocks; the closed forms say which of the five cases the point is
    in; the invariant hands over the accumulators at what the point before left (at anything at the first point) and takes
    them back at this point's contents; an output's buffer is handed back untouched off column block 15 and holds the
    accumulators' contents there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ, PhiS_castSucc]
  rw [show (dats m 0 c).leavesExact 0 t = owns (c : Thread nD τ) (ms0 t) fullShare (iblk m c 0 t) from by
      unfold Dat.leavesExact; rw [live0 t, after_0],
    show (dats m 0 c).leavesExact 1 t = owns (c : Thread nD τ) (ms1 t) fullShare (iblk m c 1 t) from by
      unfold Dat.leavesExact; rw [live1 t, after_1],
    show (dats m 0 c).leavesExact 2 t = owns (c : Thread nD τ) (ms2 t) fullShare (iblk m c 2 t) from by
      unfold Dat.leavesExact; rw [live2 t, after_2],
    show (dats m 0 c).leavesExact 3 t = owns (c : Thread nD τ) (ms3 t) fullShare (iblk m c 3 t) from by
      unfold Dat.leavesExact; rw [live3 t, after_3]]
  have hN : t.val < 128 := lt_of_lt_of_eq t.isLt (show cfg0.N = 128 from N_0)
  by_cases h1 : t.val % 16 = 0
  · by_cases h2 : 2 * (t.val / 16) < t.val % 16 + 1
    · have h3 : ¬ t.val % 16 = 15 := by omega
      rw [Dat.leavesExact_idle (dats m 0 c) 4 t (idle4 t (fun h => h3 ((hcond3 t).mp h))) (noFlush4 t (fun h => h3 ((hcond3 t).mp h))),
        Dat.leavesExact_idle (dats m 0 c) 5 t (idle5 t (fun h => h3 ((hcond3 t).mp h))) (noFlush5 t (fun h => h3 ((hcond3 t).mp h)))]
      iintro ⟨HΦ, Ho, ⟨%d0, H0⟩, ⟨%d1, H1⟩, ⟨%d2, H2⟩, ⟨%d3, H3⟩, ⟨%d4, H4⟩, ⟨%d5, H5⟩⟩
      ihave HΦ' := (PhiS_elim m c t.val (Nat.le_of_lt t.isLt)) $$ HΦ
      icases HΦ' with ⟨%xs0, %xs1, %hxs, HS0, HS1⟩
      rw [scrAt_step m c t (xs0, xs1) hxs]; unfold stepS stepC rsAt nzAt
      simp only [if_pos h1, if_pos h2]
      iapply (runA c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _)
        ((hcond1 t).mpr h1) ((hcond2 t).mpr h2) (fun h => h3 ((hcond3 t).mp h))
        (iblk m c 0 t) (iblk m c 1 t) (iblk m c 2 t) (iblk m c 3 t) _ _ xs0 xs1 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1]
      · isplitl [HS0] <;> iassumption
      isplitl [Ho]; · iexact Ho
      isplitl [H0]; · iexact H0
      isplitl [H1]; · iexact H1
      isplitl [H2]; · iexact H2
      isplitl [H3]; · iexact H3
      isplitl [H4]; · iexists _; iexact H4
      iexists _; iexact H5
    · have h3 : ¬ t.val % 16 = 15 := by omega
      rw [Dat.leavesExact_idle (dats m 0 c) 4 t (idle4 t (fun h => h3 ((hcond3 t).mp h))) (noFlush4 t (fun h => h3 ((hcond3 t).mp h))),
        Dat.leavesExact_idle (dats m 0 c) 5 t (idle5 t (fun h => h3 ((hcond3 t).mp h))) (noFlush5 t (fun h => h3 ((hcond3 t).mp h)))]
      iintro ⟨HΦ, Ho, ⟨%d0, H0⟩, ⟨%d1, H1⟩, ⟨%d2, H2⟩, ⟨%d3, H3⟩, ⟨%d4, H4⟩, ⟨%d5, H5⟩⟩
      ihave HΦ' := (PhiS_elim m c t.val (Nat.le_of_lt t.isLt)) $$ HΦ
      icases HΦ' with ⟨%xs0, %xs1, %hxs, HS0, HS1⟩
      rw [scrAt_step m c t (xs0, xs1) hxs]; unfold stepS stepC rsAt nzAt
      simp only [if_pos h1, if_neg h2]
      iapply (runB c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _)
        ((hcond1 t).mpr h1) (fun h => h2 ((hcond2 t).mp h)) (fun h => h3 ((hcond3 t).mp h))
        (iblk m c 0 t) (iblk m c 1 t) (iblk m c 2 t) (iblk m c 3 t) _ _ xs0 xs1 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1]
      · isplitl [HS0] <;> iassumption
      isplitl [Ho]; · iexact Ho
      isplitl [H0]; · iexact H0
      isplitl [H1]; · iexact H1
      isplitl [H2]; · iexact H2
      isplitl [H3]; · iexact H3
      isplitl [H4]; · iexists _; iexact H4
      iexists _; iexact H5
  · by_cases h2 : 2 * (t.val / 16) < t.val % 16 + 1
    · by_cases h3 : t.val % 16 = 15
      ·
        rw [show (dats m 0 c).leavesExact 4 t = owns (c : Thread nD τ) (ms4 t) fullShare ((dats m 0 c).after 4 t) from by
            unfold Dat.leavesExact; rw [live4 t ((hcond3 t).mpr h3)], after_4,
          show (dats m 0 c).leavesExact 5 t = owns (c : Thread nD τ) (ms5 t) fullShare ((dats m 0 c).after 5 t) from by
            unfold Dat.leavesExact; rw [live5 t ((hcond3 t).mpr h3)], after_5]
        iintro ⟨HΦ, Ho, ⟨%d0, H0⟩, ⟨%d1, H1⟩, ⟨%d2, H2⟩, ⟨%d3, H3⟩, ⟨%d4, H4⟩, ⟨%d5, H5⟩⟩
        ihave HΦ' := (PhiS_elim m c t.val (Nat.le_of_lt t.isLt)) $$ HΦ
        icases HΦ' with ⟨%xs0, %xs1, %hxs, HS0, HS1⟩
        rw [scrAt_step m c t (xs0, xs1) hxs]; unfold stepS stepC rsAt nzAt
        simp only [if_neg h1, if_pos h2]
        iapply (runE c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _)
          (fun h => h1 ((hcond1 t).mp h)) ((hcond2 t).mpr h2) ((hcond3 t).mpr h3)
          (iblk m c 0 t) (iblk m c 1 t) (iblk m c 2 t) (iblk m c 3 t) _ _ xs0 xs1 Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, HS0, HS1⟩
        isplitl [HS0 HS1]
        · isplitl [HS0] <;> iassumption
        isplitl [Ho]; · iexact Ho
        isplitl [H0]; · iexact H0
        isplitl [H1]; · iexact H1
        isplitl [H2]; · iexact H2
        isplitl [H3]; · iexact H3
        isplitl [H4]; · iexact H4
        iexact H5
      ·
        rw [Dat.leavesExact_idle (dats m 0 c) 4 t (idle4 t (fun h => h3 ((hcond3 t).mp h))) (noFlush4 t (fun h => h3 ((hcond3 t).mp h))),
          Dat.leavesExact_idle (dats m 0 c) 5 t (idle5 t (fun h => h3 ((hcond3 t).mp h))) (noFlush5 t (fun h => h3 ((hcond3 t).mp h)))]
        iintro ⟨HΦ, Ho, ⟨%d0, H0⟩, ⟨%d1, H1⟩, ⟨%d2, H2⟩, ⟨%d3, H3⟩, ⟨%d4, H4⟩, ⟨%d5, H5⟩⟩
        ihave HΦ' := (PhiS_elim m c t.val (Nat.le_of_lt t.isLt)) $$ HΦ
        icases HΦ' with ⟨%xs0, %xs1, %hxs, HS0, HS1⟩
        rw [scrAt_step m c t (xs0, xs1) hxs]; unfold stepS stepC rsAt nzAt
        simp only [if_neg h1, if_pos h2]
        iapply (runC c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _)
          (fun h => h1 ((hcond1 t).mp h)) ((hcond2 t).mpr h2) (fun h => h3 ((hcond3 t).mp h))
          (iblk m c 0 t) (iblk m c 1 t) (iblk m c 2 t) (iblk m c 3 t) _ _ xs0 xs1 Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, HS0, HS1⟩
        isplitl [HS0 HS1]
        · isplitl [HS0] <;> iassumption
        isplitl [Ho]; · iexact Ho
        isplitl [H0]; · iexact H0
        isplitl [H1]; · iexact H1
        isplitl [H2]; · iexact H2
        isplitl [H3]; · iexact H3
        isplitl [H4]; · iexists _; iexact H4
        iexists _; iexact H5
    · have h3 : ¬ t.val % 16 = 15 := by omega
      rw [Dat.leavesExact_idle (dats m 0 c) 4 t (idle4 t (fun h => h3 ((hcond3 t).mp h))) (noFlush4 t (fun h => h3 ((hcond3 t).mp h))),
        Dat.leavesExact_idle (dats m 0 c) 5 t (idle5 t (fun h => h3 ((hcond3 t).mp h))) (noFlush5 t (fun h => h3 ((hcond3 t).mp h)))]
      iintro ⟨HΦ, Ho, ⟨%d0, H0⟩, ⟨%d1, H1⟩, ⟨%d2, H2⟩, ⟨%d3, H3⟩, ⟨%d4, H4⟩, ⟨%d5, H5⟩⟩
      ihave HΦ' := (PhiS_elim m c t.val (Nat.le_of_lt t.isLt)) $$ HΦ
      icases HΦ' with ⟨%xs0, %xs1, %hxs, HS0, HS1⟩
      rw [scrAt_step m c t (xs0, xs1) hxs]; unfold stepS stepC rsAt nzAt
      simp only [if_neg h1, if_neg h2]
      iapply (runD c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _)
        (fun h => h1 ((hcond1 t).mp h)) (fun h => h2 ((hcond2 t).mp h)) (fun h => h3 ((hcond3 t).mp h))
        (iblk m c 0 t) (iblk m c 1 t) (iblk m c 2 t) (iblk m c 3 t) _ _ xs0 xs1 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1]
      · isplitl [HS0] <;> iassumption
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Body

end
-- ==== Proof.KILaunch.lean ====
/-
  @main as five segments, and its run.

  @main is: the row norms (five host operations), the cast of the argument (one), the kernel region, eight host
  operations that sum the two outputs and divide, and the final select. The region takes two arrays, each through two
  windows (a row block and a column block of the cast argument; likewise of the norms): at the region's entry each
  array's points-to is dealt in halves to its two windows, and at the exit the halves — both at the unchanged contents —
  are put together again, so that before and after the region the thread holds every unscoped buffer whole.
  After the region the two outputs hold what the write-backs of the 128 points left (the library's arrAt), every other
  buffer what the region found; the host operations then run on that.
-/
import proofs.«173804_j30554397344482_2_alg».proof.Proof.KIAccum
import Idealize.ShloMosaic.Lib.Pipeline.Regions

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the certificate's. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers: the core owing nothing. -/
abbrev R (c : Dev nD) : sProp 𝕄 := iprop(∃ W, owes (c : Thread nD τ) (0 : CellTallies nD τ sig Unit) W)
/-- Core `c`'s buffers at launch. -/
abbrev Vl (c : Dev nD) : Valuation τ sig (Elt F) := fun b => m (c, b)

/-! ## The host segments before the region -/

def segA : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (Vl m) R

def segB : Pipeline.HostSeg (Name := ℕ) (U := UR sig nD τ) (pcfgs (F := F)) defs₀ 𝒱₀ L lv :=
  Pipeline.HostSeg.ofOps _ _ _ _ _ (Pipeline.ucRefs τ sig) hostOps0_1
    (fun op h => Pipeline.sub_ucRefs op ((List.forall_iff_forall_mem.mp hostOps0_1_sub) op h))
    (by intro _ h; (repeat (cases h with | head => rfl | tail _ h => ?_)); exact nomatch h) (fun c => StableHlo.after hostOps0 (Vl m c)) R

/-! ## The buffers after the region -/

/-- Core `c`'s buffers when the region is left: the two outputs at what the write-backs left, every other buffer as the
    region found it. -/
def Vx (c : Dev nD) : Valuation τ sig (Elt F) := fun b =>
  if h : Proc.devRef .tc main_v2_0 = b then cast (congrArg (fun b' : DevRef τ sig => b'.ty.Contents (Elt F)) h) ((dats m 0 c).arrAt 4 cfg0.N)
  else if h : Proc.devRef .tc main_v2_1 = b then cast (congrArg (fun b' : DevRef τ sig => b'.ty.Contents (Elt F)) h) ((dats m 0 c).arrAt 5 cfg0.N)
  else V0 m c b

theorem Vx_out0 (c : Dev nD) : Vx m c (Proc.devRef .tc main_v2_0) = (dats m 0 c).arrAt 4 cfg0.N := by
  unfold Vx; rw [dif_pos rfl]; rfl
theorem Vx_out1 (c : Dev nD) : Vx m c (Proc.devRef .tc main_v2_1) = (dats m 0 c).arrAt 5 cfg0.N := by
  unfold Vx; rw [dif_neg (StableHlo.devRef_ne_of_ne (by decide)), dif_pos rfl]; rfl
theorem Vx_other (c : Dev nD) (b : Ref sig .tc) (h0 : main_v2_0 ≠ b) (h1 : main_v2_1 ≠ b) :
    Vx m c (Proc.devRef .tc b) = V0 m c (Proc.devRef .tc b) := by
  unfold Vx; rw [dif_neg (StableHlo.devRef_ne_of_ne h0), dif_neg (StableHlo.devRef_ne_of_ne h1)]

/-! ## The arrays, window by window -/

/-- The distinct buffers behind the six windows, listed. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v1) ↦{fullShare} W main_v1) ∗ (((c : Thread nD τ).loc main_v0) ↦{fullShare} W main_v0)
          ∗ (((c : Thread nD τ).loc main_v2_0) ↦{fullShare} W main_v2_0) ∗ (((c : Thread nD τ).loc main_v2_1) ↦{fullShare} W main_v2_1)) := by
  unfold Pipeline.arrBufs
  rw [BI.bigSep_eq_bigSepL_of_eq [main_v1, main_v0, main_v2_0, main_v2_1] (by decide) (by decide)]
  rfl

/-- The pipeline's arrays: each input array at half shares for its two windows, each output whole. -/
theorem arrays_eq6 (c : Dev nD) (G : (w : Fin cfg0.W) → Buf (Elt F) ((cfg0.win w).arr.view.loc (c : Thread nD τ))) :
    ((dats m 0 c).arrays G : sProp 𝕄)
      = iprop((((c : Thread nD τ).loc main_v1) ↦{fullShare.left} G 0) ∗ (((c : Thread nD τ).loc main_v1) ↦{fullShare.right} G 1)
          ∗ (((c : Thread nD τ).loc main_v0) ↦{fullShare.left} G 2) ∗ (((c : Thread nD τ).loc main_v0) ↦{fullShare.right} G 3)
          ∗ (((c : Thread nD τ).loc main_v2_0) ↦{fullShare} G 4) ∗ (((c : Thread nD τ).loc main_v2_1) ↦{fullShare} G 5)) := by
  unfold Dat.arrays
  rw [show (bigSep Finset.univ fun w : Fin cfg0.W => ((cfg0.win w).arr.view.loc (c : Thread nD τ) ↦[(cfg0.win w).arr.view.set]{(dats m 0 c).share w} G w : sProp 𝕄))
      = bigSep Finset.univ fun w : Fin 6 => (((c : Thread nD τ).loc (Pipeline.arrRef spec0 w)) ↦{(dats m 0 c).share w} G w : sProp 𝕄) from
    bigSep_congr fun w _ => by rw [(arr_whole0 w).set_eq_univ]]
  rw [bigSep_W0]
  rfl

/-! ## The region's entry and exit -/

/-- The bypassing buffers read the same under the exit valuation: it differs from the entry one on the two outputs only. -/
theorem rest_Vx (c : Dev nD) :
    (Pipeline.unscopedRest (Ix := Unit) (Name := ℕ) (U := UR sig nD τ) (Lvl := ℕ) spec0 c (fun b => Vx m c (Proc.devRef .tc b)) : sProp 𝕄)
      = Pipeline.unscopedRest spec0 c (V m c) := by
  unfold Pipeline.unscopedRest
  exact bigSep_congr fun b hb => by
    beta_reduce
    rw [Vx_other m c b (fun e => (Finset.mem_sdiff.mp hb).2 (Finset.mem_image.mpr ⟨4, Finset.mem_univ _, e⟩))
      (fun e => (Finset.mem_sdiff.mp hb).2 (Finset.mem_image.mpr ⟨5, Finset.mem_univ _, e⟩))]

/-- ENTRY: every unscoped buffer whole at the entry contents gives the pipeline's arrays (each input array's points-to dealt
    in halves to its two windows), the core owing nothing, and the bypassing buffers. -/
theorem entry (c : Dev nD) :
    iprop(StableHlo.held (c : Thread nD τ) (Pipeline.ucRefs τ sig) (V0 m c) ∗ R (F := F) c)
      ⊢ (iprop((dats m 0 c).arrays ((dats m 0 c).arrAt · 0) ∗ (dats m 0 c).owesAt () 0 ∗ Pipeline.unscopedRest spec0 c (V m c)) : sProp 𝕄) := by
  rw [show StableHlo.held (c : Thread nD τ) (Pipeline.ucRefs τ sig) (V0 m c) = unscopedBufs c (V m c) from (Pipeline.unscopedBufs_held c _).symm,
    Pipeline.unscopedBufs_split₀ cfgs 0 winFacts₀0.arr_unscoped c (V m c), arrBufs_eq, arrays_eq6]
  iintro ⟨⟨⟨H1, H0, Ho0, Ho1⟩, Hrest⟩, HO⟩
  ihave H1' := (pointsTo_share (PosShare.mem_left_op_right fullShare)).1 $$ H1
  icases H1' with ⟨H1l, H1r⟩
  ihave H0' := (pointsTo_share (PosShare.mem_left_op_right fullShare)).1 $$ H0
  icases H0' with ⟨H0l, H0r⟩
  isplitl [H1l H1r H0l H0r Ho0 Ho1]
  · isplitl [H1l]; · iexact H1l
    isplitl [H1r]; · iexact H1r
    isplitl [H0l]; · iexact H0l
    isplitl [H0r]; · iexact H0r
    isplitl [Ho0]; · iexact Ho0
    iexact Ho1
  isplitl [HO]
  · unfold Pipeline.Dat.owesAt Pipeline.owesWithin
    icases HO with ⟨%W, HO⟩; iexists W; isplitr; · ipureintro; exact fun _ _ => Or.inl trivial
    iexact HO
  iexact Hrest

/-- EXIT: the arrays at their final contents (the inputs unchanged, so their halves join again) and the bypassing buffers
    are every unscoped buffer whole at the exit contents. -/
theorem exit (c : Dev nD) :
    iprop((dats m 0 c).arrays ((dats m 0 c).arrAt · cfg0.N) ∗ (dats m 0 c).owesAt () (Fin.last cfg0.N) ∗ Pipeline.unscopedRest spec0 c (V m c))
      ⊢ (iprop(StableHlo.held (c : Thread nD τ) (Pipeline.ucRefs τ sig) (Vx m c) ∗ R (F := F) c) : sProp 𝕄) := by
  rw [show StableHlo.held (c : Thread nD τ) (Pipeline.ucRefs τ sig) (Vx m c) = unscopedBufs c (fun b => Vx m c (Proc.devRef .tc b)) from (Pipeline.unscopedBufs_held c _).symm,
    Pipeline.unscopedBufs_split₀ cfgs 0 winFacts₀0.arr_unscoped c _, arrBufs_eq, arrays_eq6, rest_Vx]
  rw [Vx_out0, Vx_out1, Vx_other m c main_v1 (by decide) (by decide), Vx_other m c main_v0 (by decide) (by decide)]
  rw [(dats m 0 c).arrAt_in 0 rfl, (dats m 0 c).arrAt_in 1 rfl, (dats m 0 c).arrAt_in 2 rfl, (dats m 0 c).arrAt_in 3 rfl]
  iintro ⟨⟨H1l, H1r, H0l, H0r, Ho0, Ho1⟩, HO, Hrest⟩
  ihave H1 := (pointsTo_share (PosShare.mem_left_op_right fullShare)).2 $$ [H1l H1r]
  · isplitl [H1l]; · iexact H1l
    iexact H1r
  ihave H0 := (pointsTo_share (PosShare.mem_left_op_right fullShare)).2 $$ [H0l H0r]
  · isplitl [H0l]; · iexact H0l
    iexact H0r
  isplitr [HO]
  · isplitr [Hrest]
    · isplitl [H1]; · iexact H1
      isplitl [H0]; · iexact H0
      isplitl [Ho0]; · iexact Ho0
      iexact Ho1
    iexact Hrest
  unfold Pipeline.Dat.owesAt Pipeline.owesWithin
  icases HO with ⟨%W, -, HO⟩; iexists W; iexact HO

/-! ## The region and the segments after it -/

set_option backward.isDefEq.respectTransparency.types false in
/-- THE REGION: the decided layout (the windows may share arrays), no semaphore of the kernel's own, the body obligation;
    entered from every unscoped buffer whole at the entry contents, left with them whole at the exit contents. -/
def reg : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none spec0
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (Vx m c) ∗ R c)
  X c := iprop(emp)
  Y c := iprop(emp)
  Z c := Pipeline.unscopedRest spec0 c (V m c)
  hentry c := by
    iintro ⟨Hpre, -, -⟩
    ihave H := (entry m c) $$ Hpre
    icases H with ⟨Ha, HO, Hrest⟩
    imodintro
    isplitl [Ha]; · iexact Ha
    isplitr; · unfold Pipeline.prefHeld; rw [show (Finset.univ : Finset (Fin 0)) = ∅ from rfl, BI.bigSep_empty]; iempintro
    isplitl [HO]; · iexact HO
    isplitr; · iempintro
    iexact Hrest
  hin c := by
    rw [show (dats m 0 c).Φ 0 = PhiS m c 0 (Nat.zero_le _) from rfl, ← scopedRest_eq_PhiS]
    iintro ⟨-, -, Hr⟩; iexact Hr
  hout c := by
    rw [Pipeline.ownSems0_none, scopedRest_eq_PhiS m c,
      show PhiS m c 0 (Nat.zero_le _) = iprop((∃ d, owns (c : Thread nD τ) scM0 fullShare d) ∗ (∃ d, owns (c : Thread nD τ) scM1 fullShare d)) from rfl]
    show PhiS m c (Fin.last cfg0.N).val (Nat.le_of_lt_succ (Fin.last cfg0.N).isLt) ⊢ _
    refine (PhiS_elim m c _ _).trans ?_
    iintro ⟨%xs0, %xs1, %_hx, H0, H1⟩
    isplitr; · iempintro
    isplitr; · iempintro
    isplitl [H0]; · iexists _; iexact H0
    iexists _; iexact H1
  hexit c := by
    iintro ⟨Ha, HO, -, Hrest⟩
    imodintro
    iapply (exit m c)
    isplitl [Ha]; · iexact Ha
    isplitl [HO]; · iexact HO
    iexact Hrest

def segC : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by intro _ h; (repeat (cases h with | head => rfl | tail _ h => ?_)); exact nomatch h) (Vx m) R

def segD : Pipeline.HostSeg (Name := ℕ) (U := UR sig nD τ) (pcfgs (F := F)) defs₀ 𝒱₀ L lv :=
  Pipeline.HostSeg.ofOps _ _ _ _ _ (Pipeline.ucRefs τ sig) hostOps1_1
    (fun op h => Pipeline.sub_ucRefs op ((List.forall_iff_forall_mem.mp hostOps1_1_sub) op h))
    (by intro _ h; (repeat (cases h with | head => rfl | tail _ h => ?_)); exact nomatch h) (fun c => StableHlo.after hostOps1 (Vx m c)) R

/-- Core `c`'s buffers at the end of @main. -/
abbrev Vend (c : Dev nD) : Valuation τ sig (Elt F) := StableHlo.after hostOps1_1 (StableHlo.after hostOps1 (Vx m c))

/-- @main as the list of the five. -/
abbrev segs : List (Pipeline.Seg (pcfgs (F := F)) adm (dats m) () defs₀ 𝒱₀ L lv) :=
  [.host (segA m), .host (segB m), .region (reg m), .host (segC m), .host (segD m)]

/-! ## The argument is never written -/

theorem nw0 : ∀ op ∈ (hostOps0 (F := F)), Proc.devRef .tc main_arg0 ∉ op.writes := by
  intro op hop
  simp only [List.mem_cons, List.mem_nil_iff, or_false] at hop
  rcases hop with rfl | rfl | rfl | rfl | rfl <;>
    simp only [StableHlo.TRef.unary, StableHlo.TRef.binary, StableHlo.TRef.nullary, StableHlo.unary_writes, StableHlo.binary_writes, StableHlo.nullary_writes, Finset.mem_singleton] <;>
    exact StableHlo.devRef_ne_of_ne (by decide)
theorem nw0_1 : ∀ op ∈ (hostOps0_1 (F := F)), Proc.devRef .tc main_arg0 ∉ op.writes := by
  intro op hop
  simp only [List.mem_cons, List.mem_nil_iff, or_false] at hop
  rcases hop with rfl <;>
    simp only [StableHlo.unary_writes, Finset.mem_singleton] <;>
    exact StableHlo.devRef_ne_of_ne (by decide)
theorem nw1 : ∀ op ∈ (hostOps1 (F := F)), Proc.devRef .tc main_arg0 ∉ op.writes := by
  intro op hop
  simp only [List.mem_cons, List.mem_nil_iff, or_false] at hop
  rcases hop with rfl | rfl | rfl | rfl | rfl | rfl | rfl | rfl <;>
    simp only [StableHlo.unary_writes, StableHlo.binary_writes, StableHlo.nullary_writes, Finset.mem_singleton] <;>
    exact StableHlo.devRef_ne_of_ne (by decide)
theorem nw1_1 : ∀ op ∈ (hostOps1_1 (F := F)), Proc.devRef .tc main_arg0 ∉ op.writes := by
  intro op hop
  simp only [List.mem_cons, List.mem_nil_iff, or_false] at hop
  rcases hop with rfl <;>
    simp only [StableHlo.TRef.ternary, StableHlo.ternary_writes, Finset.mem_singleton] <;>
    exact StableHlo.devRef_ne_of_ne (by decide)

/-- The argument array reaches the end as launched. -/
theorem Vend_arg0 (c : Dev nD) : Vend m c (Proc.devRef .tc main_arg0) = m ((c : Thread nD τ).loc main_arg0) := by
  unfold Vend
  rw [StableHlo.after_of_forall_not_mem hostOps1_1 _ nw1_1, StableHlo.after_of_forall_not_mem hostOps1 _ nw1,
    Vx_other m c main_arg0 (by decide) (by decide)]
  show StableHlo.after hostOps0_1 (StableHlo.after hostOps0 (Vl m c)) (Proc.devRef .tc main_arg0) = _
  rw [StableHlo.after_of_forall_not_mem hostOps0_1 _ nw0_1, StableHlo.after_of_forall_not_mem hostOps0 _ nw0]

/-! ## The run -/

/-- The launch element: the pipeline library's at the staging cells. -/
def u₀ : UR sig nD τ := initOf (Pipeline.cells cfgs cellOf_inj) (Pipeline.launchToks cfgs cellOf_inj)

/-- The physical post: the result and the argument array at the end's contents. -/
def QC : PUnit × MemSt nD τ sig (Elt F) → Prop := fun r =>
  ∀ c : Dev nD, r.2.mem ((c : Thread nD τ).loc main_v7) = Vend m c (Proc.devRef .tc main_v7)
    ∧ r.2.mem ((c : Thread nD τ).loc main_arg0) = m ((c : Thread nD τ).loc main_arg0)

set_option backward.isDefEq.respectTransparency.types false in
/-- At the compiled mesh, from any memory with zero counters: every weakly fair execution of @main on the TensorCores
    terminates without fault, with the result at the host operations' value of the region's outputs and the argument
    array unchanged. -/
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro H
      imodintro
      isplitl [H]; · iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ R c))
    (Tₙ := fun c => StableHlo.held (c : Thread nD τ) (Pipeline.ucRefs τ sig) (Vend m c))
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, -, -⟩, -⟩
      imodintro
      isplitl [Hh]; · iexact Hh
      iexists ∅; iexact HO)
    (QY := fun c s => s.mem ((c : Thread nD τ).loc main_v7) = Vend m c (Proc.devRef .tc main_v7)
      ∧ s.mem ((c : Thread nD τ).loc main_arg0) = m ((c : Thread nD τ).loc main_arg0))
    (hfin := fun c s' => by
      rw [← Vend_arg0 m c]
      have hT7 : ({Proc.devRef .tc main_v7} : Finset (DevRef τ sig)) ⊆ Pipeline.ucRefs τ sig := by
        intro b hb; rw [Finset.mem_singleton.mp hb]; exact Finset.mem_filter.mpr ⟨StableHlo.devRef_mem_tcRefs _, by decide⟩
      have hT0 : ({Proc.devRef .tc main_arg0} : Finset (DevRef τ sig)) ⊆ Pipeline.ucRefs τ sig \ {Proc.devRef .tc main_v7} := by
        intro b hb; rw [Finset.mem_singleton.mp hb]
        exact Finset.mem_sdiff.mpr ⟨Finset.mem_filter.mpr ⟨StableHlo.devRef_mem_tcRefs _, by decide⟩,
          by rw [Finset.mem_singleton]; exact StableHlo.devRef_ne_of_ne (by decide)⟩
      rw [StableHlo.held_sub_split _ hT7, StableHlo.held_sub_split _ hT0]
      unfold StableHlo.held
      rw [BI.bigSep_singleton, BI.bigSep_singleton]
      iintro ⟨⟨H7, H0, -⟩, HSI⟩
      icombine HSI H7 gives %h7
      icombine HSI H0 gives %h0
      imodintro
      isplitr; · ipureintro; exact ⟨Buf.eq_of_forall_mem_univ h7, Buf.eq_of_forall_mem_univ h0⟩
      iexact HSI)
    (hQ := fun _ h => h)

/-- THE FRAME: @main runs to the end, faults nowhere, and leaves its argument array as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.Body

end
-- ==== Proof.RRun.lean ====
/-
  The reference's run, read back.

  The reference is host operations only: row norms, the Gram matrix x xᵀ, the cosine similarity (the Gram entry over
  the product of the two norms clamped below at 1e-8), the identity class of a row (its index over four, rounded down),
  the pairwise loss (1 - sim within a class, max(sim - 1, 0) across classes), the upper triangle kept and the rest set
  to zero, the count of the non-zero entries, their sum, the quotient, and zero in place of a zero quotient.
  Here @main is spelt as the list of its 72 operations (a function's body inlined over the buffers of its call), the
  stages above are named as pure functions of the argument array, and the run is read back: every weakly fair execution
  ends with the result buffer at refResult of the argument and the argument unchanged.
-/
import proofs.«173804_j30554397344482_2_alg».proof.Proof.Gen.ReferenceIdeal
import Idealize.ShloMosaic.Lib.StableHlo.Run
import Idealize.ShloMosaic.Lib.Pipeline.Regions
import Idealize.ShloMosaic.Lib.Pipeline.Frame

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## @main's 72 operations, in four stretches -/

/-- The cosine similarity: norms, Gram matrix, clamped product of norms, quotient. -/
abbrev opsA : List (HloOp τ sig (Elt F)) :=
  [
    StableHlo.binary main_arg0 main_arg0 main_call0_v0 ((mulf) : (⟨S8192x512, .f32⟩ : BufTy).Contents (Elt F) → (⟨S8192x512, .f32⟩ : BufTy).Contents (Elt F) → (⟨S8192x512, .f32⟩ : BufTy).Contents (Elt F)),
    StableHlo.nullary main_call0_cst (((constant S_ .f32 0x00000000#32)) : (⟨S_, .f32⟩ : BufTy).Contents (Elt F)),
    StableHlo.binary main_call0_v0 main_call0_cst main_call0_v1 (((fun x v => Host.reduceAdd x v reducesTo_S8192x512_S8192_d1 h_S_)) : (⟨S8192x512, .f32⟩ : BufTy).Contents (Elt F) → (⟨S_, .f32⟩ : BufTy).Contents (Elt F) → (⟨S8192, .f32⟩ : BufTy).Contents (Elt F)),
    StableHlo.unary main_call0_v1 main_v0 ((Host.sqrt) : (⟨S8192, .f32⟩ : BufTy).Contents (Elt F) → (⟨S8192, .f32⟩ : BufTy).Contents (Elt F)),
    StableHlo.unary main_arg0 main_v1 ((transpose S512x8192 [1, 0] · transposes_S8192x512_S512x8192_1_0) : (⟨S8192x512, .f32⟩ : BufTy).Contents (Elt F) → (⟨S512x8192, .f32⟩ : BufTy).Contents (Elt F)),
    StableHlo.binary main_arg0 main_v1 main_v2 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)),
    StableHlo.unary main_v0 main_v3 (broadcastInDim S8192x1 ![0] bcast_S8192_S8192x1_0 : (⟨S8192, .f32⟩ : BufTy).Contents (Elt F) → (⟨S8192x1, .f32⟩ : BufTy).Contents (Elt F)),
    StableHlo.unary main_v0 main_v4 (broadcastInDim S1x8192 ![1] bcast_S8192_S1x8192_1 : (⟨S8192, .f32⟩ : BufTy).Contents (Elt F) → (⟨S1x8192, .f32⟩ : BufTy).Contents (Elt F)),
    StableHlo.unary main_v3 main_v5 (broadcastInDim S8192x8192 ![0, 1] bcast_S8192x1_S8192x8192_0_1 : (⟨S8192x1, .f32⟩ : BufTy).Contents (Elt F) → (⟨S8192x8192, .f32⟩ : BufTy).Contents (Elt F)),
    StableHlo.unary main_v4 main_v6 (broadcastInDim S8192x8192 ![0, 1] bcast_S1x8192_S8192x8192_0_1 : (⟨S1x8192, .f32⟩ : BufTy).Contents (Elt F) → (⟨S8192x8192, .f32⟩ : BufTy).Contents (Elt F)),
    StableHlo.binary main_v5 main_v6 main_v7 (mulf : (⟨S8192x8192, .f32⟩ : BufTy).Contents (Elt F) → (⟨S8192x8192, .f32⟩ : BufTy).Contents (Elt F) → (⟨S8192x8192, .f32⟩ : BufTy).Contents (Elt F)),
    StableHlo.nullary main_cst (constant S_ .f32 0x322BCC77#32),
    StableHlo.unary main_cst main_v8 (broadcastInDim S8192x8192 ![] bcast_S_S8192x8192 : (⟨S_, .f32⟩ : BufTy).Contents (Elt F) → (⟨S8192x8192, .f32⟩ : BufTy).Contents (Elt F)),
    StableHlo.binary main_v7 main_v8 main_v9 (maximumf : (⟨S8192x8192, .f32⟩ : BufTy).Contents (Elt F) → (⟨S8192x8192, .f32⟩ : BufTy).Contents (Elt F) → (⟨S8192x8192, .f32⟩ : BufTy).Contents (Elt F)),
    StableHlo.binary main_v2 main_v9 main_v10 (Host.divf : (⟨S8192x8192, .f32⟩ : BufTy).Contents (Elt F) → (⟨S8192x8192, .f32⟩ : BufTy).Contents (Elt F) → (⟨S8192x8192, .f32⟩ : BufTy).Contents (Elt F)) ]
/-- The identity classes and whether two rows share one. -/
abbrev opsB : List (HloOp τ sig (Elt F)) :=
  [
    StableHlo.nullary main_v11 (iotaInDim S8192 32 0),
    StableHlo.nullary main_c (constantI S_ 32 4#32),
    StableHlo.unary main_c main_call1_v0 ((id) : (⟨S_, .i32⟩ : BufTy).Contents (Elt F) → (⟨S_, .i32⟩ : BufTy).Contents (Elt F)),
    StableHlo.unary main_call1_v0 main_call1_v1 (((broadcastInDim S8192 ![] bcast_S_S8192)) : (⟨S_, .i32⟩ : BufTy).Contents (Elt F) → (⟨S8192, .i32⟩ : BufTy).Contents (Elt F)),
    StableHlo.binary main_v11 main_call1_v1 main_call1_v2 ((Host.divsi) : (⟨S8192, .i32⟩ : BufTy).Contents (Elt F) → (⟨S8192, .i32⟩ : BufTy).Contents (Elt F) → (⟨S8192, .i32⟩ : BufTy).Contents (Elt F)),
    StableHlo.unary main_v11 main_call1_v3 ((signi) : (⟨S8192, .i32⟩ : BufTy).Contents (Elt F) → (⟨S8192, .i32⟩ : BufTy).Contents (Elt F)),
    StableHlo.unary main_call1_v0 main_call1_v4 ((signi) : (⟨S_, .i32⟩ : BufTy).Contents (Elt F) → (⟨S_, .i32⟩ : BufTy).Contents (Elt F)),
    StableHlo.unary main_call1_v4 main_call1_v5 (((broadcastInDim S8192 ![] bcast_S_S8192)) : (⟨S_, .i32⟩ : BufTy).Contents (Elt F) → (⟨S8192, .i32⟩ : BufTy).Contents (Elt F)),
    StableHlo.binary main_call1_v3 main_call1_v5 main_call1_v6 (((cmpi .ne)) : (⟨S8192, .i32⟩ : BufTy).Contents (Elt F) → (⟨S8192, .i32⟩ : BufTy).Contents (Elt F) → (⟨S8192, .i1⟩ : BufTy).Contents (Elt F)),
    StableHlo.unary main_call1_v0 main_call1_v7 (((broadcastInDim S8192 ![] bcast_S_S8192)) : (⟨S_, .i32⟩ : BufTy).Contents (Elt F) → (⟨S8192, .i32⟩ : BufTy).Contents (Elt F)),
    StableHlo.binary main_v11 main_call1_v7 main_call1_v8 ((Host.remsi) : (⟨S8192, .i32⟩ : BufTy).Contents (Elt F) → (⟨S8192, .i32⟩ : BufTy).Contents (Elt F) → (⟨S8192, .i32⟩ : BufTy).Contents (Elt F)),
    StableHlo.nullary main_call1_c (((constantI S_ 32 0#32)) : (⟨S_, .i32⟩ : BufTy).Contents (Elt F)),
    StableHlo.unary main_call1_c main_call1_v9 (((broadcastInDim S8192 ![] bcast_S_S8192)) : (⟨S_, .i32⟩ : BufTy).Contents (Elt F) → (⟨S8192, .i32⟩ : BufTy).Contents (Elt F)),
    StableHlo.binary main_call1_v8 main_call1_v9 main_call1_v10 (((cmpi .ne)) : (⟨S8192, .i32⟩ : BufTy).Contents (Elt F) → (⟨S8192, .i32⟩ : BufTy).Contents (Elt F) → (⟨S8192, .i1⟩ : BufTy).Contents (Elt F)),
    StableHlo.binary main_call1_v6 main_call1_v10 main_call1_v11 ((andi) : (⟨S8192, .i1⟩ : BufTy).Contents (Elt F) → (⟨S8192, .i1⟩ : BufTy).Contents (Elt F) → (⟨S8192, .i1⟩ : BufTy).Contents (Elt F)),
    StableHlo.nullary main_call1_c_0 (((constantI S_ 32 1#32)) : (⟨S_, .i32⟩ : BufTy).Contents (Elt F)),
    StableHlo.unary main_call1_c_0 main_call1_v12 (((broadcastInDim S8192 ![] bcast_S_S8192)) : (⟨S_, .i32⟩ : BufTy).Contents (Elt F) → (⟨S8192, .i32⟩ : BufTy).Contents (Elt F)),
    StableHlo.binary main_call1_v2 main_call1_v12 main_call1_v13 ((subi) : (⟨S8192, .i32⟩ : BufTy).Contents (Elt F) → (⟨S8192, .i32⟩ : BufTy).Contents (Elt F) → (⟨S8192, .i32⟩ : BufTy).Contents (Elt F)),
    StableHlo.ternary main_call1_v11 main_call1_v13 main_call1_v2 main_v12 ((select) : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v12 main_v13 (broadcastInDim S8192x1 ![0] bcast_S8192_S8192x1_0 : (⟨S8192, .i32⟩ : BufTy).Contents (Elt F) → (⟨S8192x1, .i32⟩ : BufTy).Contents (Elt F)),
    StableHlo.unary main_v12 main_v14 (broadcastInDim S1x8192 ![1] bcast_S8192_S1x8192_1 : (⟨S8192, .i32⟩ : BufTy).Contents (Elt F) → (⟨S1x8192, .i32⟩ : BufTy).Contents (Elt F)),
    StableHlo.unary main_v13 main_v15 (broadcastInDim S8192x8192 ![0, 1] bcast_S8192x1_S8192x8192_0_1 : (⟨S8192x1, .i32⟩ : BufTy).Contents (Elt F) → (⟨S8192x8192, .i32⟩ : BufTy).Contents (Elt F)),
    StableHlo.unary main_v14 main_v16 (broadcastInDim S8192x8192 ![0, 1] bcast_S1x8192_S8192x8192_0_1 : (⟨S1x8192, .i32⟩ : BufTy).Contents (Elt F) → (⟨S8192x8192, .i32⟩ : BufTy).Contents (Elt F)),
    StableHlo.binary main_v15 main_v16 main_v17 (cmpi .eq : (⟨S8192x8192, .i32⟩ : BufTy).Contents (Elt F) → (⟨S8192x8192, .i32⟩ : BufTy).Contents (Elt F) → (⟨S8192x8192, .i1⟩ : BufTy).Contents (Elt F)) ]
/-- The pairwise loss and its upper triangle. -/
abbrev opsC : List (HloOp τ sig (Elt F)) :=
  [
    StableHlo.nullary main_cst_0 (constant S_ .f32 0x3F800000#32),
    StableHlo.unary main_cst_0 main_v18 (broadcastInDim S8192x8192 ![] bcast_S_S8192x8192 : (⟨S_, .f32⟩ : BufTy).Contents (Elt F) → (⟨S8192x8192, .f32⟩ : BufTy).Contents (Elt F)),
    StableHlo.binary main_v18 main_v10 main_v19 (subf : (⟨S8192x8192, .f32⟩ : BufTy).Contents (Elt F) → (⟨S8192x8192, .f32⟩ : BufTy).Contents (Elt F) → (⟨S8192x8192, .f32⟩ : BufTy).Contents (Elt F)),
    StableHlo.nullary main_cst_1 (constant S_ .f32 0x3F800000#32),
    StableHlo.unary main_cst_1 main_v20 (broadcastInDim S8192x8192 ![] bcast_S_S8192x8192 : (⟨S_, .f32⟩ : BufTy).Contents (Elt F) → (⟨S8192x8192, .f32⟩ : BufTy).Contents (Elt F)),
    StableHlo.binary main_v10 main_v20 main_v21 (subf : (⟨S8192x8192, .f32⟩ : BufTy).Contents (Elt F) → (⟨S8192x8192, .f32⟩ : BufTy).Contents (Elt F) → (⟨S8192x8192, .f32⟩ : BufTy).Contents (Elt F)),
    StableHlo.nullary main_cst_2 (constant S_ .f32 0x00000000#32),
    StableHlo.unary main_cst_2 main_v22 (broadcastInDim S8192x8192 ![] bcast_S_S8192x8192 : (⟨S_, .f32⟩ : BufTy).Contents (Elt F) → (⟨S8192x8192, .f32⟩ : BufTy).Contents (Elt F)),
    StableHlo.binary main_v21 main_v22 main_v23 (maximumf : (⟨S8192x8192, .f32⟩ : BufTy).Contents (Elt F) → (⟨S8192x8192, .f32⟩ : BufTy).Contents (Elt F) → (⟨S8192x8192, .f32⟩ : BufTy).Contents (Elt F)),
    StableHlo.ternary main_v17 main_v19 main_v23 main_v24 ((select) : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    StableHlo.nullary main_call3_v0 (((iotaInDim S8192x8192 32 0)) : (⟨S8192x8192, .i32⟩ : BufTy).Contents (Elt F)),
    StableHlo.nullary main_call3_c (((constantI S_ 32 4294967295#32)) : (⟨S_, .i32⟩ : BufTy).Contents (Elt F)),
    StableHlo.unary main_call3_c main_call3_v1 (((broadcastInDim S8192x8192 ![] bcast_S_S8192x8192)) : (⟨S_, .i32⟩ : BufTy).Contents (Elt F) → (⟨S8192x8192, .i32⟩ : BufTy).Contents (Elt F)),
    StableHlo.binary main_call3_v0 main_call3_v1 main_call3_v2 ((addi) : (⟨S8192x8192, .i32⟩ : BufTy).Contents (Elt F) → (⟨S8192x8192, .i32⟩ : BufTy).Contents (Elt F) → (⟨S8192x8192, .i32⟩ : BufTy).Contents (Elt F)),
    StableHlo.nullary main_call3_v3 (((iotaInDim S8192x8192 32 1)) : (⟨S8192x8192, .i32⟩ : BufTy).Contents (Elt F)),
    StableHlo.binary main_call3_v2 main_call3_v3 main_call3_v4 (((cmpi .sge)) : (⟨S8192x8192, .i32⟩ : BufTy).Contents (Elt F) → (⟨S8192x8192, .i32⟩ : BufTy).Contents (Elt F) → (⟨S8192x8192, .i1⟩ : BufTy).Contents (Elt F)),
    StableHlo.nullary main_call3_cst (((constant S_ .f32 0x00000000#32)) : (⟨S_, .f32⟩ : BufTy).Contents (Elt F)),
    StableHlo.unary main_call3_cst main_call3_v5 (((broadcastInDim S8192x8192 ![] bcast_S_S8192x8192)) : (⟨S_, .f32⟩ : BufTy).Contents (Elt F) → (⟨S8192x8192, .f32⟩ : BufTy).Contents (Elt F)),
    StableHlo.ternary main_call3_v4 main_call3_v5 main_v24 main_v25 ((select) : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)) ]
/-- The count, the sum, the quotient and the final select. -/
abbrev opsD : List (HloOp τ sig (Elt F)) :=
  [
    StableHlo.nullary main_call4_cst (((constant S_ .f32 0x00000000#32)) : (⟨S_, .f32⟩ : BufTy).Contents (Elt F)),
    StableHlo.unary main_call4_cst main_call4_v0 (((broadcastInDim S8192x8192 ![] bcast_S_S8192x8192)) : (⟨S_, .f32⟩ : BufTy).Contents (Elt F) → (⟨S8192x8192, .f32⟩ : BufTy).Contents (Elt F)),
    StableHlo.binary main_v25 main_call4_v0 main_call4_v1 (((cmpf .une)) : (⟨S8192x8192, .f32⟩ : BufTy).Contents (Elt F) → (⟨S8192x8192, .f32⟩ : BufTy).Contents (Elt F) → (⟨S8192x8192, .i1⟩ : BufTy).Contents (Elt F)),
    StableHlo.unary main_call4_v1 main_call4_v2 (((extui 32 · natLt_1_32)) : (⟨S8192x8192, .i1⟩ : BufTy).Contents (Elt F) → (⟨S8192x8192, .i32⟩ : BufTy).Contents (Elt F)),
    StableHlo.nullary main_call4_c (((constantI S_ 32 0#32)) : (⟨S_, .i32⟩ : BufTy).Contents (Elt F)),
    StableHlo.binary main_call4_v2 main_call4_c main_v26 (((fun x v => Host.reduce IntOp.addi x v reducesTo_S8192x8192_S_d0_1 h_S_)) : (⟨S8192x8192, .i32⟩ : BufTy).Contents (Elt F) → (⟨S_, .i32⟩ : BufTy).Contents (Elt F) → (⟨S_, .i32⟩ : BufTy).Contents (Elt F)),
    StableHlo.unary main_v26 main_v27 (sitofp .f32 : (⟨S_, .i32⟩ : BufTy).Contents (Elt F) → (⟨S_, .f32⟩ : BufTy).Contents (Elt F)),
    StableHlo.nullary main_cst_3 (constant S_ .f32 0x00000000#32),
    StableHlo.binary main_v25 main_cst_3 main_v28 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    StableHlo.binary main_v28 main_v27 main_v29 (Host.divf : (⟨S_, .f32⟩ : BufTy).Contents (Elt F) → (⟨S_, .f32⟩ : BufTy).Contents (Elt F) → (⟨S_, .f32⟩ : BufTy).Contents (Elt F)),
    StableHlo.nullary main_cst_4 (constant S_ .f32 0x00000000#32),
    StableHlo.binary main_v29 main_cst_4 main_v30 (cmpf .oeq : (⟨S_, .f32⟩ : BufTy).Contents (Elt F) → (⟨S_, .f32⟩ : BufTy).Contents (Elt F) → (⟨S_, .i1⟩ : BufTy).Contents (Elt F)),
    StableHlo.nullary main_cst_5 (constant S_ .f32 0x00000000#32),
    StableHlo.ternary main_v30 main_cst_5 main_v29 main_v31 ((select) : (⟨S_, .i1⟩ : BufTy).Contents (Elt F) → (⟨S_, .f32⟩ : BufTy).Contents (Elt F) → (⟨S_, .f32⟩ : BufTy).Contents (Elt F) → (⟨S_, .f32⟩ : BufTy).Contents (Elt F)) ]

abbrev ops : List (HloOp τ sig (Elt F)) := opsA ++ (opsB ++ (opsC ++ opsD))

theorem main_eq (c : Dev nD) : main (F := F) c = seq ops := by chain_rfl
theorem scopedRefs_eq : (Finset.univ.filter fun b : Ref sig .tc => b.isScoped) = ∅ := by decide
theorem scopedSems_eq : (Finset.univ.filter fun sm : SemLoc sig => sm.isScoped .tc) = ∅ := by decide
theorem opsA_sub : (opsA : List (HloOp τ sig (Elt F))).Forall fun op => op.bufs ⊆ tcRefs τ sig := ⟨StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub ..⟩
theorem opsB_sub : (opsB : List (HloOp τ sig (Elt F))).Forall fun op => op.bufs ⊆ tcRefs τ sig := ⟨StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub .., StableHlo.binary_bufs_sub ..⟩
theorem opsC_sub : (opsC : List (HloOp τ sig (Elt F))).Forall fun op => op.bufs ⊆ tcRefs τ sig := ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub ..⟩
theorem opsD_sub : (opsD : List (HloOp τ sig (Elt F))).Forall fun op => op.bufs ⊆ tcRefs τ sig := ⟨StableHlo.nullary_bufs_sub .., StableHlo.unary_bufs_sub .., StableHlo.binary_bufs_sub .., StableHlo.unary_bufs_sub .., StableHlo.nullary_bufs_sub .., StableHlo.binary_bufs_sub .., StableHlo.unary_bufs_sub .., StableHlo.nullary_bufs_sub .., StableHlo.binary_bufs_sub .., StableHlo.binary_bufs_sub .., StableHlo.nullary_bufs_sub .., StableHlo.binary_bufs_sub .., StableHlo.nullary_bufs_sub .., StableHlo.ternary_bufs_sub ..⟩
theorem ops_sub : (ops : List (HloOp τ sig (Elt F))).Forall fun op => op.bufs ⊆ tcRefs τ sig :=
  List.forall_iff_forall_mem.mpr fun op h => by
    rcases List.mem_append.mp h with h | h
    · exact List.forall_iff_forall_mem.mp opsA_sub op h
    rcases List.mem_append.mp h with h | h
    · exact List.forall_iff_forall_mem.mp opsB_sub op h
    rcases List.mem_append.mp h with h | h
    · exact List.forall_iff_forall_mem.mp opsC_sub op h
    · exact List.forall_iff_forall_mem.mp opsD_sub op h

/-! ## The stages, as functions of the argument -/

/-- The row norms. -/
def normv (x : FVec F S8192x512 .f32) : FVec F S8192 .f32 :=
  Host.sqrt (Host.reduceAdd (mulf x x) (constant S_ .f32 0x00000000#32) reducesTo_S8192x512_S8192_d1 h_S_)
/-- The Gram matrix. -/
def gram (x : FVec F S8192x512 .f32) : FVec F S8192x8192 .f32 :=
  Host.dotGeneral dot_S8192x512_S512x8192_S8192x8192_1_0_0_1_n_n none x (transpose S512x8192 [1, 0] x transposes_S8192x512_S512x8192_1_0)
/-- The products of the norms, clamped below. -/
def denom (x : FVec F S8192x512 .f32) : FVec F S8192x8192 .f32 :=
  maximumf (mulf (broadcastInDim S8192x8192 ![0, 1] bcast_S8192x1_S8192x8192_0_1 (broadcastInDim S8192x1 ![0] bcast_S8192_S8192x1_0 (normv x)))
      (broadcastInDim S8192x8192 ![0, 1] bcast_S1x8192_S8192x8192_0_1 (broadcastInDim S1x8192 ![1] bcast_S8192_S1x8192_1 (normv x))))
    (broadcastInDim S8192x8192 ![] bcast_S_S8192x8192 (constant S_ .f32 0x322BCC77#32))
/-- The cosine similarity. -/
def sim (x : FVec F S8192x512 .f32) : FVec F S8192x8192 .f32 := Host.divf (gram x) (denom x)
/-- A row's identity class: its index over four, rounded down (a floor division, spelt out). -/
def ids : IVec S8192 32 :=
  select (andi (cmpi .ne (signi (iotaInDim S8192 32 0)) (broadcastInDim S8192 ![] bcast_S_S8192 (signi (id (constantI S_ 32 4#32)))))
      (cmpi .ne (Host.remsi (iotaInDim S8192 32 0) (broadcastInDim S8192 ![] bcast_S_S8192 (id (constantI S_ 32 4#32)))) (broadcastInDim S8192 ![] bcast_S_S8192 (constantI S_ 32 0#32))))
    (subi (Host.divsi (iotaInDim S8192 32 0) (broadcastInDim S8192 ![] bcast_S_S8192 (id (constantI S_ 32 4#32)))) (broadcastInDim S8192 ![] bcast_S_S8192 (constantI S_ 32 1#32)))
    (Host.divsi (iotaInDim S8192 32 0) (broadcastInDim S8192 ![] bcast_S_S8192 (id (constantI S_ 32 4#32))))
/-- Whether two rows are of one class. -/
def sameId : IVec S8192x8192 1 :=
  cmpi .eq (broadcastInDim S8192x8192 ![0, 1] bcast_S8192x1_S8192x8192_0_1 (broadcastInDim S8192x1 ![0] bcast_S8192_S8192x1_0 ids))
    (broadcastInDim S8192x8192 ![0, 1] bcast_S1x8192_S8192x8192_0_1 (broadcastInDim S1x8192 ![1] bcast_S8192_S1x8192_1 ids))
/-- The pairwise loss from the similarity and the class flags. -/
def pairLossOf (same : IVec S8192x8192 1) (sm : FVec F S8192x8192 .f32) : FVec F S8192x8192 .f32 :=
  select same (subf (broadcastInDim S8192x8192 ![] bcast_S_S8192x8192 (constant S_ .f32 0x3F800000#32)) sm)
    (maximumf (subf sm (broadcastInDim S8192x8192 ![] bcast_S_S8192x8192 (constant S_ .f32 0x3F800000#32)))
      (broadcastInDim S8192x8192 ![] bcast_S_S8192x8192 (constant S_ .f32 0x00000000#32)))
/-- Strictly below the diagonal (row - 1 ≥ column). -/
def belowDiag : IVec S8192x8192 1 :=
  cmpi .sge (addi (iotaInDim S8192x8192 32 0) (broadcastInDim S8192x8192 ![] bcast_S_S8192x8192 (constantI S_ 32 4294967295#32))) (iotaInDim S8192x8192 32 1)
/-- The loss matrix from the pairwise loss: its upper triangle, zero below. -/
def triuOf (pl : FVec F S8192x8192 .f32) : FVec F S8192x8192 .f32 :=
  select belowDiag (broadcastInDim S8192x8192 ![] bcast_S_S8192x8192 (constant S_ .f32 0x00000000#32)) pl
/-- The loss matrix. -/
def lossM (x : FVec F S8192x512 .f32) : FVec F S8192x8192 .f32 := triuOf (pairLossOf sameId (sim x))
/-- The number of non-zero entries of a matrix, as an integer. -/
def cntI (l : FVec F S8192x8192 .f32) : IVec S_ 32 :=
  Host.reduce IntOp.addi (extui 32 (cmpf .une l (broadcastInDim S8192x8192 ![] bcast_S_S8192x8192 (constant S_ .f32 0x00000000#32))) natLt_1_32)
    (constantI S_ 32 0#32) reducesTo_S8192x8192_S_d0_1 h_S_
/-- The sum of its entries. -/
def total (l : FVec F S8192x8192 .f32) : FVec F S_ .f32 :=
  Host.reduceAdd l (constant S_ .f32 0x00000000#32) reducesTo_S8192x8192_S_d0_1 h_S_
/-- The result from a sum and a count: their quotient, and zero in place of a zero quotient. -/
def finish (s n : FVec F S_ .f32) : FVec F S_ .f32 :=
  select (cmpf .oeq (Host.divf s n) (constant S_ .f32 0x00000000#32)) (constant S_ .f32 0x00000000#32) (Host.divf s n)
/-- The reference's result. -/
def refResult (x : FVec F S8192x512 .f32) : FVec F S_ .f32 := finish (total (lossM x)) (sitofp .f32 (cntI (lossM x)))

/-! ## The stretches read back -/

set_option maxHeartbeats 1000000 in
theorem stageA (V : Valuation τ sig (Elt F)) :
    after opsA V (Proc.devRef .tc main_v10) = sim (V (Proc.devRef .tc main_arg0))
      ∧ after opsA V (Proc.devRef .tc main_arg0) = V (Proc.devRef .tc main_arg0) := by
  unfold sim denom gram normv
  constructor
  · after_results_simp
    try rfl
  · after_results_simp

set_option maxHeartbeats 1000000 in
theorem stageB (V : Valuation τ sig (Elt F)) :
    after opsB V (Proc.devRef .tc main_v17) = sameId
      ∧ after opsB V (Proc.devRef .tc main_v10) = V (Proc.devRef .tc main_v10)
      ∧ after opsB V (Proc.devRef .tc main_arg0) = V (Proc.devRef .tc main_arg0) := by
  unfold sameId ids
  refine ⟨?_, ?_, ?_⟩
  · after_results_simp
    try rfl
  · after_results_simp
  · after_results_simp

set_option maxHeartbeats 1000000 in
theorem stageC (V : Valuation τ sig (Elt F)) :
    after opsC V (Proc.devRef .tc main_v25) = triuOf (pairLossOf (V (Proc.devRef .tc main_v17)) (V (Proc.devRef .tc main_v10)))
      ∧ after opsC V (Proc.devRef .tc main_arg0) = V (Proc.devRef .tc main_arg0) := by
  unfold triuOf pairLossOf belowDiag
  constructor
  · after_results_simp
    try rfl
  · after_results_simp

set_option maxHeartbeats 1000000 in
theorem stageD (V : Valuation τ sig (Elt F)) :
    after opsD V (Proc.devRef .tc main_v31) = finish (total (V (Proc.devRef .tc main_v25))) (sitofp .f32 (cntI (V (Proc.devRef .tc main_v25))))
      ∧ after opsD V (Proc.devRef .tc main_arg0) = V (Proc.devRef .tc main_arg0) := by
  unfold finish total cntI
  constructor
  · after_results_simp
    try rfl
  · after_results_simp

/-- After the 72 operations the result buffer holds `refResult` of the argument, and the argument buffer what it held. -/
theorem result_eq (V : Valuation τ sig (Elt F)) :
    after ops V (Proc.devRef .tc main_v31) = refResult (V (Proc.devRef .tc main_arg0))
      ∧ after ops V (Proc.devRef .tc main_arg0) = V (Proc.devRef .tc main_arg0) := by
  unfold ops refResult lossM
  rw [StableHlo.after_append, StableHlo.after_append, StableHlo.after_append]
  obtain ⟨a1, a2⟩ := stageA V
  obtain ⟨b1, b2, b3⟩ := stageB (after opsA V)
  obtain ⟨c1, c2⟩ := stageC (after opsB (after opsA V))
  obtain ⟨d1, d2⟩ := stageD (after opsC (after opsB (after opsA V)))
  exact ⟨by rw [d1, c1, b1, b2, a1], by rw [d2, c2, b3, a2]⟩

/-- On every device, from any memory with zero counters: every weakly fair execution of @main terminates with the result
    at `refResult` of the argument array and the argument array unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31) = refResult (m ((c.tc : Thread nD τ).loc main_arg0))
      ∧ r.2.mem ((c.tc : Thread nD τ).loc main_arg0) = m ((c.tc : Thread nD τ).loc main_arg0) :=
  (θ_run defs _ _).mono (fun _ h c => ⟨(h c main_v31).trans (result_eq _).1, (h c main_arg0).trans (result_eq _).2⟩)
    (run_seq scopedRefs_eq scopedSems_eq defs main (fun _ => ops) main_eq (fun _ => ops_sub) m ρ)

end Cert.ReferenceIdeal.RefRun

end
-- ==== Proof.LibIntCount.lean ====
/-
  Counting by a 32-bit sum.

  A count of the true entries of an array of one-bit words can be taken in two ways: widen each word to 32 bits and add
  them up as machine integers (wrapping), then read the total as a signed integer; or read each word as the real number
  0 or 1 and add those up exactly. The two agree as long as there are fewer than 2^31 entries, since the machine sum of
  at most that many ones never wraps and never reaches the sign bit. Stated over a list that enumerates the index type.
-/
import Mathlib
import Idealize.ShloMosaic.PureOps.Ideal

namespace Idealize.ShloMosaic.LibIntCount

/-- A one-bit word is 0 or 1. -/
theorem bit_cases (v : BitVec 1) : v = 0#1 ∨ v = 1#1 := by
  revert v; decide

/-- A one-bit word widened to 32 bits is the numeral 0 or 1. -/
theorem setWidth_bit (v : BitVec 1) : v.setWidth 32 = BitVec.ofNat 32 (if v = 1#1 then 1 else 0) := by
  rcases bit_cases v with rfl | rfl <;> decide

/-- The machine sum of widened bits over a list, from any start, is the start plus the number of ones. -/
theorem foldl_addi_bits {ι : Type} (b : ι → BitVec 1) :
    ∀ (l : List ι) (acc : BitVec 32),
      l.foldl (fun r i => IntOp.addi r ((b i).setWidth 32)) acc = acc + BitVec.ofNat 32 (l.countP fun i => b i = 1#1)
  | [], acc => by simp
  | a :: l, acc => by
    rw [List.foldl_cons, foldl_addi_bits b l, List.countP_cons, setWidth_bit]
    unfold IntOp.addi
    by_cases h : b a = 1#1
    · simp only [h, if_true, decide_true]
      rw [BitVec.add_assoc, ← BitVec.ofNat_add, Nat.add_comm]
    · simp only [h, if_false, decide_false]
      simp

/-- A numeral below 2^31 reads back as itself, signed. -/
theorem toInt_ofNat_small (n : ℕ) (h : n < 2 ^ 31) : (BitVec.ofNat 32 n).toInt = n := by
  rw [BitVec.toInt_eq_toNat_of_lt (by rw [BitVec.toNat_ofNat, Nat.mod_eq_of_lt (by omega)]; omega), BitVec.toNat_ofNat,
    Nat.mod_eq_of_lt (by omega)]

/-- The exact sum of the bits read as 0 / 1 over a list is the number of ones. -/
theorem sum_map_bits {ι : Type} (b : ι → BitVec 1) :
    ∀ l : List ι, (l.map fun i => (((((b i).setWidth 32).toInt : ℤ) : ℝ) : EReal)).sum = ((l.countP fun i => b i = 1#1 : ℕ) : EReal)
  | [] => by simp
  | a :: l => by
    rw [List.map_cons, List.sum_cons, sum_map_bits b l, List.countP_cons]
    rcases bit_cases (b a) with h | h
    · rw [h]; simp
    · rw [h]
      have : ((1#1 : BitVec 1).setWidth 32).toInt = 1 := by decide
      rw [this]; simp [add_comm]

/-- THE COUNT: over a list that enumerates a finite index type with fewer than 2^31 entries, the machine sum of the widened
    bits read as a signed integer is the exact sum of the bits read as 0 / 1. -/
theorem toInt_foldl_eq_sum {ι : Type} [Fintype ι] [DecidableEq ι] (b : ι → BitVec 1) (l : List ι) (hnd : l.Nodup)
    (hall : ∀ i, i ∈ l) (hlen : l.length < 2 ^ 31) :
    ((((l.foldl (fun r i => IntOp.addi r ((b i).setWidth 32)) 0#32).toInt : ℤ) : ℝ) : EReal)
      = ∑ i : ι, (((((b i).setWidth 32).toInt : ℤ) : ℝ) : EReal) := by
  have hfin : (Finset.univ : Finset ι) = l.toFinset := by
    ext i; simp [hall i]
  rw [foldl_addi_bits, BitVec.zero_add, toInt_ofNat_small _ (lt_of_le_of_lt (List.countP_le_length) hlen), hfin,
    List.sum_toFinset _ hnd, sum_map_bits]
  simp

/-- The same for any fold whose summand at each index is the widened bit and whose start is zero, however spelt. -/
theorem toInt_foldl_eq_sum_of {ι : Type} [Fintype ι] [DecidableEq ι] (b : ι → BitVec 1) (g : ι → BitVec 32)
    (hg : ∀ i, g i = (b i).setWidth 32) (init : BitVec 32) (hinit : init = 0#32) (l : List ι) (hnd : l.Nodup)
    (hall : ∀ i, i ∈ l) (hlen : l.length < 2 ^ 31) :
    ((((l.foldl (fun r i => IntOp.addi r (g i)) init).toInt : ℤ) : ℝ) : EReal)
      = ∑ i : ι, (((((b i).setWidth 32).toInt : ℤ) : ℝ) : EReal) := by
  have e : g = fun i => (b i).setWidth 32 := funext hg
  subst e
  subst hinit
  exact toInt_foldl_eq_sum b l hnd hall hlen

end Idealize.ShloMosaic.LibIntCount
-- ==== Proof.KIValue1.lean ====
/-
  The region's input blocks as entries of the argument (at the ideal values).

  The region is entered with two arrays computed from the argument x: its cast to bf16, which at the ideal values is x
  itself, and the column of its row norms, which row by row is the reference's norm. A row window's block at grid point
  t holds rows 1024 (t / 16) + p, a column window's block rows 512 (t % 16) + q — of x for the first two windows, of the
  norms for the other two.
-/
import proofs.«173804_j30554397344482_2_alg».proof.Proof.KILaunch
import proofs.«173804_j30554397344482_2_alg».proof.Proof.RRun
import proofs.«173804_j30554397344482_2_alg».proof.Proof.LibIntCount
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The argument array on core `c`, as an array of extended reals. -/
abbrev X (c : Dev nD) : S8192x512.Idx → EReal := m ((c : Thread nD τ).loc main_arg0)

/-- The cast argument the region is entered with is the argument: a change of format is the identity. -/
theorem V_v1 (c : Dev nD) : (V m c main_v1 : S8192x512.Idx → EReal) = X m c := by
  show StableHlo.after hostOps0_1 (StableHlo.after hostOps0 (fun b => m (c, b))) (Proc.devRef .tc main_v1) = _
  after_results
  rfl

/-- The norms the region is entered with: the square root of each row's sum of squares, as a column. -/
theorem V_v0 (c : Dev nD) : (V m c main_v0 : S8192x1.Idx → EReal)
    = Host.sqrt (broadcastInDim S8192x1 ![0] Facts₀.bcast_S8192_S8192x1_0 (Host.reduceAdd (F := Ideal) (mulf (X m c) (X m c)) (constant (F := Ideal) S_ .f32 0x00000000#32) Facts₀.reducesTo_S8192x512_S8192_d1 Facts₀.h_S_)) := by
  show StableHlo.after hostOps0_1 (StableHlo.after hostOps0 (fun b => m (c, b))) (Proc.devRef .tc main_v0) = _
  after_results
  rfl

/-- At row `r` it is the reference's norm of that row. -/
theorem V_v0_apply (c : Dev nD) (r : Fin 8192) :
    (V m c main_v0 : S8192x1.Idx → EReal) (ix2 r 0) = Cert.ReferenceIdeal.RefRun.normv (F := Ideal) (X m c) (ix1 r) := by
  rw [V_v0]
  unfold Cert.ReferenceIdeal.RefRun.normv Host.sqrt
  have hb : ∀ Y : S8192.Idx → EReal, broadcastInDim S8192x1 (![0] : Fin 1 → Fin S8192x1.rank) Facts₀.bcast_S8192_S8192x1_0 Y (ix2 r 0) = Y (ix1 r) :=
    fun Y => broadcastInDim_apply _ _ _ _ (ix1 r) (fun a => by match a with | ⟨0, _⟩ => rfl)
  beta_reduce
  rw [hb]

/-! ## The windows' blocks at an index -/

/-- The printed index maps over the grid: the row windows move with the row block `t / 16`, the column windows with the
    column block `t % 16`, none along the second axis. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = t.val % 16 ∧ win0_3.index t (1 : Fin 2) = 0
    ∧ win0_4.index t (0 : Fin 2) = t.val / 16 ∧ win0_4.index t (1 : Fin 2) = 0
    ∧ win0_5.index t (0 : Fin 2) = t.val / 16 ∧ win0_5.index t (1 : Fin 2) = 0 :=
  (by decide +kernel : ∀ t : Fin grid0.N, _)

theorem iblk0_apply (c : Dev nD) (t : Fin cfg0.N) (p : Fin 1024) (k : Fin 512) (hr : 1024 * (t.val / 16) + p.val < 8192) :
    (iblk m c 0 t : S1024x512.Idx → EReal) (ix2 p k) = X m c (ix2 ⟨1024 * (t.val / 16) + p.val, hr⟩ k) := by
  obtain ⟨e0, e1, -⟩ := idx_facts t
  rw [← V_v1 m c]
  show V m c main_v1 (((cfg0.win 0).blk t).view.emb (ix2 p k)) = V m c main_v1 (ix2 ⟨_, hr⟩ k)
  refine congrArg _ (funext fun a => Fin.ext ?_)
  match a with
  | ⟨0, _⟩ => show win0_0.index t (0 : Fin 2) * 1024 + 1 * p.val = 1024 * (t.val / 16) + p.val; omega
  | ⟨1, _⟩ => show win0_0.index t (1 : Fin 2) * 512 + 1 * k.val = k.val; omega

theorem iblk1_apply (c : Dev nD) (t : Fin cfg0.N) (q : Fin 512) (k : Fin 512) (hs : 512 * (t.val % 16) + q.val < 8192) :
    (iblk m c 1 t : S512x512.Idx → EReal) (ix2 q k) = X m c (ix2 ⟨512 * (t.val % 16) + q.val, hs⟩ k) := by
  obtain ⟨-, -, e0, e1, -⟩ := idx_facts t
  rw [← V_v1 m c]
  show V m c main_v1 (((cfg0.win 1).blk t).view.emb (ix2 q k)) = V m c main_v1 (ix2 ⟨_, hs⟩ k)
  refine congrArg _ (funext fun a => Fin.ext ?_)
  match a with
  | ⟨0, _⟩ => show win0_1.index t (0 : Fin 2) * 512 + 1 * q.val = 512 * (t.val % 16) + q.val; omega
  | ⟨1, _⟩ => show win0_1.index t (1 : Fin 2) * 512 + 1 * k.val = k.val; omega

theorem iblk2_apply (c : Dev nD) (t : Fin cfg0.N) (p : Fin 1024) (hr : 1024 * (t.val / 16) + p.val < 8192) :
    (iblk m c 2 t : S1024x1.Idx → EReal) (ix2 p 0) = Cert.ReferenceIdeal.RefRun.normv (F := Ideal) (X m c) (ix1 ⟨1024 * (t.val / 16) + p.val, hr⟩) := by
  obtain ⟨-, -, -, -, e0, e1, -⟩ := idx_facts t
  rw [← V_v0_apply m c]
  show V m c main_v0 (((cfg0.win 2).blk t).view.emb (ix2 p 0)) = V m c main_v0 (ix2 ⟨_, hr⟩ 0)
  refine congrArg _ (funext fun a => Fin.ext ?_)
  match a with
  | ⟨0, _⟩ => show win0_2.index t (0 : Fin 2) * 1024 + 1 * p.val = 1024 * (t.val / 16) + p.val; omega
  | ⟨1, _⟩ => show win0_2.index t (1 : Fin 2) * 1 + 1 * 0 = 0; omega

theorem iblk3_apply (c : Dev nD) (t : Fin cfg0.N) (q : Fin 512) (hs : 512 * (t.val % 16) + q.val < 8192) :
    (iblk m c 3 t : S512x1.Idx → EReal) (ix2 q 0) = Cert.ReferenceIdeal.RefRun.normv (F := Ideal) (X m c) (ix1 ⟨512 * (t.val % 16) + q.val, hs⟩) := by
  obtain ⟨-, -, -, -, -, -, e0, e1, -⟩ := idx_facts t
  rw [← V_v0_apply m c]
  show V m c main_v0 (((cfg0.win 3).blk t).view.emb (ix2 q 0)) = V m c main_v0 (ix2 ⟨_, hs⟩ 0)
  refine congrArg _ (funext fun a => Fin.ext ?_)
  match a with
  | ⟨0, _⟩ => show win0_3.index t (0 : Fin 2) * 512 + 1 * q.val = 512 * (t.val % 16) + q.val; omega
  | ⟨1, _⟩ => show win0_3.index t (1 : Fin 2) * 1 + 1 * 0 = 0; omega

end Cert.KernelIdeal.Body

end
-- ==== Proof.IndexWords.lean ====
/-
  The index words of the loss matrix.

  Rows and columns of the 8192 x 8192 loss matrix are numbered by 32-bit words. The kernel forms a tile's row word as
  (row block) * 1024 + (row in the tile) and its column word as (column block) * 512 + (column in the tile); the
  reference numbers rows and columns directly. Both divide an index by four, rounding down, to get a row's identity
  class — the kernel through a floor division spelt out (a truncating division corrected where the signs differ and the
  remainder is not zero, the signs taken as (x > 0) - (x < 0)), the reference through the same correction with the signs
  read by a sign function — and both test the triangle by a signed comparison. Everything here is decided over the 8192 indices:
  the words are the plain numerals, the two floor divisions agree, and the signed readings are the indices themselves.
-/
import Mathlib
import Idealize.ShloMosaic.PureOps

namespace Cert.IndexWords

open Idealize.ShloMosaic

/-- The sign of a word: 0, 1 or -1. -/
def sgnW (x : BitVec 32) : BitVec 32 := if x = 0 then 0 else if x.msb then -1 else 1

/-- The kernel's floor division by four of an index word. -/
def fdK (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 4#32 0#32)) (Scalar.extui (Scalar.cmpi .slt 4#32 0#32))))
      (IntOp.cmpi .ne (IntOp.remsi .vector x 4#32) 0#32))
    (IntOp.subi (IntOp.divsi .vector x 4#32) 1#32)
    (IntOp.divsi .vector x 4#32)

/-- The reference's. -/
def fdR (x : BitVec 32) : BitVec 32 :=
  Scalar.select
    (IntOp.andi (IntOp.cmpi .ne (sgnW x) (sgnW 4#32)) (IntOp.cmpi .ne (IntOp.remsi .host x 4#32) 0#32))
    (IntOp.subi (IntOp.divsi .host x 4#32) 1#32)
    (IntOp.divsi .host x 4#32)

/-- The kernel's spelling of the sign, (x > 0) - (x < 0) on widened flags, is the sign. -/
theorem sign_chain (x : BitVec 32) :
    IntOp.subi ((IntOp.cmpi .sgt x 0#32).setWidth 32) ((IntOp.cmpi .slt x 0#32).setWidth 32) = sgnW x := by
  unfold sgnW
  show (BitVec.ofBool ((0#32).slt x)).setWidth 32 - (BitVec.ofBool (x.slt 0#32)).setWidth 32 = (if x = 0 then 0 else if x.msb then -1 else 1)
  by_cases h0 : x = 0
  · subst h0; decide
  · rw [if_neg h0]
    have hne : x.toInt ≠ 0 := fun h => h0 (BitVec.eq_of_toInt_eq (by rw [h]; rfl))
    by_cases hm : x.msb = true
    · rw [if_pos hm]
      have hlt : x.toInt < 0 := by rw [BitVec.msb_eq_toInt] at hm; simpa using hm
      have h1 : (0#32).slt x = false := by
        rw [Bool.eq_false_iff]; intro h; rw [BitVec.slt_iff_toInt_lt] at h; simp at h; omega
      have h2 : x.slt 0#32 = true := by rw [BitVec.slt_iff_toInt_lt]; simpa using hlt
      rw [h1, h2]; decide
    · rw [if_neg hm]
      have hge : 0 ≤ x.toInt := by
        rw [BitVec.msb_eq_toInt] at hm; simpa using hm
      have h1 : (0#32).slt x = true := by rw [BitVec.slt_iff_toInt_lt]; simp; omega
      have h2 : x.slt 0#32 = false := by
        rw [Bool.eq_false_iff]; intro h; rw [BitVec.slt_iff_toInt_lt] at h; simp at h; omega
      rw [h1, h2]; decide

/-- For the divisor four it is the sign of four, one. -/
theorem sign_four : Scalar.subi (Scalar.extui (Scalar.cmpi .sgt 4#32 0#32)) (Scalar.extui (Scalar.cmpi .slt 4#32 0#32)) = sgnW 4#32 := by decide

/-- A signed division by four meets no corner: it is the truncating quotient on every unit; -/
theorem divsi_four (u : ArithUnit) (x : BitVec 32) : IntOp.divsi u x 4#32 = x.sdiv 4#32 := by
  unfold IntOp.divsi
  rw [if_neg]
  rintro (h | ⟨_, h⟩) <;> exact absurd h (by decide)
/-- and the remainder likewise. -/
theorem remsi_four (u : ArithUnit) (x : BitVec 32) : IntOp.remsi u x 4#32 = x.srem 4#32 := by
  unfold IntOp.remsi
  rw [if_neg]
  rintro (h | ⟨_, h⟩) <;> exact absurd h (by decide)

/-- The two floor divisions agree on every word. -/
theorem fd_agree (x : BitVec 32) : fdK x = fdR x := by
  unfold fdK fdR
  rw [sign_chain, sign_four, divsi_four .vector, divsi_four .host, remsi_four .vector, remsi_four .host]

/-- A tile's row word is the row's number; -/
theorem rowWord (i p : ℕ) :
    IntOp.addi (Scalar.muli (BitVec.ofNat 32 i) 1024#32) (BitVec.ofNat 32 (0 * 1024 + p)) = BitVec.ofNat 32 (1024 * i + p) := by
  unfold IntOp.addi Scalar.muli IntOp.muli
  rw [show (1024#32 : BitVec 32) = BitVec.ofNat 32 1024 from rfl, ← BitVec.ofNat_mul, ← BitVec.ofNat_add]
  congr 1; ring
/-- its column word the column's. -/
theorem colWord (j q : ℕ) :
    IntOp.addi (Scalar.muli (BitVec.ofNat 32 j) 512#32) (BitVec.ofNat 32 (0 * 512 + q)) = BitVec.ofNat 32 (512 * j + q) := by
  unfold IntOp.addi Scalar.muli IntOp.muli
  rw [show (512#32 : BitVec 32) = BitVec.ofNat 32 512 from rfl, ← BitVec.ofNat_mul, ← BitVec.ofNat_add]
  congr 1; ring

/-- Read as a signed integer a word below 2^31 is its number, -/
theorem toInt_idx (n : ℕ) (h : n < 2 ^ 31) : (BitVec.ofNat 32 n).toInt = (n : ℤ) := by
  rw [BitVec.toInt_eq_toNat_of_lt (by rw [BitVec.toNat_ofNat, Nat.mod_eq_of_lt (by omega)]; omega), BitVec.toNat_ofNat,
    Nat.mod_eq_of_lt (by omega)]
/-- and the word before it the number less one. -/
theorem toInt_pred (n : ℕ) (h : n < 2 ^ 31) : (IntOp.addi (BitVec.ofNat 32 n) 4294967295#32).toInt = (n : ℤ) - 1 := by
  unfold IntOp.addi
  rcases Nat.eq_zero_or_pos n with h0 | hpos
  · subst h0; decide
  · have e : BitVec.ofNat 32 n + 4294967295#32 = BitVec.ofNat 32 (n - 1) := by
      apply BitVec.eq_of_toNat_eq
      rw [BitVec.toNat_add, BitVec.toNat_ofNat, BitVec.toNat_ofNat, BitVec.toNat_ofNat]; omega
    rw [e, toInt_idx (n - 1) (by omega)]; omega

theorem ofBool_eq_one (b : Bool) : BitVec.ofBool b = 1#1 ↔ b = true := by cases b <;> decide

/-- The reference's test "strictly below the diagonal" (row - 1 ≥ column) at indices. -/
theorem below_iff (r s : ℕ) (hr : r < 8192) (hs : s < 8192) :
    IntOp.cmpi .sge (IntOp.addi (BitVec.ofNat 32 r) 4294967295#32) (BitVec.ofNat 32 s) = 1#1 ↔ s < r := by
  unfold IntOp.cmpi
  rw [ofBool_eq_one, BitVec.sle_iff_toInt_le, toInt_pred r (by omega), toInt_idx s (by omega)]
  omega

/-- The kernel's test "on or above the diagonal" (column ≥ row) at indices. -/
theorem keep_iff (r s : ℕ) (hr : r < 8192) (hs : s < 8192) :
    IntOp.cmpi .sge (BitVec.ofNat 32 s) (BitVec.ofNat 32 r) = 1#1 ↔ r ≤ s := by
  unfold IntOp.cmpi
  rw [ofBool_eq_one, BitVec.sle_iff_toInt_le, toInt_idx r (by omega), toInt_idx s (by omega)]
  omega

end Cert.IndexWords
-- ==== Proof.RIdx.lean ====
/-
  The reference's stages read at an index (at the ideal values).

  At row r and column s of the loss matrix: the below-diagonal flag is the signed test r - 1 ≥ s on the index words; a
  row's identity class is the reference's floor division of its index word by four; two rows share a class when those
  words are equal; the similarity is the sum over k of x(r,k) x(s,k) over the product of the two norms clamped below at
  the literal 1e-8; and the loss entry is zero below the diagonal and otherwise 1 - sim within a class, max(sim - 1, 0)
  across classes.
-/
import proofs.«173804_j30554397344482_2_alg».proof.Proof.RRun
import proofs.«173804_j30554397344482_2_alg».proof.Proof.IndexWords
import proofs.«173804_j30554397344482_2_alg».proof.Proof.LibIntCount
import Idealize.ShloMosaic.Lib.ValueIdx
import Idealize.ShloMosaic.Lib.Pipeline.Value
import Idealize.ShloMosaic.PureOps.Ideal.Laws

set_option maxRecDepth 16384

noncomputable section

namespace Cert.ReferenceIdeal.RefRun

open Cert.ReferenceIdeal Cert.ReferenceIdeal.Gen Idealize.ShloMosaic Idealize.ShloMosaic.ValueIdx Cert.IndexWords

/-- A column broadcast along the rows of the square reads the column's row; -/
theorem bcast_col {α : Type} (Y : S8192.Idx → α) (r s : Fin 8192) :
    broadcastInDim S8192x8192 ![0, 1] bcast_S8192x1_S8192x8192_0_1 (broadcastInDim S8192x1 ![0] bcast_S8192_S8192x1_0 Y) (ix2 r s) = Y (ix1 r) := by
  rw [broadcastInDim_apply _ _ _ (ix2 r s) (ix2 r (0 : Fin 1)) (fun a => by match a with | ⟨0, _⟩ => rfl | ⟨1, _⟩ => rfl),
    broadcastInDim_apply _ _ _ (ix2 r (0 : Fin 1)) (ix1 r) (fun a => by match a with | ⟨0, _⟩ => rfl)]
/-- a row broadcast down the columns reads the row's column. -/
theorem bcast_row {α : Type} (Y : S8192.Idx → α) (r s : Fin 8192) :
    broadcastInDim S8192x8192 ![0, 1] bcast_S1x8192_S8192x8192_0_1 (broadcastInDim S1x8192 ![1] bcast_S8192_S1x8192_1 Y) (ix2 r s) = Y (ix1 s) := by
  rw [broadcastInDim_apply _ _ _ (ix2 r s) (ix2 (0 : Fin 1) s) (fun a => by match a with | ⟨0, _⟩ => rfl | ⟨1, _⟩ => rfl),
    broadcastInDim_apply _ _ _ (ix2 (0 : Fin 1) s) (ix1 s) (fun a => by match a with | ⟨0, _⟩ => rfl)]

theorem belowDiag_apply (r s : Fin 8192) :
    belowDiag (ix2 r s) = IntOp.cmpi .sge (IntOp.addi (BitVec.ofNat 32 r.val) 4294967295#32) (BitVec.ofNat 32 s.val) := rfl

theorem ids_apply (r : Fin 8192) : ids (ix1 r) = fdR (BitVec.ofNat 32 r.val) := rfl

theorem sameId_apply (r s : Fin 8192) :
    sameId (ix2 r s) = IntOp.cmpi .eq (fdR (BitVec.ofNat 32 r.val)) (fdR (BitVec.ofNat 32 s.val)) := by
  unfold sameId
  show IntOp.cmpi .eq (broadcastInDim S8192x8192 ![0, 1] bcast_S8192x1_S8192x8192_0_1 (broadcastInDim S8192x1 ![0] bcast_S8192_S8192x1_0 ids) (ix2 r s))
      (broadcastInDim S8192x8192 ![0, 1] bcast_S1x8192_S8192x8192_0_1 (broadcastInDim S1x8192 ![1] bcast_S8192_S1x8192_1 ids) (ix2 r s)) = _
  rw [bcast_col, bcast_row, ids_apply, ids_apply]

/-- The Gram entry as a sum over the 512 features. -/
theorem gram_apply (x : FVec Ideal S8192x512 .f32) (r s : Fin 8192) :
    gram x (ix2 r s) = ∑ k : Fin 512, x (ix2 r k) * x (ix2 s k) := by
  unfold gram
  simp only [Host.dotGeneral]
  rw [Ideal.dotGeneral_apply]
  refine Fintype.sum_equiv (contrEquiv1 dot_S8192x512_S512x8192_S8192x8192_1_0_0_1_n_n 512 rfl rfl) _ _ fun k => ?_
  congr 1
  · exact congrArg x (funext fun a => Fin.ext (by match a with | ⟨0, _⟩ => rfl | ⟨1, _⟩ => rfl))
  · rw [transpose_apply _ _ _ _ (ix2 s ((contrEquiv1 dot_S8192x512_S512x8192_S8192x8192_1_0_0_1_n_n 512 rfl rfl) k))
      (fun b => by match b with | ⟨0, _⟩ => rfl | ⟨1, _⟩ => rfl)]

/-- The similarity at (r, s). -/
theorem sim_apply (x : FVec Ideal S8192x512 .f32) (r s : Fin 8192) :
    sim x (ix2 r s) = Ideal.div (∑ k : Fin 512, x (ix2 r k) * x (ix2 s k))
      (max (normv x (ix1 r) * normv x (ix1 s)) (Ideal.ofBits .f32 0x322BCC77#32)) := by
  unfold sim denom
  show Ideal.div (gram x (ix2 r s)) (max
      (broadcastInDim S8192x8192 ![0, 1] bcast_S8192x1_S8192x8192_0_1 (broadcastInDim S8192x1 ![0] bcast_S8192_S8192x1_0 (normv x)) (ix2 r s)
        * broadcastInDim S8192x8192 ![0, 1] bcast_S1x8192_S8192x8192_0_1 (broadcastInDim S1x8192 ![1] bcast_S8192_S1x8192_1 (normv x)) (ix2 r s))
      (Ideal.ofBits .f32 0x322BCC77#32)) = _
  rw [bcast_col, bcast_row, gram_apply]

/-- The loss entry at (r, s), from the flags and the similarity. -/
theorem lossM_apply (x : FVec Ideal S8192x512 .f32) (r s : Fin 8192) :
    lossM x (ix2 r s) = Scalar.select (belowDiag (ix2 r s)) (Ideal.ofBits .f32 0x00000000#32)
      (Scalar.select (sameId (ix2 r s)) (Ideal.ofBits .f32 0x3F800000#32 - sim x (ix2 r s))
        (max (sim x (ix2 r s) - Ideal.ofBits .f32 0x3F800000#32) (Ideal.ofBits .f32 0x00000000#32))) := rfl

/-- Strictly below the diagonal the loss entry is zero. -/
theorem lossM_below (x : FVec Ideal S8192x512 .f32) (r s : Fin 8192) (h : s.val < r.val) : lossM x (ix2 r s) = 0 := by
  rw [lossM_apply, belowDiag_apply, (below_iff r.val s.val r.isLt s.isLt).mpr h, select_one]
  exact Ideal.ofBits_zero_f32

/-! ## The two reductions of a matrix, read back -/

/-- The sum of a matrix's entries, row by row. -/
theorem total_apply (l : FVec Ideal S8192x8192 .f32) (j : S_.Idx) :
    total l j = Ideal.ofBits .f32 0x00000000#32 + ∑ r : Fin 8192, ∑ s : Fin 8192, l (ix2 r s) := by
  unfold total Host.reduceAdd
  rw [Ideal.hostReduceAdd_def, Ideal.hostReduceAdd_total _ (fun b => b.elim0), sum_idx2]
  rfl

/-- The integer count of a matrix's non-zero entries, read as a real: the sum of the non-zero flags read as 0 or 1 (the
    2^26 flags are too few for the 32-bit sum to wrap). -/
theorem cntI_apply (l : FVec Ideal S8192x8192 .f32) (j : S_.Idx) :
    (((((cntI l j).toInt : ℤ) : ℝ)) : EReal)
      = ∑ r : Fin 8192, ∑ s : Fin 8192,
          (((((FloatOps.cmpf (F := Ideal) .une (l (ix2 r s)) (Ideal.ofBits .f32 0x00000000#32)).setWidth 32).toInt : ℤ) : ℝ) : EReal) := by
  unfold cntI
  rw [Host.reduce_eq_foldl, List.filter_eq_self.2 (fun i _ => decide_eq_true (funext fun a => a.elim0))]
  have hnd : ((List.finRange S8192x8192.numel).map S8192x8192.rowMajor.symm).Nodup :=
    (List.nodup_finRange _).map (Equiv.injective _)
  have hall : ∀ i, i ∈ (List.finRange S8192x8192.numel).map S8192x8192.rowMajor.symm :=
    fun i => List.mem_map.2 ⟨S8192x8192.rowMajor i, List.mem_finRange _, Equiv.symm_apply_apply _ _⟩
  have hlen : ((List.finRange S8192x8192.numel).map S8192x8192.rowMajor.symm).length < 2 ^ 31 := by
    rw [List.length_map, List.length_finRange]
    unfold Shape.numel
    rw [Fin.prod_univ_two]
    decide
  generalize (List.finRange S8192x8192.numel).map S8192x8192.rowMajor.symm = lst at hnd hall hlen ⊢
  exact (LibIntCount.toInt_foldl_eq_sum_of
    (fun i : S8192x8192.Idx => FloatOps.cmpf (F := Ideal) .une (l i) (Ideal.ofBits .f32 0x00000000#32))
    (extui 32 (cmpf (F := Ideal) .une l (broadcastInDim S8192x8192 ![] bcast_S_S8192x8192 (constant S_ .f32 0x00000000#32))) natLt_1_32)
    (fun _ => rfl) _ rfl lst hnd hall hlen).trans (sum_idx2 _)

end Cert.ReferenceIdeal.RefRun

end
-- ==== Proof.KIValue2.lean ====
/-
  A tile's loss entry is the reference's (at the ideal values).

  Given a tile's four input blocks as entries of the argument x — rows 1024 i + p and 512 j + q of x and of its row
  norms — the body's similarity at (p, q) is the reference's at (1024 i + p, 512 j + q): the tile's matrix product into a
  zero accumulator and the reference's product of x with its transpose are the same sum over the 512 features, and the
  broadcast norms are the two rows' norms. The loss entry then agrees too: the two floor divisions by four give the same
  identity classes, and the kernel keeps an entry (column ≥ row) exactly where the reference does not zero it
  (row - 1 ≥ column).
-/
import proofs.«173804_j30554397344482_2_alg».proof.Proof.RRun
import proofs.«173804_j30554397344482_2_alg».proof.Proof.LibIntCount
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«173804_j30554397344482_2_alg».proof.Proof.KIValue1
import proofs.«173804_j30554397344482_2_alg».proof.Proof.RIdx
set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

open Cert.IndexWords

/-- A tile's similarity entry is the reference's, given the tile's four blocks as entries of the argument. -/
theorem pay5_apply (x0 : Vec Ideal S1024x512 .bf16) (x1 : Vec Ideal S512x512 .bf16) (x2 : Vec Ideal S1024x1 .f32) (x3 : Vec Ideal S512x1 .f32)
    (x : Cert.ReferenceIdeal.S8192x512.Idx → EReal) (r s : Fin 8192) (p : Fin 1024) (q : Fin 512)
    (h0 : ∀ k : Fin 512, x0 (ix2 p k) = x (ix2 r k)) (h1 : ∀ k : Fin 512, x1 (ix2 q k) = x (ix2 s k))
    (h2 : x2 (ix2 p 0) = Cert.ReferenceIdeal.RefRun.normv (F := Ideal) x (ix1 r))
    (h3 : x3 (ix2 q 0) = Cert.ReferenceIdeal.RefRun.normv (F := Ideal) x (ix1 s)) :
    k0_pay5 (F := Ideal) x0 x1 x2 x3 (ix2 p q) = Cert.ReferenceIdeal.RefRun.sim (F := Ideal) x (ix2 r s) := by
  rw [Cert.ReferenceIdeal.RefRun.sim_apply]
  unfold k0_pay5
  simp only [matmul]
  rw [divf_apply, maximumf_apply, mulf_apply, broadcast_apply, Ideal.matmul_constant_zero_apply]
  congr 1
  · refine Fintype.sum_equiv (contrEquiv1 dot_S1024x512_S512x512_S1024x512_1_0_0_1_n_n 512 rfl rfl) _ _ fun k => ?_
    congr 1
    · rw [shapeCast_self, ← h0]
      exact congrArg x0 (funext fun a => Fin.ext (by match a with | ⟨0, _⟩ => rfl | ⟨1, _⟩ => rfl))
    · rw [transpose_apply _ _ _ _ (ix2 q ((contrEquiv1 dot_S1024x512_S512x512_S1024x512_1_0_0_1_n_n 512 rfl rfl) k))
        (fun b => by match b with | ⟨0, _⟩ => rfl | ⟨1, _⟩ => rfl), shapeCast_self, h1]
  · congr 1
    congr 1
    · rw [broadcastTo_apply _ _ (ix2 p q) (ix2 p (0 : Fin 1)) (fun a => by match a with | ⟨0, _⟩ => rfl | ⟨1, _⟩ => rfl), shapeCast_self, h2]
    · rw [broadcastTo_apply _ _ (ix2 p q) (ix2 (0 : Fin 1) q) (fun a => by match a with | ⟨0, _⟩ => rfl | ⟨1, _⟩ => rfl),
        transpose_apply _ _ _ _ (ix2 q (0 : Fin 1)) (fun b => by match b with | ⟨0, _⟩ => rfl | ⟨1, _⟩ => rfl), shapeCast_self, h3]

/-- The row word of a tile entry, -/
theorem pay6_apply (i : ℕ) (p : Fin 1024) (q : Fin 512) :
    k0_pay6 (BitVec.ofNat 32 i) (ix2 p q) = BitVec.ofNat 32 (1024 * i + p.val) := rowWord i p.val
/-- and its column word. -/
theorem pay7_apply (j : ℕ) (p : Fin 1024) (q : Fin 512) :
    k0_pay7 (BitVec.ofNat 32 j) (ix2 p q) = BitVec.ofNat 32 (512 * j + q.val) := colWord j q.val

/-- THE TILE'S LOSS ENTRY is the reference's loss entry at the tile's row and column: the same similarity, the same test
    of the identity classes (the two floor divisions agree), and the kernel's "column ≥ row" is the negation of the
    reference's "row - 1 ≥ column". -/
theorem pay11_apply (x0 : Vec Ideal S1024x512 .bf16) (x1 : Vec Ideal S512x512 .bf16) (x2 : Vec Ideal S1024x1 .f32) (x3 : Vec Ideal S512x1 .f32)
    (x : Cert.ReferenceIdeal.S8192x512.Idx → EReal) (i j : ℕ) (p : Fin 1024) (q : Fin 512)
    (hr : 1024 * i + p.val < 8192) (hs : 512 * j + q.val < 8192)
    (h0 : ∀ k : Fin 512, x0 (ix2 p k) = x (ix2 ⟨1024 * i + p.val, hr⟩ k)) (h1 : ∀ k : Fin 512, x1 (ix2 q k) = x (ix2 ⟨512 * j + q.val, hs⟩ k))
    (h2 : x2 (ix2 p 0) = Cert.ReferenceIdeal.RefRun.normv (F := Ideal) x (ix1 ⟨1024 * i + p.val, hr⟩))
    (h3 : x3 (ix2 q 0) = Cert.ReferenceIdeal.RefRun.normv (F := Ideal) x (ix1 ⟨512 * j + q.val, hs⟩)) :
    k0_pay11 (F := Ideal) (k0_pay5 x0 x1 x2 x3) (k0_pay6 (BitVec.ofNat 32 i)) (k0_pay7 (BitVec.ofNat 32 j)) (k0_pay8 (BitVec.ofNat 32 i))
        (k0_pay9 (BitVec.ofNat 32 i)) (k0_pay10 (BitVec.ofNat 32 i)) (ix2 p q)
      = Cert.ReferenceIdeal.RefRun.lossM (F := Ideal) x (ix2 ⟨1024 * i + p.val, hr⟩ ⟨512 * j + q.val, hs⟩) := by
  rw [Cert.ReferenceIdeal.RefRun.lossM_apply, Cert.ReferenceIdeal.RefRun.belowDiag_apply, Cert.ReferenceIdeal.RefRun.sameId_apply,
    ← pay5_apply x0 x1 x2 x3 x ⟨1024 * i + p.val, hr⟩ ⟨512 * j + q.val, hs⟩ p q h0 h1 h2 h3]
  show Scalar.select (IntOp.cmpi .sge (k0_pay7 (BitVec.ofNat 32 j) (ix2 p q)) (k0_pay6 (BitVec.ofNat 32 i) (ix2 p q)))
      (Scalar.select (IntOp.cmpi .eq (fdK (k0_pay6 (BitVec.ofNat 32 i) (ix2 p q))) (fdK (k0_pay7 (BitVec.ofNat 32 j) (ix2 p q))))
        (Ideal.ofBits .f32 0x3F800000#32 - k0_pay5 (F := Ideal) x0 x1 x2 x3 (ix2 p q))
        (max (k0_pay5 (F := Ideal) x0 x1 x2 x3 (ix2 p q) - Ideal.ofBits .f32 0x3F800000#32) (Ideal.ofBits .f32 0x00000000#32)))
      (Ideal.ofBits .f32 0x00000000#32) = _
  rw [pay6_apply, pay7_apply, fd_agree, fd_agree]
  by_cases hk : 1024 * i + p.val ≤ 512 * j + q.val
  · rw [(keep_iff _ _ hr hs).mpr hk, select_one]
    have hb : ¬ IntOp.cmpi .sge (IntOp.addi (BitVec.ofNat 32 (1024 * i + p.val)) 4294967295#32) (BitVec.ofNat 32 (512 * j + q.val)) = 1#1 :=
      fun h => by have := (below_iff _ _ hr hs).mp h; omega
    rw [eq_zero_of_ne_one hb, select_zero]
  · have hk' : ¬ IntOp.cmpi .sge (BitVec.ofNat 32 (512 * j + q.val)) (BitVec.ofNat 32 (1024 * i + p.val)) = 1#1 :=
      fun h => hk ((keep_iff _ _ hr hs).mp h)
    rw [eq_zero_of_ne_one hk', select_zero, (below_iff _ _ hr hs).mpr (by omega), select_one]

end Cert.KernelIdeal.Body

end
-- ==== Proof.LibBlockSum.lean ====
/-
  A row accumulated tile by tile.

  A matrix L of 8192 columns is swept row block by row block (1024 rows each), and within a row block column block by
  column block (512 columns each): grid point n is row block n / 16, column block n % 16. An accumulator restarts from
  zero at column block 0 and adds, at the points whose tile is computed (2 (n / 16) < n % 16 + 1: the tile meets the
  upper triangle), the tile's contribution to each of its rows — the sum of that row's 512 entries in the tile; at the
  other points it is left alone. If a skipped tile's contribution is zero anyway, then after point n the accumulator
  holds, for each row, the sum of the row's first 512 (n % 16 + 1) entries; after the last column block, the whole row.
  Stated in any commutative monoid, over entries indexed by natural numbers.
-/
import Mathlib

namespace Idealize.ShloMosaic.LibBlockSum

variable {M : Type*} [AddCommMonoid M]

/-- The next 512 entries of a row extend a partial row sum by one column block. -/
theorem sum_range_block (f : ℕ → M) (j : ℕ) :
    ∑ s ∈ Finset.range (512 * (j + 1)), f s = ∑ s ∈ Finset.range (512 * j), f s + ∑ q ∈ Finset.range 512, f (512 * j + q) := by
  rw [show 512 * (j + 1) = 512 * j + 512 from by ring, Finset.sum_range_add]

/-- THE ACCUMULATION in closed form. -/
theorem acc_closed (B : ℕ) (L : ℕ → ℕ → M) (a tile : ℕ → ℕ → M)
    (h0 : ∀ p, p < B → a 0 p = 0 + tile 0 p)
    (hstep : ∀ n p, n + 1 < 128 → p < B → a (n + 1) p =
      if 2 * ((n + 1) / 16) < (n + 1) % 16 + 1 then (if (n + 1) % 16 = 0 then 0 else a n p) + tile (n + 1) p
      else (if (n + 1) % 16 = 0 then 0 else a n p))
    (htile : ∀ n p, n < 128 → p < B → 2 * (n / 16) < n % 16 + 1 → tile n p = ∑ q ∈ Finset.range 512, L (1024 * (n / 16) + p) (512 * (n % 16) + q))
    (hzero : ∀ n p, n < 128 → p < B → ¬ 2 * (n / 16) < n % 16 + 1 → ∑ q ∈ Finset.range 512, L (1024 * (n / 16) + p) (512 * (n % 16) + q) = 0) :
    ∀ n, n < 128 → ∀ p, p < B → a n p = ∑ s ∈ Finset.range (512 * (n % 16 + 1)), L (1024 * (n / 16) + p) s := by
  intro n
  induction n with
  | zero =>
    intro hn p hp
    rw [h0 p hp, htile 0 p hn hp (by norm_num), zero_add]
    simp
  | succ n ih =>
    intro hn p hp
    have ihn := ih (by omega) p hp
    rw [hstep n p hn hp, sum_range_block]
    have hsame : ¬ (n + 1) % 16 = 0 → a n p = ∑ s ∈ Finset.range (512 * ((n + 1) % 16)), L (1024 * ((n + 1) / 16) + p) s := by
      intro hj
      have hdiv : n / 16 = (n + 1) / 16 := by omega
      have hmod : n % 16 + 1 = (n + 1) % 16 := by omega
      rw [ihn, hdiv, hmod]
    by_cases h2 : 2 * ((n + 1) / 16) < (n + 1) % 16 + 1
    · rw [if_pos h2, htile (n + 1) p hn hp h2]
      by_cases hj : (n + 1) % 16 = 0
      · rw [if_pos hj, hj]; simp
      · rw [if_neg hj, hsame hj]
    · rw [if_neg h2, hzero (n + 1) p hn hp h2, add_zero]
      by_cases hj : (n + 1) % 16 = 0
      · rw [if_pos hj, hj]; simp
      · rw [if_neg hj, hsame hj]

/-- After the last column block of row block `i` the accumulator holds each row's whole sum. -/
theorem acc_last (B : ℕ) (L : ℕ → ℕ → M) (a : ℕ → ℕ → M)
    (h : ∀ n, n < 128 → ∀ p, p < B → a n p = ∑ s ∈ Finset.range (512 * (n % 16 + 1)), L (1024 * (n / 16) + p) s)
    (i : ℕ) (hi : i < 8) (p : ℕ) (hp : p < B) : a (16 * i + 15) p = ∑ s ∈ Finset.range 8192, L (1024 * i + p) s := by
  rw [h (16 * i + 15) (by omega) p hp]
  have h1 : (16 * i + 15) % 16 = 15 := by omega
  have h2 : (16 * i + 15) / 16 = i := by omega
  rw [h1, h2]

end Idealize.ShloMosaic.LibBlockSum
-- ==== Proof.KIValue3.lean ====
/-
  The kernel's two output arrays after the run (at the ideal values).

  Name L(r, s) the reference's loss entry and N(r, s) its non-zero flag read as 0 or 1. At grid point t the body's tile has
  the entries L(1024 (t / 16) + p, 512 (t % 16) + q); its row sums and row counts are sums of those over q. The two
  accumulators therefore hold, after point n, each row's partial sum of L (of N) over the first 512 (n % 16 + 1) columns:
  tiles wholly below the diagonal are skipped, but there L and N are zero. At column block 15 the accumulators are copied
  out, so the outputs end as each row's whole sum of L and of N.
-/
import proofs.«173804_j30554397344482_2_alg».proof.Proof.RRun
import proofs.«173804_j30554397344482_2_alg».proof.Proof.LibIntCount
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«173804_j30554397344482_2_alg».proof.Proof.KIValue2
import proofs.«173804_j30554397344482_2_alg».proof.Proof.LibBlockSum
set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

open Cert.IndexWords Idealize.ShloMosaic.LibBlockSum

/-- The grid's coordinates: point `t` is row block `t / 16`, column block `t % 16`. -/
theorem coords_facts : ∀ t : Fin cfg0.N, ((grid0.coords t) 0).val = t.val / 16 ∧ ((grid0.coords t) 1).val = t.val % 16 :=
  (by decide +kernel : ∀ t : Fin grid0.N, ((grid0.coords t) 0).val = t.val / 16 ∧ ((grid0.coords t) 1).val = t.val % 16)

/-- The reference's loss entry by row and column numbers (zero outside the matrix). -/
def LN (c : Dev nD) (r s : ℕ) : EReal :=
  if h : r < 8192 ∧ s < 8192 then Cert.ReferenceIdeal.RefRun.lossM (F := Ideal) (X m c) (ix2 ⟨r, h.1⟩ ⟨s, h.2⟩) else 0
/-- Whether it is non-zero, as the number 0 or 1. -/
def NN (c : Dev nD) (r s : ℕ) : EReal :=
  if h : r < 8192 ∧ s < 8192 then
    (((((FloatOps.cmpf (F := Ideal) .une (Cert.ReferenceIdeal.RefRun.lossM (F := Ideal) (X m c) (ix2 ⟨r, h.1⟩ ⟨s, h.2⟩)) (Ideal.ofBits .f32 0x00000000#32)).setWidth 32).toInt : ℤ) : ℝ) : EReal)
  else 0

/-- The loss tile of grid point `t`. -/
def tileL (c : Dev nD) (t : Fin cfg0.N) : FVec Ideal S1024x512 .f32 :=
  k0_pay11 (k0_pay5 (iblk m c 0 t) (iblk m c 1 t) (iblk m c 2 t) (iblk m c 3 t)) (k0_pay6 (BitVec.ofNat 32 ((grid0.coords t) 0).val)) (k0_pay7 (BitVec.ofNat 32 ((grid0.coords t) 1).val))
    (k0_pay8 (BitVec.ofNat 32 ((grid0.coords t) 0).val)) (k0_pay9 (BitVec.ofNat 32 ((grid0.coords t) 0).val)) (k0_pay10 (BitVec.ofNat 32 ((grid0.coords t) 0).val))

/-- Its entries are the reference's loss entries of the tile's rows and columns. -/
theorem tileL_apply (c : Dev nD) (t : Fin cfg0.N) (p : Fin 1024) (q : Fin 512)
    (hr : 1024 * (t.val / 16) + p.val < 8192) (hs : 512 * (t.val % 16) + q.val < 8192) :
    tileL m c t (ix2 p q) = Cert.ReferenceIdeal.RefRun.lossM (F := Ideal) (X m c) (ix2 ⟨1024 * (t.val / 16) + p.val, hr⟩ ⟨512 * (t.val % 16) + q.val, hs⟩) := by
  obtain ⟨e0, e1⟩ := coords_facts t
  unfold tileL
  rw [e0, e1]
  exact pay11_apply (iblk m c 0 t) (iblk m c 1 t) (iblk m c 2 t) (iblk m c 3 t) (X m c) (t.val / 16) (t.val % 16) p q hr hs
    (fun k => iblk0_apply m c t p k hr) (fun k => iblk1_apply m c t q k hs) (iblk2_apply m c t p hr) (iblk3_apply m c t q hs)

theorem row_lt (t : Fin cfg0.N) (p : Fin 1024) : 1024 * (t.val / 16) + p.val < 8192 := by
  have hN : t.val < 128 := lt_of_lt_of_eq t.isLt (show cfg0.N = 128 from N_0)
  have := p.isLt; omega
theorem col_lt (t : Fin cfg0.N) (q : Fin 512) : 512 * (t.val % 16) + q.val < 8192 := by
  have := q.isLt; omega

/-- A column vector of length 1024 cast to a 1024 x 1 array reads its row. -/
theorem cast_col {α : Type} (v : S1024.Idx → α) (p : Fin 1024) : shapeCast S1024x1 v Facts₀.shapeCasts_S1024_S1024x1 (ix2 p (0 : Fin 1)) = v (ix1 p) :=
  shapeCast_apply _ _ _ (ix1 p) (by rw [Shape.rowMajor_val_one, Shape.rowMajor_val_two]; simp)

/-- A sum along the 512 columns of a 1024 x 512 tile, read at a row, is the sum of the row's entries. -/
theorem rowRed (src : FVec Ideal S1024x512 .f32) (p : Fin 1024) :
    multiReduction .add [1] S1024 src 0x00000000#32 Facts₀.reduces_S1024x512_S1024 (.inl rfl) rfl (ix1 p) = ∑ q : Fin 512, src (ix2 p q) :=
  (Ideal.multiReduction_add_single src 0x00000000#32 Facts₀.reduces_S1024x512_S1024 (.inl rfl) rfl (ix1 p)).trans
    (Finset.sum_congr rfl fun q _ => congrArg src (funext fun a => Fin.ext (by match a with | ⟨0, _⟩ => rfl | ⟨1, _⟩ => rfl)))

/-- The tile's row sums: each the sum of the row's 512 loss entries in the tile. -/
theorem rsAt_apply (c : Dev nD) (t : Fin cfg0.N) (p : Fin 1024) :
    rsAt m c t (ix2 p (0 : Fin 1)) = ∑ q ∈ Finset.range 512, LN m c (1024 * (t.val / 16) + p.val) (512 * (t.val % 16) + q) := by
  show shapeCast S1024x1 (multiReduction .add [1] S1024 (tileL m c t) 0x00000000#32 Facts₀.reduces_S1024x512_S1024 (.inl rfl) rfl) Facts₀.shapeCasts_S1024_S1024x1 (ix2 p (0 : Fin 1)) = _
  refine (cast_col _ p).trans ((rowRed (tileL m c t) p).trans ?_)
  rw [Finset.sum_range]
  refine Finset.sum_congr rfl fun q _ => ?_
  rw [tileL_apply m c t p q (row_lt t p) (col_lt t q)]
  unfold LN
  rw [dif_pos ⟨row_lt t p, col_lt t q⟩]

/-- The tile's row counts: each the number of the row's non-zero loss entries in the tile. -/
theorem cntAt_apply (c : Dev nD) (t : Fin cfg0.N) (p : Fin 1024) :
    shapeCast S1024x1 (multiReduction .add [1] S1024 (sitofp (F := Ideal) .f32 (extui 32 (nzAt m c t) Facts₀.natLt_1_32)) 0x00000000#32 Facts₀.reduces_S1024x512_S1024 (.inl rfl) rfl)
        Facts₀.shapeCasts_S1024_S1024x1 (ix2 p (0 : Fin 1))
      = ∑ q ∈ Finset.range 512, NN m c (1024 * (t.val / 16) + p.val) (512 * (t.val % 16) + q) := by
  refine (cast_col _ p).trans ((rowRed _ p).trans ?_)
  rw [Finset.sum_range]
  refine Finset.sum_congr rfl fun q _ => ?_
  show (((((FloatOps.cmpf (F := Ideal) .one (tileL m c t (ix2 p q)) (Ideal.ofBits .f32 0x00000000#32)).setWidth 32).toInt : ℤ) : ℝ) : EReal) = _
  rw [tileL_apply m c t p q (row_lt t p) (col_lt t q)]
  unfold NN
  rw [dif_pos ⟨row_lt t p, col_lt t q⟩]
  rfl

/-- The accumulator payloads at a row: the cleared value is zero, -/
theorem pay1_apply (p : Fin 1024) : k0_pay1 (F := Ideal) (ix2 p (0 : Fin 1)) = 0 := by
  unfold k0_pay1; rw [shapeCast_self, broadcast_apply]; exact Ideal.ofBits_zero_f32
theorem pay2_apply (p : Fin 1024) : k0_pay2 (F := Ideal) (ix2 p (0 : Fin 1)) = 0 := by
  unfold k0_pay2; rw [shapeCast_self, broadcast_apply]; exact Ideal.ofBits_zero_f32
/-- and an update adds the tile's row sum, or row count, to what was there. -/
theorem pay3_apply (rs : FVec Ideal S1024x1 .f32) (prev : Vec Ideal S1024x1 .f32) (i : S1024x1.Idx) :
    k0_pay3 rs prev i = prev i + rs i := by
  unfold k0_pay3; rw [shapeCast_self, addf_apply]
theorem pay4_apply (nz : IVec S1024x512 1) (prev : Vec Ideal S1024x1 .f32) (i : S1024x1.Idx) :
    k0_pay4 (F := Ideal) nz prev i = prev i
      + shapeCast S1024x1 (multiReduction .add [1] S1024 (sitofp (F := Ideal) .f32 (extui 32 nz Facts₀.natLt_1_32)) 0x00000000#32 Facts₀.reduces_S1024x512_S1024 (.inl rfl) rfl)
          Facts₀.shapeCasts_S1024_S1024x1 i := by
  unfold k0_pay4; rw [shapeCast_self, addf_apply]

/-! ## The accumulators in closed form -/

/-- One point's effect on the sum accumulator at a row. -/
theorem stepS_apply (t : Fin cfg0.N) (rs : FVec Ideal S1024x1 .f32) (prev : Vec Ideal S1024x1 .f32) (p : Fin 1024) :
    stepS t rs prev (ix2 p (0 : Fin 1)) =
      if 2 * (t.val / 16) < t.val % 16 + 1 then (if t.val % 16 = 0 then 0 else prev (ix2 p (0 : Fin 1))) + rs (ix2 p (0 : Fin 1))
      else (if t.val % 16 = 0 then 0 else prev (ix2 p (0 : Fin 1))) := by
  unfold stepS
  by_cases h2 : 2 * (t.val / 16) < t.val % 16 + 1
  · rw [if_pos h2, if_pos h2, pay3_apply]
    by_cases hj : t.val % 16 = 0
    · rw [if_pos hj, if_pos hj, pay1_apply]
    · rw [if_neg hj, if_neg hj]
  · rw [if_neg h2, if_neg h2]
    by_cases hj : t.val % 16 = 0
    · rw [if_pos hj, if_pos hj, pay1_apply]
    · rw [if_neg hj, if_neg hj]

/-- One point's effect on the count accumulator at a row. -/
theorem stepC_apply (t : Fin cfg0.N) (nz : IVec S1024x512 1) (prev : Vec Ideal S1024x1 .f32) (p : Fin 1024) :
    stepC (F := Ideal) t nz prev (ix2 p (0 : Fin 1)) =
      if 2 * (t.val / 16) < t.val % 16 + 1 then (if t.val % 16 = 0 then 0 else prev (ix2 p (0 : Fin 1)))
        + shapeCast S1024x1 (multiReduction .add [1] S1024 (sitofp (F := Ideal) .f32 (extui 32 nz Facts₀.natLt_1_32)) 0x00000000#32 Facts₀.reduces_S1024x512_S1024 (.inl rfl) rfl)
            Facts₀.shapeCasts_S1024_S1024x1 (ix2 p (0 : Fin 1))
      else (if t.val % 16 = 0 then 0 else prev (ix2 p (0 : Fin 1))) := by
  unfold stepC
  by_cases h2 : 2 * (t.val / 16) < t.val % 16 + 1
  · rw [if_pos h2, if_pos h2, pay4_apply]
    by_cases hj : t.val % 16 = 0
    · rw [if_pos hj, if_pos hj, pay2_apply]
    · rw [if_neg hj, if_neg hj]
  · rw [if_neg h2, if_neg h2]
    by_cases hj : t.val % 16 = 0
    · rw [if_pos hj, if_pos hj, pay2_apply]
    · rw [if_neg hj, if_neg hj]

theorem lt_N {n : ℕ} (h : n < 128) : n < cfg0.N := lt_of_lt_of_eq h (show cfg0.N = 128 from N_0).symm

/-- The sum accumulator after point `n` at row `p` of its row block (zero outside the grid or the block); -/
def aS (c : Dev nD) (n p : ℕ) : EReal :=
  if h : n < 128 ∧ p < 1024 then (scrAt m c n (lt_N h.1)).1 (ix2 ⟨p, h.2⟩ (0 : Fin 1)) else 0
/-- the tile's row sum there; -/
def tS (c : Dev nD) (n p : ℕ) : EReal :=
  if h : n < 128 ∧ p < 1024 then rsAt m c ⟨n, lt_N h.1⟩ (ix2 ⟨p, h.2⟩ (0 : Fin 1)) else 0
/-- the count accumulator; -/
def aC (c : Dev nD) (n p : ℕ) : EReal :=
  if h : n < 128 ∧ p < 1024 then (scrAt m c n (lt_N h.1)).2 (ix2 ⟨p, h.2⟩ (0 : Fin 1)) else 0
/-- the tile's row count. -/
def tC (c : Dev nD) (n p : ℕ) : EReal :=
  if h : n < 128 ∧ p < 1024 then
    shapeCast S1024x1 (multiReduction .add [1] S1024 (sitofp (F := Ideal) .f32 (extui 32 (nzAt m c ⟨n, lt_N h.1⟩) Facts₀.natLt_1_32)) 0x00000000#32 Facts₀.reduces_S1024x512_S1024 (.inl rfl) rfl)
      Facts₀.shapeCasts_S1024_S1024x1 (ix2 ⟨p, h.2⟩ (0 : Fin 1))
  else 0

/-- A skipped tile lies strictly below the diagonal: its entries of the loss matrix are zero, -/
theorem LN_skipped (c : Dev nD) (n p q : ℕ) (hn : n < 128) (hp : p < 1024) (hq : q < 512) (h2 : ¬ 2 * (n / 16) < n % 16 + 1) :
    LN m c (1024 * (n / 16) + p) (512 * (n % 16) + q) = 0 := by
  unfold LN
  rw [dif_pos ⟨by omega, by omega⟩]
  exact Cert.ReferenceIdeal.RefRun.lossM_below _ _ _ (by show 512 * (n % 16) + q < 1024 * (n / 16) + p; omega)
/-- and so are their non-zero flags. -/
theorem NN_skipped (c : Dev nD) (n p q : ℕ) (hn : n < 128) (hp : p < 1024) (hq : q < 512) (h2 : ¬ 2 * (n / 16) < n % 16 + 1) :
    NN m c (1024 * (n / 16) + p) (512 * (n % 16) + q) = 0 := by
  unfold NN
  rw [dif_pos ⟨by omega, by omega⟩, Cert.ReferenceIdeal.RefRun.lossM_below _ _ _ (by show 512 * (n % 16) + q < 1024 * (n / 16) + p; omega)]
  show (((((FloatOps.cmpf (F := Ideal) .une (0 : EReal) (Ideal.ofBits .f32 0x00000000#32)).setWidth 32).toInt : ℤ) : ℝ) : EReal) = 0
  rw [Ideal.ofBits_zero_f32]
  have : FloatOps.cmpf (F := Ideal) (φ := .f32) .une (0 : EReal) (0 : EReal) = 0#1 := by
    show BitVec.ofBool (decide ((0 : EReal) ≠ 0)) = 0#1
    simp
  rw [this]; simp

/-- After point `n` the sum accumulator holds, row by row, the row's partial sum over the first 512 (n % 16 + 1) columns
    of the loss matrix. -/
theorem aS_closed (c : Dev nD) : ∀ n, n < 128 → ∀ p, p < 1024 →
    aS m c n p = ∑ s ∈ Finset.range (512 * (n % 16 + 1)), LN m c (1024 * (n / 16) + p) s := by
  refine acc_closed 1024 (LN m c) (aS m c) (tS m c) ?_ ?_ ?_ ?_
  · intro p hp
    unfold aS tS
    rw [dif_pos ⟨by norm_num, hp⟩, dif_pos ⟨by norm_num, hp⟩]
    show stepS ⟨0, _⟩ (rsAt m c ⟨0, _⟩) (k0_pay1 (F := Ideal)) (ix2 ⟨p, hp⟩ (0 : Fin 1)) = _
    rw [stepS_apply, if_pos (show 2 * (0 / 16) < 0 % 16 + 1 by decide), if_pos (show 0 % 16 = 0 by rfl)]
  · intro n p hn hp
    unfold aS tS
    rw [dif_pos ⟨hn, hp⟩, dif_pos ⟨by omega, hp⟩, dif_pos ⟨hn, hp⟩]
    show stepS ⟨n + 1, _⟩ (rsAt m c ⟨n + 1, _⟩) (scrAt m c n _).1 (ix2 ⟨p, hp⟩ (0 : Fin 1)) = _
    rw [stepS_apply]
  · intro n p hn hp h2
    unfold tS
    rw [dif_pos ⟨hn, hp⟩]
    exact rsAt_apply m c ⟨n, lt_N hn⟩ ⟨p, hp⟩
  · intro n p hn hp h2
    exact Finset.sum_eq_zero fun q hq => LN_skipped m c n p q hn hp (Finset.mem_range.mp hq) h2

/-- The count accumulator likewise, over the non-zero flags. -/
theorem aC_closed (c : Dev nD) : ∀ n, n < 128 → ∀ p, p < 1024 →
    aC m c n p = ∑ s ∈ Finset.range (512 * (n % 16 + 1)), NN m c (1024 * (n / 16) + p) s := by
  refine acc_closed 1024 (NN m c) (aC m c) (tC m c) ?_ ?_ ?_ ?_
  · intro p hp
    unfold aC tC
    rw [dif_pos ⟨by norm_num, hp⟩, dif_pos ⟨by norm_num, hp⟩]
    show stepC ⟨0, _⟩ (nzAt m c ⟨0, _⟩) (k0_pay2 (F := Ideal)) (ix2 ⟨p, hp⟩ (0 : Fin 1)) = _
    rw [stepC_apply, if_pos (show 2 * (0 / 16) < 0 % 16 + 1 by decide), if_pos (show 0 % 16 = 0 by rfl)]
  · intro n p hn hp
    unfold aC tC
    rw [dif_pos ⟨hn, hp⟩, dif_pos ⟨by omega, hp⟩, dif_pos ⟨hn, hp⟩]
    show stepC ⟨n + 1, _⟩ (nzAt m c ⟨n + 1, _⟩) (scrAt m c n _).2 (ix2 ⟨p, hp⟩ (0 : Fin 1)) = _
    rw [stepC_apply]
  · intro n p hn hp h2
    unfold tC
    rw [dif_pos ⟨hn, hp⟩]
    exact cntAt_apply m c ⟨n, lt_N hn⟩ ⟨p, hp⟩
  · intro n p hn hp h2
    exact Finset.sum_eq_zero fun q hq => NN_skipped m c n p q hn hp (Finset.mem_range.mp hq) h2

/-! ## The two output arrays after the run -/

/-- The sum output, as one function of the row: the row's whole sum of the loss matrix; -/
def G4 (c : Dev nD) : S8192x1.Idx → EReal := fun i => ∑ s ∈ Finset.range 8192, LN m c (i 0).val s
/-- the count output: the row's number of non-zero entries. -/
def G5 (c : Dev nD) : S8192x1.Idx → EReal := fun i => ∑ s ∈ Finset.range 8192, NN m c (i 0).val s

/-- An index of an output array is in point `t`'s block iff each coordinate is in the block's range on its axis. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v2_0).slice (win0_4.rect t)).set ↔ _
  rw [View.set_slice_whole, Rect.mem_set_unit]
  exact Iff.rfl
theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v2_1).slice (win0_5.rect t)).set ↔ _
  rw [View.set_slice_whole, Rect.mem_set_unit]
  exact Iff.rfl

/-- WHAT A POINT OF COLUMN BLOCK 15 WRITES BACK is its row block of the whole-row sums: the accumulator has by then swept all
    sixteen column blocks. -/
theorem flushed4_eq (c : Dev nD) (t : Fin cfg0.N) (hf : (cfg0.win 4).flush t = true) :
    (dats m 0 c).flushed 4 t = ((cfg0.win 4).blk t).view.read (Elt Ideal) (G4 m c) := by
  have h15 : t.val % 16 = 15 := (flush0_4 t).mp hf
  have hN : t.val < 128 := lt_of_lt_of_eq t.isLt (show cfg0.N = 128 from N_0)
  obtain ⟨-, -, -, -, -, -, -, -, e0, e1, -⟩ := idx_facts t
  show (cfg0.win 4).cut (grid0.coords t) ((dats m 0 c).after 4 t) = _
  rw [after_4]
  funext y
  obtain ⟨p, z, rfl⟩ : ∃ (p : Fin 1024) (z : Fin 1), y = ix2 p z := ⟨y 0, y 1, eq_ix2 y⟩
  obtain rfl : z = 0 := Subsingleton.elim _ _
  have hA := aS_closed m c t.val hN p.val p.isLt
  unfold aS at hA
  rw [dif_pos ⟨hN, p.isLt⟩] at hA
  refine Eq.trans (b := (scrAt m c t.val (lt_N hN)).1 (ix2 ⟨p.val, p.isLt⟩ (0 : Fin 1))) rfl (hA.trans ?_)
  show _ = G4 m c (((cfg0.win 4).blk t).view.emb (ix2 p (0 : Fin 1)))
  unfold G4
  have he : ((((cfg0.win 4).blk t).view.emb (ix2 p (0 : Fin 1))) 0).val = 1024 * (t.val / 16) + p.val := by
    show win0_4.index t (0 : Fin 2) * 1024 + 1 * p.val = _; omega
  rw [he, h15]

theorem flushed5_eq (c : Dev nD) (t : Fin cfg0.N) (hf : (cfg0.win 5).flush t = true) :
    (dats m 0 c).flushed 5 t = ((cfg0.win 5).blk t).view.read (Elt Ideal) (G5 m c) := by
  have h15 : t.val % 16 = 15 := (flush0_5 t).mp hf
  have hN : t.val < 128 := lt_of_lt_of_eq t.isLt (show cfg0.N = 128 from N_0)
  obtain ⟨-, -, -, -, -, -, -, -, -, -, e0, e1⟩ := idx_facts t
  show (cfg0.win 5).cut (grid0.coords t) ((dats m 0 c).after 5 t) = _
  rw [after_5]
  funext y
  obtain ⟨p, z, rfl⟩ : ∃ (p : Fin 1024) (z : Fin 1), y = ix2 p z := ⟨y 0, y 1, eq_ix2 y⟩
  obtain rfl : z = 0 := Subsingleton.elim _ _
  have hA := aC_closed m c t.val hN p.val p.isLt
  unfold aC at hA
  rw [dif_pos ⟨hN, p.isLt⟩] at hA
  refine Eq.trans (b := (scrAt m c t.val (lt_N hN)).2 (ix2 ⟨p.val, p.isLt⟩ (0 : Fin 1))) rfl (hA.trans ?_)
  show _ = G5 m c (((cfg0.win 5).blk t).view.emb (ix2 p (0 : Fin 1)))
  unfold G5
  have he : ((((cfg0.win 5).blk t).view.emb (ix2 p (0 : Fin 1))) 0).val = 1024 * (t.val / 16) + p.val := by
    show win0_5.index t (0 : Fin 2) * 1024 + 1 * p.val = _; omega
  rw [he, h15]

/-- Every row of an output is in the block of its row block's last point. -/
theorem cover4 (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  have htn : 16 * ((i 0).val / 1024) + 15 < 128 := by omega
  refine ⟨⟨16 * ((i 0).val / 1024) + 15, lt_N htn⟩, (flush0_4 _).mpr (by show (16 * ((i 0).val / 1024) + 15) % 16 = 15; omega), ?_⟩
  rw [mem_blk4]
  obtain ⟨-, -, -, -, -, -, -, -, e0, e1, -⟩ := idx_facts ⟨16 * ((i 0).val / 1024) + 15, lt_N htn⟩
  have e0' : win0_4.index ⟨16 * ((i 0).val / 1024) + 15, lt_N htn⟩ (0 : Fin 2) = (16 * ((i 0).val / 1024) + 15) / 16 := e0
  intro a
  match a with
  | ⟨0, _⟩ =>
    show win0_4.index _ (0 : Fin 2) * 1024 ≤ (i 0).val ∧ (i 0).val < win0_4.index _ (0 : Fin 2) * 1024 + 1024
    rw [e0']; omega
  | ⟨1, _⟩ =>
    show win0_4.index _ (1 : Fin 2) * 1 ≤ (i 1).val ∧ (i 1).val < win0_4.index _ (1 : Fin 2) * 1 + 1
    rw [e1]; omega

theorem cover5 (i : S8192x1.Idx) : ∃ t : Fin cfg0.N, (cfg0.win 5).flush t = true ∧ i ∈ ((cfg0.win 5).blk t).view.set := by
  have hi0 : (i 0).val < 8192 := (i 0).isLt
  have hi1 : (i 1).val < 1 := (i 1).isLt
  have htn : 16 * ((i 0).val / 1024) + 15 < 128 := by omega
  refine ⟨⟨16 * ((i 0).val / 1024) + 15, lt_N htn⟩, (flush0_5 _).mpr (by show (16 * ((i 0).val / 1024) + 15) % 16 = 15; omega), ?_⟩
  rw [mem_blk5]
  obtain ⟨-, -, -, -, -, -, -, -, -, -, e0, e1⟩ := idx_facts ⟨16 * ((i 0).val / 1024) + 15, lt_N htn⟩
  have e0' : win0_5.index ⟨16 * ((i 0).val / 1024) + 15, lt_N htn⟩ (0 : Fin 2) = (16 * ((i 0).val / 1024) + 15) / 16 := e0
  intro a
  match a with
  | ⟨0, _⟩ =>
    show win0_5.index _ (0 : Fin 2) * 1024 ≤ (i 0).val ∧ (i 0).val < win0_5.index _ (0 : Fin 2) * 1024 + 1024
    rw [e0']; omega
  | ⟨1, _⟩ =>
    show win0_5.index _ (1 : Fin 2) * 1 ≤ (i 1).val ∧ (i 1).val < win0_5.index _ (1 : Fin 2) * 1 + 1
    rw [e1]; omega

/-- THE OUTPUT ARRAYS after the run: every row's whole sum, and every row's whole count. -/
theorem final4 (c : Dev nD) : (dats m 0 c).arrAt 4 cfg0.N = G4 m c :=
  (dats m 0 c).arrAt_eq_of_cover 4 (G4 m c) (fun t hf => flushed4_eq m c t hf) cover4
theorem final5 (c : Dev nD) : (dats m 0 c).arrAt 5 cfg0.N = G5 m c :=
  (dats m 0 c).arrAt_eq_of_cover 5 (G5 m c) (fun t hf => flushed5_eq m c t hf) cover5

end Cert.KernelIdeal.Body

end
-- ==== Proof.KIValue4.lean ====
/-
  The kernel's result is the reference's (at the ideal values).

  After the region the host operations sum the two output arrays and divide, with zero in place of a zero quotient. The
  sum of the row sums is the sum over the whole loss matrix, and the sum of the row counts is the integer count of the
  matrix's non-zero entries read as a real; so the quotient is the reference's.
-/
import proofs.«173804_j30554397344482_2_alg».proof.Proof.KILaunch
import proofs.«173804_j30554397344482_2_alg».proof.Proof.RRun
import proofs.«173804_j30554397344482_2_alg».proof.Proof.LibIntCount
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«173804_j30554397344482_2_alg».proof.Proof.KIValue3
set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

open Cert.IndexWords Idealize.ShloMosaic.LibBlockSum

/-- The quotient of two sums with zero in place of a zero quotient, in the kernel's own terms. -/
def finishK (o0 o1 : S8192x1.Idx → EReal) : S_.Idx → EReal :=
  select (cmpf .oeq
      (Host.divf (F := Ideal) (Host.reduceAdd (F := Ideal) o0 (constant (F := Ideal) S_ .f32 0x00000000#32) Facts₀.reducesTo_S8192x1_S_d0_1 Facts₀.h_S_)
        (Host.reduceAdd (F := Ideal) o1 (constant (F := Ideal) S_ .f32 0x00000000#32) Facts₀.reducesTo_S8192x1_S_d0_1 Facts₀.h_S_))
      (constant (F := Ideal) S_ .f32 0x00000000#32))
    (constant (F := Ideal) S_ .f32 0x00000000#32)
    (Host.divf (F := Ideal) (Host.reduceAdd (F := Ideal) o0 (constant (F := Ideal) S_ .f32 0x00000000#32) Facts₀.reducesTo_S8192x1_S_d0_1 Facts₀.h_S_)
      (Host.reduceAdd (F := Ideal) o1 (constant (F := Ideal) S_ .f32 0x00000000#32) Facts₀.reducesTo_S8192x1_S_d0_1 Facts₀.h_S_))

set_option maxHeartbeats 1000000 in
/-- The host operations after the region, read back from any contents: the result is that quotient of the two output arrays. -/
theorem tail_eq (W : Valuation τ sig (Elt Ideal)) :
    (StableHlo.after hostOps1_1 (StableHlo.after hostOps1 W) (Proc.devRef .tc main_v7) : S_.Idx → EReal)
      = finishK (W (Proc.devRef .tc main_v2_0)) (W (Proc.devRef .tc main_v2_1)) := by
  unfold finishK
  after_results
  rfl

/-- After the host operations that follow the region the result is that quotient of the two output arrays as the region left them. -/
theorem Vend_v7 (c : Dev nD) :
    (Vend m c (Proc.devRef .tc main_v7) : S_.Idx → EReal) = finishK ((dats m 0 c).arrAt 4 cfg0.N) ((dats m 0 c).arrAt 5 cfg0.N) := by
  refine (tail_eq (Vx m c)).trans ?_
  rw [Vx_out0, Vx_out1]
/-- A sum over a one-column array is the sum over its rows. -/
theorem sum_col (f : S8192x1.Idx → EReal) : ∑ i, f i = ∑ r : Fin 8192, f (ix2 r (0 : Fin 1)) := by
  rw [sum_idx2]
  exact Finset.sum_congr rfl fun r _ => Fin.sum_univ_one _

/-- THE TOTAL: the sum of the kernel's row sums is the reference's sum over the whole loss matrix (a sum of sums, regrouped). -/
theorem total_eq (c : Dev nD) :
    Host.reduceAdd (F := Ideal) (G4 m c) (constant (F := Ideal) S_ .f32 0x00000000#32) Facts₀.reducesTo_S8192x1_S_d0_1 Facts₀.h_S_
      = Cert.ReferenceIdeal.RefRun.total (F := Ideal) (Cert.ReferenceIdeal.RefRun.lossM (F := Ideal) (X m c)) := by
  funext j
  rw [Cert.ReferenceIdeal.RefRun.total_apply]
  unfold Host.reduceAdd
  rw [Ideal.hostReduceAdd_def, Ideal.hostReduceAdd_total _ (fun b => b.elim0)]
  try rw [constant_apply]
  rw [sum_col]
  refine congrArg (Ideal.ofBits .f32 0x00000000#32 + ·) ?_
  refine Finset.sum_congr rfl fun r _ => ?_
  unfold G4
  rw [Finset.sum_range]
  refine Finset.sum_congr rfl fun s _ => ?_
  unfold LN
  rw [dif_pos ⟨r.isLt, s.isLt⟩]

/-- THE COUNT: the sum of the kernel's row counts, each a sum of flags read as 0 or 1, is the reference's integer count of
    the non-zero entries read as a real. -/
theorem count_eq (c : Dev nD) :
    Host.reduceAdd (F := Ideal) (G5 m c) (constant (F := Ideal) S_ .f32 0x00000000#32) Facts₀.reducesTo_S8192x1_S_d0_1 Facts₀.h_S_
      = sitofp (F := Ideal) .f32 (Cert.ReferenceIdeal.RefRun.cntI (F := Ideal) (Cert.ReferenceIdeal.RefRun.lossM (F := Ideal) (X m c))) := by
  funext j
  unfold Host.reduceAdd
  rw [Ideal.hostReduceAdd_def, Ideal.hostReduceAdd_total _ (fun b => b.elim0)]
  try rw [constant_apply]
  rw [Ideal.ofBits_zero_f32, zero_add, sum_col, sitofp_apply]
  rw [show ∀ x : BitVec 32, FloatOps.sitofp (F := Ideal) .f32 x = ((((x.toInt : ℤ) : ℝ)) : EReal) from fun _ => rfl]
  rw [Cert.ReferenceIdeal.RefRun.cntI_apply]
  refine Finset.sum_congr rfl fun r _ => ?_
  unfold G5
  rw [Finset.sum_range]
  refine Finset.sum_congr rfl fun s _ => ?_
  unfold NN
  rw [dif_pos ⟨r.isLt, s.isLt⟩]

/-- THE KERNEL'S RESULT is the reference's result of the argument. -/
theorem result_eq (c : Dev nD) :
    (Vend m c (Proc.devRef .tc main_v7) : S_.Idx → EReal) = Cert.ReferenceIdeal.RefRun.refResult (F := Ideal) (X m c) := by
  rw [Vend_v7, final4, final5]
  unfold finishK Cert.ReferenceIdeal.RefRun.refResult Cert.ReferenceIdeal.RefRun.finish
  rw [total_eq, count_eq]

end Cert.KernelIdeal.Body

end
-- ==== Proof.lean ====
/-
  A pairwise cosine-similarity margin loss over 8192 rows of 512 features, as a tiled kernel and as its plain definition.

  Both programs compute, for rows x_r of the argument: sim(r, s) = <x_r, x_s> / max(|x_r| |x_s|, 1e-8); the loss entry
  L(r, s), which is 0 for s < r and otherwise 1 - sim(r, s) when r and s are of one identity class (r div 4 = s div 4) and
  max(sim(r, s) - 1, 0) when not; the sum of all entries of L over the number of its non-zero entries; and 0 in place of
  a zero quotient.

  The reference forms L as one 8192 x 8192 matrix, sums it, counts its non-zero entries as an integer and divides. The
  kernel sweeps L in tiles of 1024 rows by 512 columns, skipping the tiles wholly below the diagonal, and accumulates each
  row's sum and each row's count (as a sum of 0 / 1 values) across the sixteen column tiles; the sums of those row sums
  and row counts are then divided. The two agree at the ideal values because (a) tile entry (p, q) of tile (i, j) is
  L(1024 i + p, 512 j + q): the tile's matrix product is the same sum over the 512 features, a change of float format is
  the identity, the two spellings of floor division by four agree, and "column ≥ row" is the negation of
  "row - 1 ≥ column"; (b) L is zero on every skipped tile, so skipping changes neither a row's sum nor its count;
  (c) addition of extended reals is commutative and associative, so a sum of row sums taken tile by tile is the sum over
  the whole matrix — no finiteness of the input is used; (d) an integer count of at most 2^26 ones, taken by a wrapping
  32-bit sum, is the exact sum of the ones.

  The kernel's frame (it runs to the end, faults nowhere, leaves its argument as it found it) is proved by hand at both
  instances: the body in its five control cases, the accumulators carried in the region's invariant from point to point,
  and @main as host operations, the kernel region, host operations. The two input arrays each feed two windows of the
  region, so each array's ownership is dealt in halves to its two windows at the region's entry and rejoined at its exit.
-/
import proofs.«173804_j30554397344482_2_alg».proof.Defs
import proofs.«173804_j30554397344482_2_alg».proof.Proof.Gen.Kernel
import proofs.«173804_j30554397344482_2_alg».proof.Proof.Gen.KernelIdeal
import proofs.«173804_j30554397344482_2_alg».proof.Proof.Gen.ReferenceIdeal
import proofs.«173804_j30554397344482_2_alg».proof.Proof.Gen.Pre_finite_inputs
import proofs.«173804_j30554397344482_2_alg».proof.Proof.KLaunch
import proofs.«173804_j30554397344482_2_alg».proof.Proof.KIValue4
import proofs.«173804_j30554397344482_2_alg».proof.Proof.RRun
import Idealize.ShloMosaic.Adequacy
import Idealize.ShloMosaic.Init

noncomputable section

namespace Cert.Proof

open Idealize.ShloMosaic Idealize.SL.Sem

/-- The word-level kernel runs and leaves its argument unchanged. -/
theorem frame_K : Cert.frame_Kernel := fun m ρ _ => Cert.Kernel.Body.frame m ρ

/-- So does its idealization. -/
theorem frame_KI : Cert.frame_KernelIdeal := fun m ρ _ => Cert.KernelIdeal.Body.frame m ρ

/-- So does the reference: its run with the result dropped. -/
theorem frame_R : Cert.frame_ReferenceIdeal := fun m ρ _ =>
  (θ_run Cert.ReferenceIdeal.defs _ _).mono (fun _ h c => (h c).2) (Cert.ReferenceIdeal.RefRun.run (F := Ideal) m ρ)

/-- The idealization rewrote no operation: nothing to preserve. -/
theorem preserves : Cert.preserves_Kernel_KernelIdeal := trivial

/-- At the ideal values, from memories agreeing on the argument, both programs end with the reference's result of that
    argument. -/
theorem algebraic : Cert.algebraic_KernelIdeal_ReferenceIdeal := by
  intro m ρ m' ρ' _ hagree
  refine ⟨fun c => Cert.ReferenceIdeal.RefRun.refResult (F := Ideal)
    (m ((c.tc : Thread Cert.KernelIdeal.nD Cert.KernelIdeal.τ).loc Cert.KernelIdeal.main_arg0)), ?_, ?_⟩
  · exact (θ_run Cert.KernelIdeal.defs _ _).mono
      (fun r h c => ⟨(h c).1.trans (Cert.KernelIdeal.Body.result_eq m c), (h c).2⟩) (Cert.KernelIdeal.Body.run_main (F := Ideal) m ρ)
  · exact (θ_run Cert.ReferenceIdeal.defs _ _).mono
      (fun r h c => ⟨by rw [(h c).1, hagree c], (h c).2⟩) (Cert.ReferenceIdeal.RefRun.run (F := Ideal) m' ρ')

theorem claim : Cert.Claim :=
  ⟨Cert.Kernel.Gen.facts, Cert.KernelIdeal.Gen.facts, Cert.ReferenceIdeal.Gen.facts, Cert.Pre_finite_inputs.Gen.facts,
    frame_K, frame_KI, frame_R, preserves, algebraic⟩

end Cert.Proof

end
